-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S2x64 : Shape := ⟨2, ![2, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2x64 : S_.BroadcastsInDim S2x64 (![] : Fin 0 → Fin S2x64.rank)
  reducesTo_S2x64_S_d0_1 : S2x64.ReducesTo [0, 1] S_

variable [Facts]

def fn_part3 {F : FTy → Type} [FloatOps F] (main_arg12 : FVec F S64x64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S2x64 .f32) (main_arg9 : FVec F S2x64 .f32) (main_arg10 : FVec F S64x64 .f32) (main_arg11 : FVec F S64 .f32) (main_arg12 : FVec F S64x64 .f32) (main_arg13 : FVec F S64 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64 .f32 := Host.absf main_arg9
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S3x64 .f32) (main_arg6 : FVec F S3x64x64 .f32) (main_arg7 : FVec F S3x64 .f32) (main_arg8 : FVec F S2x64 .f32) (main_arg9 : FVec F S2x64 .f32) (main_arg10 : FVec F S64x64 .f32) (main_arg11 : FVec F S64 .f32) (main_arg12 : FVec F S64x64 .f32) (main_arg13 : FVec F S64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x64 .f32) (main_arg3 : FVec F S64 .f32) (main_arg4 : FVec F S3x64x64 .f32) (main_arg5 : FVec F S3x64 .f32) (main_arg6 : FVec F S3x64x64 .f32) (main_arg7 : FVec F S3x64 .f32) (main_arg8 : FVec F S2x64 .f32) (main_arg9 : FVec F S2x64 .f32) (main_arg10 : FVec F S64x64 .f32) (main_arg11 : FVec F S64 .f32) (main_arg12 : FVec F S64x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S2x64 : Shape := ⟨2, ![2, 64]⟩
abbrev S1x1600000 : Shape := ⟨2, ![1, 1600000]⟩
abbrev S1600000 : Shape := ⟨1, ![1600000]⟩
abbrev S1x64 : Shape := ⟨2, ![1, 64]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S20x320000 : Shape := ⟨2, ![20, 320000]⟩

abbrev nBuf : Space → Nat
  | .hbm => 170
  | .vmem => 60
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S3x64x64, .f32⟩
  | 5 => ⟨S3x64, .f32⟩
  | 6 => ⟨S3x64x64, .f32⟩
  | 7 => ⟨S3x64, .f32⟩
  | 8 => ⟨S2x64, .f32⟩
  | 9 => ⟨S2x64, .f32⟩
  | 10 => ⟨S64x64, .f32⟩
  | 11 => ⟨S64, .f32⟩
  | 12 => ⟨S64x64, .f32⟩
  | 13 => ⟨S64, .f32⟩
  | 14 => ⟨S1x1600000, .i32⟩
  | 15 => ⟨S1600000, .i32⟩
  | 16 => ⟨S1x1600000, .i32⟩
  | 17 => ⟨S1600000, .i32⟩
  | 18 => ⟨S1x64, .f32⟩
  | 19 => ⟨S100000x64, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x64, .f32⟩
  | 29 => ⟨S_, .f32⟩
  | 30 => ⟨S100000x64, .f32⟩
  | 31 => ⟨S1600000x1, .i32⟩
  | 32 => ⟨S100000x64, .f32⟩
  | 33 => ⟨S1x64x64, .f32⟩
  | 34 => ⟨S64x64, .f32⟩
  | 35 => ⟨S1x64, .f32⟩
  | 36 => ⟨S64, .f32⟩
  | 37 => ⟨S1x64x64, .f32⟩
  | 38 => ⟨S64x64, .f32⟩
  | 39 => ⟨S1x64, .f32⟩
  | 40 => ⟨S64, .f32⟩
  | 41 => ⟨S1x64, .f32⟩
  | 42 => ⟨S1x64, .f32⟩
  | 43 => ⟨S100000x64, .f32⟩
  | 44 => ⟨S_, .f32⟩
  | 45 => ⟨S64, .f32⟩
  | 46 => ⟨S_, .f32⟩
  | 47 => ⟨S64, .f32⟩
  | 48 => ⟨S64, .f32⟩
  | 49 => ⟨S_, .i32⟩
  | 50 => ⟨S_, .f32⟩
  | 51 => ⟨S64, .f32⟩
  | 52 => ⟨S1x64, .f32⟩
  | 53 => ⟨S_, .f32⟩
  | 54 => ⟨S1x64, .f32⟩
  | 55 => ⟨S1x64, .f32⟩
  | 56 => ⟨S100000x64, .f32⟩
  | 57 => ⟨S100000x64, .f32⟩
  | 58 => ⟨S100000x64, .f32⟩
  | 59 => ⟨S_, .f32⟩
  | 60 => ⟨S_, .f32⟩
  | 61 => ⟨S_, .f32⟩
  | 62 => ⟨S_, .f32⟩
  | 63 => ⟨S64, .f32⟩
  | 64 => ⟨S64, .f32⟩
  | 65 => ⟨S64, .f32⟩
  | 66 => ⟨S_, .f32⟩
  | 67 => ⟨S_, .i1⟩
  | 68 => ⟨S_, .f32⟩
  | 69 => ⟨S_, .f32⟩
  | 70 => ⟨S64, .f32⟩
  | 71 => ⟨S64, .f32⟩
  | 72 => ⟨S1x64, .f32⟩
  | 73 => ⟨S64, .f32⟩
  | 74 => ⟨S1x64, .f32⟩
  | 75 => ⟨S64, .f32⟩
  | 76 => ⟨S1x64, .f32⟩
  | 77 => ⟨S1x64, .f32⟩
  | 78 => ⟨S1x64, .f32⟩
  | 79 => ⟨S1x64, .f32⟩
  | 80 => ⟨S100000x64, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .f32⟩
  | 90 => ⟨S_, .f32⟩
  | 91 => ⟨S100000x64, .f32⟩
  | 92 => ⟨S1600000x1, .i32⟩
  | 93 => ⟨S100000x64, .f32⟩
  | 94 => ⟨S1x64x64, .f32⟩
  | 95 => ⟨S64x64, .f32⟩
  | 96 => ⟨S1x64, .f32⟩
  | 97 => ⟨S64, .f32⟩
  | 98 => ⟨S1x64x64, .f32⟩
  | 99 => ⟨S64x64, .f32⟩
  | 100 => ⟨S1x64, .f32⟩
  | 101 => ⟨S64, .f32⟩
  | 102 => ⟨S1x64, .f32⟩
  | 103 => ⟨S1x64, .f32⟩
  | 104 => ⟨S100000x64, .f32⟩
  | 105 => ⟨S_, .f32⟩
  | 106 => ⟨S64, .f32⟩
  | 107 => ⟨S_, .f32⟩
  | 108 => ⟨S64, .f32⟩
  | 109 => ⟨S64, .f32⟩
  | 110 => ⟨S_, .i32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S100000x64, .f32⟩
  | 118 => ⟨S100000x64, .f32⟩
  | 119 => ⟨S100000x64, .f32⟩
  | 120 => ⟨S_, .f32⟩
  | 121 => ⟨S_, .f32⟩
  | 122 => ⟨S_, .f32⟩
  | 123 => ⟨S_, .f32⟩
  | 124 => ⟨S64, .f32⟩
  | 125 => ⟨S64, .f32⟩
  | 126 => ⟨S64, .f32⟩
  | 127 => ⟨S_, .f32⟩
  | _ => ⟨S100000x64, .f32⟩

abbrev hbmTy0_1 (i : Nat) : BufTy := match i % 128 with
  | 0 => ⟨S_, .i1⟩
  | 1 => ⟨S_, .f32⟩
  | 2 => ⟨S_, .f32⟩
  | 3 => ⟨S64, .f32⟩
  | 4 => ⟨S64, .f32⟩
  | 5 => ⟨S1x64, .f32⟩
  | 6 => ⟨S64, .f32⟩
  | 7 => ⟨S1x64, .f32⟩
  | 8 => ⟨S64, .f32⟩
  | 9 => ⟨S1x64, .f32⟩
  | 10 => ⟨S1x64, .f32⟩
  | 11 => ⟨S1x64, .f32⟩
  | 12 => ⟨S1x64, .f32⟩
  | 13 => ⟨S100000x64, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S_, .f32⟩
  | 24 => ⟨S100000x64, .f32⟩
  | 25 => ⟨S1600000x1, .i32⟩
  | 26 => ⟨S100000x64, .f32⟩
  | 27 => ⟨S1x64x64, .f32⟩
  | 28 => ⟨S64x64, .f32⟩
  | 29 => ⟨S1x64, .f32⟩
  | 30 => ⟨S64, .f32⟩
  | 31 => ⟨S1x64x64, .f32⟩
  | 32 => ⟨S64x64, .f32⟩
  | 33 => ⟨S1x64, .f32⟩
  | 34 => ⟨S64, .f32⟩
  | 35 => ⟨S1x64, .f32⟩
  | 36 => ⟨S1x64, .f32⟩
  | 37 => ⟨S100000x64, .f32⟩
  | 38 => ⟨S1x64, .f32⟩
  | 39 => ⟨S1x64, .f32⟩
  | 40 => ⟨S100000x64, .f32⟩
  | 41 => ⟨S20x320000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S64x64, .f32⟩
  | .local _ .vmem, ⟨47, _⟩ => ⟨S1x64, .f32⟩
  | .local _ .vmem, ⟨48, _⟩ => ⟨S64x64, .f32⟩
  | .local _ .vmem, ⟨49, _⟩ => ⟨S1x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S64x64, .f32⟩
  | .local _ .vmem, ⟨55, _⟩ => ⟨S1x64, .f32⟩
  | .local _ .vmem, ⟨56, _⟩ => ⟨S64x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_c_3 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_c_4 : Ref sig .tc := ⟨.hbm, 81, rfl⟩
abbrev main_v40 : Ref sig .tc := ⟨.hbm, 82, rfl⟩
abbrev main_v41 : Ref sig .tc := ⟨.hbm, 83, rfl⟩
abbrev main_c_5 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_6 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_7 : Ref sig .tc := ⟨.hbm, 105, rfl⟩
abbrev main_v61 : Ref sig .tc := ⟨.hbm, 106, rfl⟩
abbrev main_cst_8 : Ref sig .tc := ⟨.hbm, 107, rfl⟩
abbrev main_v62 : Ref sig .tc := ⟨.hbm, 108, rfl⟩
abbrev main_v63 : Ref sig .tc := ⟨.hbm, 109, rfl⟩
abbrev main_c_9 : Ref sig .tc := ⟨.hbm, 110, rfl⟩
abbrev main_call1_cst : Ref sig .tc := ⟨.hbm, 111, rfl⟩
abbrev main_call1_v0 : Ref sig .tc := ⟨.hbm, 112, rfl⟩
abbrev main_call1_v1 : Ref sig .tc := ⟨.hbm, 113, rfl⟩
abbrev main_call1_cst_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_cst_1 : Ref sig .tc := ⟨.hbm, 121, rfl⟩
abbrev main_call1_v8 : Ref sig .tc := ⟨.hbm, 122, rfl⟩
abbrev main_call1_cst_2 : Ref sig .tc := ⟨.hbm, 123, rfl⟩
abbrev main_call1_v9 : Ref sig .tc := ⟨.hbm, 124, rfl⟩
abbrev main_call1_v10 : Ref sig .tc := ⟨.hbm, 125, rfl⟩
abbrev main_call1_v11 : Ref sig .tc := ⟨.hbm, 126, rfl⟩
abbrev main_call1_cst_3 : Ref sig .tc := ⟨.hbm, 127, rfl⟩
abbrev main_call1_v12 : Ref sig .tc := ⟨.hbm, 128, rfl⟩
abbrev main_call1_cst_4 : Ref sig .tc := ⟨.hbm, 129, rfl⟩
abbrev main_call1_call0_v0 : Ref sig .tc := ⟨.hbm, 130, rfl⟩
abbrev main_call1_call0_v1 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_c_10 : Ref sig .tc := ⟨.hbm, 142, rfl⟩
abbrev main_v74 : Ref sig .tc := ⟨.hbm, 143, rfl⟩
abbrev main_v75 : Ref sig .tc := ⟨.hbm, 144, rfl⟩
abbrev main_c_11 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_cst_12 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem6_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S10000x64_S10000x64 : S10000x64.ShapeCasts S10000x64
  shapeCasts_S64x64_S64x64 : S64x64.ShapeCasts S64x64
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  slices_S2x64_S1x64_0_0 : S2x64.Slices ![0, 0] S1x64
  slices_S3x64x64_S1x64x64_1_0_0 : S3x64x64.Slices ![1, 0, 0] S1x64x64
  slices_S3x64_S1x64_1_0 : S3x64.Slices ![1, 0] S1x64
  slices_S2x64_S1x64_1_0 : S2x64.Slices ![1, 0] S1x64
  slices_S3x64x64_S1x64x64_2_0_0 : S3x64x64.Slices ![2, 0, 0] S1x64x64
  slices_S3x64_S1x64_2_0 : S3x64.Slices ![2, 0] S1x64
  shapeCasts_S100000x64_S20x320000 : S100000x64.ShapeCasts S20x320000
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S100000x64.size a
  hwx6_5 : ∀ i : grid6.Coords, EltTy.bits .f32 = 32 ∨ (Rect.block (s := S100000x64) S10000x64.size (cc6_transform_5 i) (hinb6_5 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v73) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v85) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v93) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v94) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v94) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v95) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg12) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v96) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v97) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S2x64 : Shape := ⟨2, ![2, 64]⟩
abbrev S1x1600000 : Shape := ⟨2, ![1, 1600000]⟩
abbrev S1600000 : Shape := ⟨1, ![1600000]⟩
abbrev S1x64 : Shape := ⟨2, ![1, 64]⟩
abbrev S1x64x64 : Shape := ⟨3, ![1, 64, 64]⟩
abbrev S_ : Shape := ⟨0, ![]⟩
abbrev S1600000x1 : Shape := ⟨2, ![1600000, 1]⟩
abbrev S1600000x64 : Shape := ⟨2, ![1600000, 64]⟩
abbrev S20x320000 : Shape := ⟨2, ![20, 320000]⟩

abbrev nBuf : Space → Nat
  | .hbm => 249
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S3x64x64, .f32⟩
  | 5 => ⟨S3x64, .f32⟩
  | 6 => ⟨S3x64x64, .f32⟩
  | 7 => ⟨S3x64, .f32⟩
  | 8 => ⟨S2x64, .f32⟩
  | 9 => ⟨S2x64, .f32⟩
  | 10 => ⟨S64x64, .f32⟩
  | 11 => ⟨S64, .f32⟩
  | 12 => ⟨S64x64, .f32⟩
  | 13 => ⟨S64, .f32⟩
  | 14 => ⟨S1x1600000, .i32⟩
  | 15 => ⟨S1600000, .i32⟩
  | 16 => ⟨S1x1600000, .i32⟩
  | 17 => ⟨S1600000, .i32⟩
  | 18 => ⟨S100000x64, .f32⟩
  | 19 => ⟨S1x64, .f32⟩
  | 20 => ⟨S100000x64, .f32⟩
  | 21 => ⟨S100000x64, .f32⟩
  | 22 => ⟨S1x64x64, .f32⟩
  | 23 => ⟨S64x64, .f32⟩
  | 24 => ⟨S1x64, .f32⟩
  | 25 => ⟨S64, .f32⟩
  | 26 => ⟨S1x64x64, .f32⟩
  | 27 => ⟨S64x64, .f32⟩
  | 28 => ⟨S1x64, .f32⟩
  | 29 => ⟨S64, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x64, .f32⟩
  | 39 => ⟨S_, .f32⟩
  | 40 => ⟨S100000x64, .f32⟩
  | 41 => ⟨S1600000x1, .i32⟩
  | 42 => ⟨S100000x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S_, .f32⟩
  | 50 => ⟨S100000x64, .f32⟩
  | 51 => ⟨S100000x64, .i1⟩
  | 52 => ⟨S_, .f32⟩
  | 53 => ⟨S100000x64, .f32⟩
  | 54 => ⟨S100000x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S1x64, .f32⟩
  | 61 => ⟨S64, .f32⟩
  | 62 => ⟨S1x64, .f32⟩
  | 63 => ⟨S64, .f32⟩
  | 64 => ⟨S_, .f32⟩
  | 65 => ⟨S64, .f32⟩
  | 66 => ⟨S_, .f32⟩
  | 67 => ⟨S64, .f32⟩
  | 68 => ⟨S64, .f32⟩
  | 69 => ⟨S_, .i32⟩
  | 70 => ⟨S_, .f32⟩
  | 71 => ⟨S64, .f32⟩
  | 72 => ⟨S1x64, .f32⟩
  | 73 => ⟨S_, .f32⟩
  | 74 => ⟨S1x64, .f32⟩
  | 75 => ⟨S1x64, .f32⟩
  | 76 => ⟨S100000x64, .f32⟩
  | 77 => ⟨S100000x64, .f32⟩
  | 78 => ⟨S100000x64, .f32⟩
  | 79 => ⟨S_, .f32⟩
  | 80 => ⟨S_, .f32⟩
  | 81 => ⟨S_, .f32⟩
  | 82 => ⟨S_, .f32⟩
  | 83 => ⟨S64, .f32⟩
  | 84 => ⟨S64, .f32⟩
  | 85 => ⟨S64, .f32⟩
  | 86 => ⟨S_, .f32⟩
  | 87 => ⟨S_, .i1⟩
  | 88 => ⟨S_, .f32⟩
  | 89 => ⟨S_, .f32⟩
  | 90 => ⟨S64, .f32⟩
  | 91 => ⟨S64, .f32⟩
  | 92 => ⟨S1x64, .f32⟩
  | 93 => ⟨S100000x64, .f32⟩
  | 94 => ⟨S100000x64, .f32⟩
  | 95 => ⟨S_, .f32⟩
  | 96 => ⟨S64, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S1x64x64, .f32⟩
  | 109 => ⟨S64x64, .f32⟩
  | 110 => ⟨S1x64, .f32⟩
  | 111 => ⟨S64, .f32⟩
  | 112 => ⟨S1x64x64, .f32⟩
  | 113 => ⟨S64x64, .f32⟩
  | 114 => ⟨S1x64, .f32⟩
  | 115 => ⟨S64, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x64, .f32⟩
  | 125 => ⟨S_, .f32⟩
  | 126 => ⟨S100000x64, .f32⟩
  | 127 => ⟨S1600000x1, .i32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S_, .f32⟩
  | 8 => ⟨S100000x64, .f32⟩
  | 9 => ⟨S100000x64, .i1⟩
  | 10 => ⟨S_, .f32⟩
  | 11 => ⟨S100000x64, .f32⟩
  | 12 => ⟨S100000x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S1x64, .f32⟩
  | 19 => ⟨S64, .f32⟩
  | 20 => ⟨S1x64, .f32⟩
  | 21 => ⟨S64, .f32⟩
  | 22 => ⟨S_, .f32⟩
  | 23 => ⟨S64, .f32⟩
  | 24 => ⟨S_, .f32⟩
  | 25 => ⟨S64, .f32⟩
  | 26 => ⟨S64, .f32⟩
  | 27 => ⟨S_, .i32⟩
  | 28 => ⟨S_, .f32⟩
  | 29 => ⟨S64, .f32⟩
  | 30 => ⟨S1x64, .f32⟩
  | 31 => ⟨S_, .f32⟩
  | 32 => ⟨S1x64, .f32⟩
  | 33 => ⟨S1x64, .f32⟩
  | 34 => ⟨S100000x64, .f32⟩
  | 35 => ⟨S100000x64, .f32⟩
  | 36 => ⟨S100000x64, .f32⟩
  | 37 => ⟨S_, .f32⟩
  | 38 => ⟨S_, .f32⟩
  | 39 => ⟨S_, .f32⟩
  | 40 => ⟨S_, .f32⟩
  | 41 => ⟨S64, .f32⟩
  | 42 => ⟨S64, .f32⟩
  | 43 => ⟨S64, .f32⟩
  | 44 => ⟨S_, .f32⟩
  | 45 => ⟨S_, .i1⟩
  | 46 => ⟨S_, .f32⟩
  | 47 => ⟨S_, .f32⟩
  | 48 => ⟨S64, .f32⟩
  | 49 => ⟨S64, .f32⟩
  | 50 => ⟨S1x64, .f32⟩
  | 51 => ⟨S100000x64, .f32⟩
  | 52 => ⟨S100000x64, .f32⟩
  | 53 => ⟨S_, .f32⟩
  | 54 => ⟨S64, .f32⟩
  | 55 => ⟨S64, .f32⟩
  | 56 => ⟨S64, .f32⟩
  | 57 => ⟨S1x64, .f32⟩
  | 58 => ⟨S100000x64, .f32⟩
  | 59 => ⟨S100000x64, .f32⟩
  | 60 => ⟨S1x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S1x64x64, .f32⟩
  | 67 => ⟨S64x64, .f32⟩
  | 68 => ⟨S1x64, .f32⟩
  | 69 => ⟨S64, .f32⟩
  | 70 => ⟨S1x64x64, .f32⟩
  | 71 => ⟨S64x64, .f32⟩
  | 72 => ⟨S1x64, .f32⟩
  | 73 => ⟨S64, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x64, .f32⟩
  | 83 => ⟨S_, .f32⟩
  | 84 => ⟨S100000x64, .f32⟩
  | 85 => ⟨S1600000x1, .i32⟩
  | 86 => ⟨S100000x64, .f32⟩
  | 87 => ⟨S100000x64, .f32⟩
  | 88 => ⟨S100000x64, .f32⟩
  | 89 => ⟨S1x64, .f32⟩
  | 90 => ⟨S100000x64, .f32⟩
  | 91 => ⟨S100000x64, .f32⟩
  | 92 => ⟨S_, .f32⟩
  | 93 => ⟨S_, .f32⟩
  | 94 => ⟨S100000x64, .f32⟩
  | 95 => ⟨S100000x64, .i1⟩
  | 96 => ⟨S_, .f32⟩
  | 97 => ⟨S100000x64, .f32⟩
  | 98 => ⟨S100000x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S_, .f32⟩
  | 110 => ⟨S100000x64, .f32⟩
  | 111 => ⟨S100000x64, .i1⟩
  | 112 => ⟨S_, .f32⟩
  | 113 => ⟨S100000x64, .f32⟩
  | 114 => ⟨S100000x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S20x320000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_2 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_c_4 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_cst_2 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_cst_3 : Ref sig .tc := ⟨.hbm, 86, rfl⟩
abbrev main_call1_v12 : Ref sig .tc := ⟨.hbm, 87, rfl⟩
abbrev main_call1_cst_4 : Ref sig .tc := ⟨.hbm, 88, rfl⟩
abbrev main_call1_call0_v0 : Ref sig .tc := ⟨.hbm, 89, rfl⟩
abbrev main_call1_call0_v1 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_cst_5 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_c_6 : Ref sig .tc := ⟨.hbm, 116, rfl⟩
abbrev main_v67 : Ref sig .tc := ⟨.hbm, 117, rfl⟩
abbrev main_v68 : Ref sig .tc := ⟨.hbm, 118, rfl⟩
abbrev main_c_7 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_8 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_9 : Ref sig .tc := ⟨.hbm, 134, rfl⟩
abbrev main_call2_cst : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_cst_10 : Ref sig .tc := ⟨.hbm, 150, rfl⟩
abbrev main_v91 : Ref sig .tc := ⟨.hbm, 151, rfl⟩
abbrev main_cst_11 : Ref sig .tc := ⟨.hbm, 152, rfl⟩
abbrev main_v92 : Ref sig .tc := ⟨.hbm, 153, rfl⟩
abbrev main_v93 : Ref sig .tc := ⟨.hbm, 154, rfl⟩
abbrev main_c_12 : Ref sig .tc := ⟨.hbm, 155, rfl⟩
abbrev main_call3_cst : Ref sig .tc := ⟨.hbm, 156, rfl⟩
abbrev main_call3_v0 : Ref sig .tc := ⟨.hbm, 157, rfl⟩
abbrev main_call3_v1 : Ref sig .tc := ⟨.hbm, 158, rfl⟩
abbrev main_call3_cst_0 : Ref sig .tc := ⟨.hbm, 159, rfl⟩
abbrev main_call3_v2 : Ref sig .tc := ⟨.hbm, 160, rfl⟩
abbrev main_call3_v3 : Ref sig .tc := ⟨.hbm, 161, rfl⟩
abbrev main_call3_v4 : Ref sig .tc := ⟨.hbm, 162, rfl⟩
abbrev main_call3_v5 : Ref sig .tc := ⟨.hbm, 163, rfl⟩
abbrev main_call3_v6 : Ref sig .tc := ⟨.hbm, 164, rfl⟩
abbrev main_call3_v7 : Ref sig .tc := ⟨.hbm, 165, rfl⟩
abbrev main_call3_cst_1 : Ref sig .tc := ⟨.hbm, 166, rfl⟩
abbrev main_call3_v8 : Ref sig .tc := ⟨.hbm, 167, rfl⟩
abbrev main_call3_cst_2 : Ref sig .tc := ⟨.hbm, 168, rfl⟩
abbrev main_call3_v9 : Ref sig .tc := ⟨.hbm, 169, rfl⟩
abbrev main_call3_v10 : Ref sig .tc := ⟨.hbm, 170, rfl⟩
abbrev main_call3_v11 : Ref sig .tc := ⟨.hbm, 171, rfl⟩
abbrev main_call3_cst_3 : Ref sig .tc := ⟨.hbm, 172, rfl⟩
abbrev main_call3_v12 : Ref sig .tc := ⟨.hbm, 173, rfl⟩
abbrev main_call3_cst_4 : Ref sig .tc := ⟨.hbm, 174, rfl⟩
abbrev main_call3_call0_v0 : Ref sig .tc := ⟨.hbm, 175, rfl⟩
abbrev main_call3_call0_v1 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_cst_13 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_c_14 : Ref sig .tc := ⟨.hbm, 202, rfl⟩
abbrev main_v118 : Ref sig .tc := ⟨.hbm, 203, rfl⟩
abbrev main_v119 : Ref sig .tc := ⟨.hbm, 204, rfl⟩
abbrev main_c_15 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_cst_16 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_cst_17 : Ref sig .tc := ⟨.hbm, 220, rfl⟩
abbrev main_call4_cst : Ref sig .tc := ⟨.hbm, 221, rfl⟩
abbrev main_call4_v0 : Ref sig .tc := ⟨.hbm, 222, rfl⟩
abbrev main_call4_v1 : Ref sig .tc := ⟨.hbm, 223, rfl⟩
abbrev main_call4_v2 : Ref sig .tc := ⟨.hbm, 224, rfl⟩
abbrev main_call4_v3 : Ref sig .tc := ⟨.hbm, 225, rfl⟩
abbrev main_call4_v4 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_cst_18 : Ref sig .tc := ⟨.hbm, 236, rfl⟩
abbrev main_call5_cst : Ref sig .tc := ⟨.hbm, 237, rfl⟩
abbrev main_call5_v0 : Ref sig .tc := ⟨.hbm, 238, rfl⟩
abbrev main_call5_v1 : Ref sig .tc := ⟨.hbm, 239, rfl⟩
abbrev main_call5_v2 : Ref sig .tc := ⟨.hbm, 240, rfl⟩
abbrev main_call5_v3 : Ref sig .tc := ⟨.hbm, 241, rfl⟩
abbrev main_call5_v4 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S2x64_S1x64_0_0 : S2x64.Slices ![0, 0] S1x64
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S2x64_S1x64_1_0 : S2x64.Slices ![1, 0] S1x64
  slices_S3x64x64_S1x64x64_2_0_0 : S3x64x64.Slices ![2, 0, 0] S1x64x64
  slices_S3x64_S1x64_2_0 : S3x64.Slices ![2, 0] S1x64
  shapeCasts_S100000x64_S20x320000 : S100000x64.ShapeCasts S20x320000
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibDense.lean ====
/-
  Dense layers on the extended reals, general in the extents.

  A dense layer takes a table `h` of `A` rows and `K` columns, a weight table `W` of `K` rows and `N`
  columns and a bias row `b` of `N` entries, and gives the table whose entry in row `r`, column `j` is

      (∑ k, h r k · W k j) + b j        (`Dense.affine`),

  followed, in a hidden layer, by the hyperbolic tangent (`Dense.layer`). Row `r` of the result is computed
  from row `r` of `h` alone, so taking a slab of rows before the layer or after it is the same
  (`affine_rows`, `layer_rows`).

  Two spellings of such a layer are brought to this form. On the matrix unit: a product into a zero
  accumulator, plus the bias held as a `[1, N]` row broadcast down the rows (`matmul_affine`,
  `matmul_layer`). On the host: a `dot_general` contracting the left table's columns with the right table's
  rows, plus the bias vector broadcast first to a `[1, N]` row and then down the rows (`host_affine`,
  `host_layer`). Both contract ONE axis, so the sum over the contraction positions is a sum over `k : Fin K`
  (`contr_sum`), with the left factor at `(r, k)` and the right factor at `(k, j)`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-! ## The layer -/

/-- Entry `(r, j)` of `h · W + b`: the inner product of row `r` of `h` with column `j` of `W`, plus `b j`. -/
def pre {A K N : Nat} (h : (⟨2, ![A, K]⟩ : Shape).Idx → EReal) (W : (⟨2, ![K, N]⟩ : Shape).Idx → EReal)
    (b : (⟨1, ![N]⟩ : Shape).Idx → EReal) (r : Fin A) (j : Fin N) : EReal :=
  (∑ k : Fin K, h (ix2 r k) * W (ix2 k j)) + b (ix1 j)

/-- The table `h · W + b` (a layer with no activation). -/
def affine {A K N : Nat} (h : (⟨2, ![A, K]⟩ : Shape).Idx → EReal) (W : (⟨2, ![K, N]⟩ : Shape).Idx → EReal)
    (b : (⟨1, ![N]⟩ : Shape).Idx → EReal) : (⟨2, ![A, N]⟩ : Shape).Idx → EReal :=
  fun i => pre h W b (i 0) (i 1)

/-- The table `tanh (h · W + b)` (a hidden layer). -/
def layer {A K N : Nat} (h : (⟨2, ![A, K]⟩ : Shape).Idx → EReal) (W : (⟨2, ![K, N]⟩ : Shape).Idx → EReal)
    (b : (⟨1, ![N]⟩ : Shape).Idx → EReal) : (⟨2, ![A, N]⟩ : Shape).Idx → EReal :=
  fun i => Ideal.tanh (pre h W b (i 0) (i 1))

/-- The rows `ρ 0, ρ 1, …` of a table, as a table of their own. -/
def rows {A B K : Nat} (ρ : Fin A → Fin B) (h : (⟨2, ![B, K]⟩ : Shape).Idx → EReal) :
    (⟨2, ![A, K]⟩ : Shape).Idx → EReal :=
  fun i => h (ix2 (ρ (i 0)) (i 1))

/-- A layer's row `r` is computed from row `r` of its input: selecting rows before or after the layer is the same. -/
theorem affine_rows {A B K N : Nat} (ρ : Fin A → Fin B) (h : (⟨2, ![B, K]⟩ : Shape).Idx → EReal)
    (W : (⟨2, ![K, N]⟩ : Shape).Idx → EReal) (b : (⟨1, ![N]⟩ : Shape).Idx → EReal) :
    affine (rows ρ h) W b = rows ρ (affine h W b) := rfl

theorem layer_rows {A B K N : Nat} (ρ : Fin A → Fin B) (h : (⟨2, ![B, K]⟩ : Shape).Idx → EReal)
    (W : (⟨2, ![K, N]⟩ : Shape).Idx → EReal) (b : (⟨1, ![N]⟩ : Shape).Idx → EReal) :
    layer (rows ρ h) W b = rows ρ (layer h W b) := rfl

/-- The bias row of a `[1, N]` table. -/
def row0 {N : Nat} (b : (⟨2, ![1, N]⟩ : Shape).Idx → EReal) : (⟨1, ![N]⟩ : Shape).Idx → EReal :=
  fun j => b (ix2 (0 : Fin 1) (j 0))

/-- A vector recast as a `[1, N]` table has the vector as its row. -/
theorem row0_shapeCast {N : Nat} (b : (⟨1, ![N]⟩ : Shape).Idx → EReal)
    (h : (⟨1, ![N]⟩ : Shape).ShapeCasts ⟨2, ![1, N]⟩) : row0 (shapeCast ⟨2, ![1, N]⟩ b h) = b := by
  funext j
  obtain ⟨q, rfl⟩ : ∃ q : Fin N, j = ix1 q := ⟨j 0, eq_ix1 j⟩
  exact shapeCast_a_1a_apply b h 0 q

/-! ## One contracted axis: the contraction positions are `Fin K` -/

/-- The dimension numbers of a plain product `[A, K] × [K, N] → [A, N]`: the left table's columns are contracted
    with the right table's rows, and there is no batch axis. -/
abbrev plainDims {A K N : Nat}
    (wf : DotDims.WF (⟨2, ![A, K]⟩ : Shape) ⟨2, ![K, N]⟩ ⟨2, ![A, N]⟩ [1] [0] [0] [1] [] []) :
    DotDims ⟨2, ![A, K]⟩ ⟨2, ![K, N]⟩ ⟨2, ![A, N]⟩ where
  lhsContracting := [1]
  rhsContracting := [0]
  lhsNonContracting := [0]
  rhsNonContracting := [1]
  lhsBatch := []
  rhsBatch := []
  wf := wf

section Contr

variable {A K N : Nat} (wf : DotDims.WF (⟨2, ![A, K]⟩ : Shape) ⟨2, ![K, N]⟩ ⟨2, ![A, N]⟩ [1] [0] [0] [1] [] [])

/-- The left operand's index at output `(r, j)` and a contraction position: its row is `r`. -/
theorem lhs_row (i : (⟨2, ![A, N]⟩ : Shape).Idx) (q : (plainDims wf).contr.Idx) :
    ((plainDims wf).lhsIdx i q 0).val = (i 0).val := by
  unfold DotDims.lhsIdx
  have hb : ¬(0 : Fin (⟨2, ![A, K]⟩ : Shape).rank) ∈ (plainDims wf).lhsBatch := List.not_mem_nil
  have hn : (0 : Fin (⟨2, ![A, K]⟩ : Shape).rank) ∈ (plainDims wf).lhsNonContracting := List.mem_singleton.mpr rfl
  rw [dif_neg hb, dif_pos hn]
  rfl

/-- The right operand's index at output `(r, j)` and a contraction position: its column is `j`. -/
theorem rhs_col (i : (⟨2, ![A, N]⟩ : Shape).Idx) (q : (plainDims wf).contr.Idx) :
    ((plainDims wf).rhsIdx i q 1).val = (i 1).val := by
  unfold DotDims.rhsIdx
  have hb : ¬(1 : Fin (⟨2, ![K, N]⟩ : Shape).rank) ∈ (plainDims wf).rhsBatch := List.not_mem_nil
  have hn : (1 : Fin (⟨2, ![K, N]⟩ : Shape).rank) ∈ (plainDims wf).rhsNonContracting := List.mem_singleton.mpr rfl
  rw [dif_neg hb, dif_pos hn]
  rfl

/-- The sum over the contraction positions of a plain product is the sum over `k : Fin K` of the left factor at
    `(r, k)` times the right factor at `(k, j)`. -/
theorem contr_sum (l : (⟨2, ![A, K]⟩ : Shape).Idx → EReal) (r : (⟨2, ![K, N]⟩ : Shape).Idx → EReal)
    (i : (⟨2, ![A, N]⟩ : Shape).Idx) :
    ∑ q : (plainDims wf).contr.Idx, l ((plainDims wf).lhsIdx i q) * r ((plainDims wf).rhsIdx i q)
      = ∑ k : Fin K, l (ix2 (i 0) k) * r (ix2 k (i 1)) := by
  rw [← Equiv.sum_comp (contrEquiv1 (plainDims wf) K rfl rfl).symm]
  refine Finset.sum_congr rfl fun k _ => ?_
  have hk := contrEquiv1_symm_val (plainDims wf) K rfl rfl k
  have el : (plainDims wf).lhsIdx i ((contrEquiv1 (plainDims wf) K rfl rfl).symm k) = ix2 (i 0) k :=
    funext fun a => Fin.ext (by
      match a with
      | ⟨0, _⟩ => exact lhs_row wf _ _
      | ⟨1, _⟩ => exact ((plainDims wf).lhsIdx_val_of_single rfl _ _).trans hk)
  have er : (plainDims wf).rhsIdx i ((contrEquiv1 (plainDims wf) K rfl rfl).symm k) = ix2 k (i 1) :=
    funext fun a => Fin.ext (by
      match a with
      | ⟨0, _⟩ => exact ((plainDims wf).rhsIdx_val_of_single rfl _ _).trans hk
      | ⟨1, _⟩ => exact rhs_col wf _ _)
  rw [el, er]
  rfl

/-! ## The matrix unit's spelling -/

/-- A product into the zero accumulator, plus a `[1, N]` bias row broadcast down the rows. -/
theorem matmul_affine (hc : (⟨2, ![1, N]⟩ : Shape).ShapeCasts ⟨2, ![1, N]⟩)
    (hb : (⟨2, ![1, N]⟩ : Shape).Broadcasts ⟨2, ![A, N]⟩)
    (h : FVec Ideal ⟨2, ![A, K]⟩ .f32) (W : FVec Ideal ⟨2, ![K, N]⟩ .f32) (b : FVec Ideal ⟨2, ![1, N]⟩ .f32) :
    addf (matmul (plainDims wf) none h W (constant ⟨2, ![A, N]⟩ .f32 0x00000000#32))
        (broadcastTo ⟨2, ![A, N]⟩ (shapeCast ⟨2, ![1, N]⟩ b hc) hb)
      = affine h W (row0 b) := by
  funext i
  obtain ⟨p, q, rfl⟩ : ∃ (p : Fin A) (q : Fin N), i = ix2 p q := ⟨i 0, i 1, eq_ix2 i⟩
  show FloatOps.matmul (plainDims wf) none h W (constant ⟨2, ![A, N]⟩ .f32 0x00000000#32) (ix2 p q)
      + broadcastTo ⟨2, ![A, N]⟩ (shapeCast ⟨2, ![1, N]⟩ b hc) hb (ix2 p q) = _
  rw [shapeCast_self, broadcastTo_1b_ab_apply, Ideal.matmul_constant_zero_apply]
  exact congrArg (· + b (ix2 (0 : Fin 1) q)) (contr_sum wf h W (ix2 p q))

/-- The same under the hyperbolic tangent: a hidden layer. -/
theorem matmul_layer (hc : (⟨2, ![1, N]⟩ : Shape).ShapeCasts ⟨2, ![1, N]⟩)
    (hb : (⟨2, ![1, N]⟩ : Shape).Broadcasts ⟨2, ![A, N]⟩)
    (h : FVec Ideal ⟨2, ![A, K]⟩ .f32) (W : FVec Ideal ⟨2, ![K, N]⟩ .f32) (b : FVec Ideal ⟨2, ![1, N]⟩ .f32) :
    tanh (addf (matmul (plainDims wf) none h W (constant ⟨2, ![A, N]⟩ .f32 0x00000000#32))
        (broadcastTo ⟨2, ![A, N]⟩ (shapeCast ⟨2, ![1, N]⟩ b hc) hb))
      = layer h W (row0 b) := by
  rw [matmul_affine wf hc hb h W b]
  rfl

/-! ## The host's spelling -/

/-- A bias vector broadcast to a `[1, N]` row and then down the rows, read at `(p, q)`, is the vector at `q`. -/
theorem host_bias (hb1 : (⟨1, ![N]⟩ : Shape).BroadcastsInDim ⟨2, ![1, N]⟩ ![1])
    (hb2 : (⟨2, ![1, N]⟩ : Shape).BroadcastsInDim ⟨2, ![A, N]⟩ ![0, 1])
    (b : (⟨1, ![N]⟩ : Shape).Idx → EReal) (p : Fin A) (q : Fin N) :
    broadcastInDim ⟨2, ![A, N]⟩ ![0, 1] hb2 (broadcastInDim ⟨2, ![1, N]⟩ ![1] hb1 b) (ix2 p q) = b (ix1 q) := by
  refine (broadcastInDim_apply ![0, 1] hb2 _ (ix2 p q) (ix2 (0 : Fin 1) q) fun ax => ?_).trans
    (broadcastInDim_apply ![1] hb1 b (ix2 (0 : Fin 1) q) (ix1 q) fun ax => ?_)
  · match ax with
    | ⟨0, _⟩ => rfl
    | ⟨1, _⟩ =>
      show q.val = if N = 1 then 0 else q.val
      split
      · have := q.isLt; omega
      · rfl
  · match ax with
    | ⟨0, _⟩ =>
      show q.val = if N = 1 then 0 else q.val
      split
      · have := q.isLt; omega
      · rfl

/-- A `dot_general` of a plain product, plus the bias vector broadcast to a row and down the rows. -/
theorem host_affine (hb1 : (⟨1, ![N]⟩ : Shape).BroadcastsInDim ⟨2, ![1, N]⟩ ![1])
    (hb2 : (⟨2, ![1, N]⟩ : Shape).BroadcastsInDim ⟨2, ![A, N]⟩ ![0, 1])
    (h : FVec Ideal ⟨2, ![A, K]⟩ .f32) (W : FVec Ideal ⟨2, ![K, N]⟩ .f32) (b : FVec Ideal ⟨1, ![N]⟩ .f32) :
    addf (Host.dotGeneral (F := Ideal) (plainDims wf) none h W)
        (broadcastInDim ⟨2, ![A, N]⟩ ![0, 1] hb2 (broadcastInDim ⟨2, ![1, N]⟩ ![1] hb1 b))
      = affine h W b := by
  funext i
  obtain ⟨p, q, rfl⟩ : ∃ (p : Fin A) (q : Fin N), i = ix2 p q := ⟨i 0, i 1, eq_ix2 i⟩
  show FloatOps.dotGeneral (plainDims wf) none .single h W (ix2 p q)
      + broadcastInDim ⟨2, ![A, N]⟩ ![0, 1] hb2 (broadcastInDim ⟨2, ![1, N]⟩ ![1] hb1 b) (ix2 p q) = _
  rw [host_bias hb1 hb2 b p q, Ideal.dotGeneral_apply]
  exact congrArg (· + b (ix1 q)) (contr_sum wf h W (ix2 p q))

/-- The same under the host's hyperbolic tangent: a hidden layer. -/
theorem host_layer (hb1 : (⟨1, ![N]⟩ : Shape).BroadcastsInDim ⟨2, ![1, N]⟩ ![1])
    (hb2 : (⟨2, ![1, N]⟩ : Shape).BroadcastsInDim ⟨2, ![A, N]⟩ ![0, 1])
    (h : FVec Ideal ⟨2, ![A, K]⟩ .f32) (W : FVec Ideal ⟨2, ![K, N]⟩ .f32) (b : FVec Ideal ⟨1, ![N]⟩ .f32) :
    Host.tanh (F := Ideal) (addf (Host.dotGeneral (F := Ideal) (plainDims wf) none h W)
        (broadcastInDim ⟨2, ![A, N]⟩ ![0, 1] hb2 (broadcastInDim ⟨2, ![1, N]⟩ ![1] hb1 b)))
      = layer h W b := by
  rw [host_affine wf hb1 hb2 h W b]
  rfl

end Contr

end Cert.Dense

end
-- ==== Proof.Spec.lean ====
/-
  The network, entry by entry, on the extended reals.

  A table of 100000 nodes by 64 features is carried through: a dense layer; three message-passing layers, each
  adding to a node's row the sum of its in-neighbours' rows (`seg`, the aggregation over the edge list) and
  passing the sum through a two-layer perceptron with a leaky rectifier between the layers; after each of the
  first two, a normalisation of every feature column by its mean and variance over the nodes (`mean`, `var`);
  and a last two-layer perceptron. The aggregation and the two column statistics enter as given functions:
  nothing here depends on how they are computed.
-/
import proofs.«117363_j52089363366042_1_alg».proof.Proof.LibDense

noncomputable section

namespace Cert.Gin

open Idealize.ShloMosaic Idealize.ShloMosaic.ValueIdx

/-- A table of node features. -/
abbrev Tab : Type := (⟨2, ![100000, 64]⟩ : Shape).Idx → EReal
/-- A weight table. -/
abbrev Mat : Type := (⟨2, ![64, 64]⟩ : Shape).Idx → EReal
/-- A row of 64 features. -/
abbrev Row : Type := (⟨1, ![64]⟩ : Shape).Idx → EReal

/-- The leaky rectifier: `z` where `z ≥ 0`, the slope's multiple of `z` elsewhere. -/
def leaky (z : EReal) : EReal :=
  Scalar.select (FloatOps.cmpf (F := Ideal) (φ := .f32) .oge z (Ideal.ofBits .f32 0x00000000#32)) z
    (Ideal.ofBits .f32 0x3C23D70A#32 * z)

/-- The rectifier on every entry. -/
def act (h : Tab) : Tab := fun i => leaky (h i)

/-- Two dense layers with the rectifier between them. -/
def mlp (h : Tab) (W1 : Mat) (b1 : Row) (W2 : Mat) (b2 : Row) : Tab :=
  Dense.affine (act (Dense.affine h W1 b1)) W2 b2

/-- One message-passing layer: the perceptron of each row plus its aggregated neighbours. -/
def gin (seg : Tab → Tab) (h : Tab) (W1 : Mat) (b1 : Row) (W2 : Mat) (b2 : Row) : Tab :=
  mlp (fun i => h i + seg h i) W1 b1 W2 b2

/-- Column normalisation with given column statistics: centred by `mu`, scaled by the inverse root of `va` plus
    a small constant, then by `g`, and shifted by `b`. -/
def normWith (h : Tab) (mu va g b : Row) : Tab :=
  fun i => (h i - mu (ix1 (i 1))) * Ideal.rsqrt (va (ix1 (i 1)) + Ideal.ofBits .f32 0x3727C5AC#32)
    * g (ix1 (i 1)) + b (ix1 (i 1))

/-- Column normalisation by the table's own column mean and variance. -/
def norm (mean var : Tab → Row) (h : Tab) (g b : Row) : Tab := normWith h (mean h) (var h) g b

/-- The whole network. -/
def net (seg : Tab → Tab) (mean var : Tab → Row) (x : Tab) (pw : Mat) (pb : Row)
    (w1 : Fin 3 → Mat) (b1 : Fin 3 → Row) (w2 : Fin 3 → Mat) (b2 : Fin 3 → Row) (g be : Fin 2 → Row)
    (qw1 : Mat) (qb1 : Row) (qw2 : Mat) (qb2 : Row) : Tab :=
  let h0 := Dense.affine x pw pb
  let h1 := norm mean var (gin seg h0 (w1 0) (b1 0) (w2 0) (b2 0)) (g 0) (be 0)
  let h2 := norm mean var (gin seg h1 (w1 1) (b1 1) (w2 1) (b2 1)) (g 1) (be 1)
  let h3 := gin seg h2 (w1 2) (b1 2) (w2 2) (b2 2)
  mlp h3 qw1 qb1 qw2 qb2

end Cert.Gin

end
-- ==== Proof.KPay.lean ====
/-
  What each kernel body stores, as a function of the blocks it loaded.

  Every body loads a slab of 10000 rows of its node table (or tables), the whole of its small operands,
  and stores one slab. On the extended reals the narrowing of a product's operands is the identity, a
  recast to the same extents is the identity, and a product into a zero accumulator plus a bias row
  broadcast down the rows is a dense layer; so each stored slab is a dense layer, a two-layer
  perceptron, or a column normalisation of the loaded slab, row by row.
-/
import proofs.«117363_j52089363366042_1_alg».proof.Proof.Gen.KernelIdeal.Skeleton
import proofs.«117363_j52089363366042_1_alg».proof.Proof.Spec

noncomputable section

namespace Cert.KernelIdeal.Regions

open Idealize.ShloMosaic Idealize.ShloMosaic.ValueIdx
open Cert Cert.KernelIdeal Cert.KernelIdeal.Gen

/-- A slab of 10000 rows of 64 features. -/
abbrev Rows10k : Type := (⟨2, ![10000, 64]⟩ : Shape).Idx → EReal

/-- One dense layer of a slab, as a body spells it: a product into the zero accumulator plus the bias row
    broadcast down the rows. -/
theorem dense_slab (h : FVec Ideal S10000x64 .f32) (W : FVec Ideal S64x64 .f32) (b : FVec Ideal S1x64 .f32) :
    addf (F := Ideal) (matmul (F := Ideal) (φ₁ := .f32) (φ₂ := .f32)
          (Dense.plainDims dot_S10000x64_S64x64_S10000x64_1_0_0_1_n_n.wf) none
          h W (constant S10000x64 .f32 0x00000000#32))
        (broadcastTo S10000x64 (shapeCast S1x64 b shapeCasts_S1x64_S1x64) broadcasts_S1x64_S10000x64)
      = Dense.affine h W (Dense.row0 b) :=
  Dense.matmul_affine dot_S10000x64_S64x64_S10000x64_1_0_0_1_n_n.wf shapeCasts_S1x64_S1x64
    broadcasts_S1x64_S10000x64 h W b

/-- The first body: a dense layer of the loaded slab. -/
theorem k0_pay1_eq (x : Vec Ideal S10000x64 .f32) (w : Vec Ideal S64x64 .f32) (b : Vec Ideal S1x64 .f32) :
    (k0_pay1 (F := Ideal) x w b : Rows10k) = Dense.affine x w (Dense.row0 b) := by
  unfold k0_pay1
  exact dense_slab x w b

/-- A message-passing body: the two-layer perceptron, with the rectifier between the layers, of the loaded
    slab plus the loaded slab of aggregated neighbours. -/
theorem k1_pay1_eq (h a : Vec Ideal S10000x64 .f32) (w1 : Vec Ideal S64x64 .f32) (b1 : Vec Ideal S1x64 .f32)
    (w2 : Vec Ideal S64x64 .f32) (b2 : Vec Ideal S1x64 .f32) :
    (k1_pay1 (F := Ideal) h a w1 b1 w2 b2 : Rows10k)
      = Dense.affine (fun i => Gin.leaky (Dense.affine (fun i => h i + a i) w1 (Dense.row0 b1) i)) w2
          (Dense.row0 b2) := by
  unfold k1_pay1
  rw [shapeCast_self h, shapeCast_self a, shapeCast_self w1, shapeCast_self w2]
  exact (congrArg (fun z : Rows10k =>
      addf (F := Ideal) (matmul (F := Ideal) (φ₁ := .f32) (φ₂ := .f32)
          (Dense.plainDims dot_S10000x64_S64x64_S10000x64_1_0_0_1_n_n.wf) none
          (fun i => Gin.leaky (z i)) w2 (constant S10000x64 .f32 0x00000000#32))
        (broadcastTo S10000x64 (shapeCast S1x64 b2 shapeCasts_S1x64_S1x64) broadcasts_S1x64_S10000x64))
    (dense_slab (fun i => h i + a i) w1 b1)).trans
    (dense_slab (fun i => Gin.leaky (Dense.affine (fun i => h i + a i) w1 (Dense.row0 b1) i)) w2 b2)

/-- The last body: the same two-layer perceptron of the loaded slab alone. -/
theorem k6_pay1_eq (h : Vec Ideal S10000x64 .f32) (w1 : Vec Ideal S64x64 .f32) (b1 : Vec Ideal S1x64 .f32)
    (w2 : Vec Ideal S64x64 .f32) (b2 : Vec Ideal S1x64 .f32) :
    (k6_pay1 (F := Ideal) h w1 b1 w2 b2 : Rows10k)
      = Dense.affine (fun i => Gin.leaky (Dense.affine h w1 (Dense.row0 b1) i)) w2 (Dense.row0 b2) := by
  unfold k6_pay1
  rw [shapeCast_self h]
  exact (congrArg (fun z : Rows10k =>
      addf (F := Ideal) (matmul (F := Ideal) (φ₁ := .f32) (φ₂ := .f32)
          (Dense.plainDims dot_S10000x64_S64x64_S10000x64_1_0_0_1_n_n.wf) none
          (fun i => Gin.leaky (z i)) w2 (constant S10000x64 .f32 0x00000000#32))
        (broadcastTo S10000x64 (shapeCast S1x64 b2 shapeCasts_S1x64_S1x64) broadcasts_S1x64_S10000x64))
    (dense_slab h w1 b1)).trans
    (dense_slab (fun i => Gin.leaky (Dense.affine h w1 (Dense.row0 b1) i)) w2 b2)

/-- A normalising body at row `p`, column `q`: the loaded slab's entry centred by the mean row `mu` at `q`,
    scaled by the inverse root of the variance row `va` at `q` plus a small constant, then by the row `g`, and
    shifted by the row `b`. (The body loads the variance row before the mean row.) -/
theorem k2_pay1_at (h : Vec Ideal S10000x64 .f32) (va mu g b : Vec Ideal S1x64 .f32) (i : S10000x64.Idx)
    (p : Fin 10000) (q : Fin 64) (hi : i = ix2 p q) :
    k2_pay1 (F := Ideal) h va mu g b i
      = (h i - mu (ix2 (0 : Fin 1) q))
          * Ideal.rsqrt (va (ix2 (0 : Fin 1) q) + Ideal.ofBits .f32 0x3727C5AC#32)
          * g (ix2 (0 : Fin 1) q) + b (ix2 (0 : Fin 1) q) := by
  subst hi
  unfold k2_pay1
  simp only [addf_apply, mulf_apply, subf_apply, shapeCast_self, broadcastTo_1b_ab_apply]
  rfl

/-- The normalising body as one function of its slab and its four rows. -/
theorem k2_pay1_eq (h : Vec Ideal S10000x64 .f32) (va mu g b : Vec Ideal S1x64 .f32) :
    (k2_pay1 (F := Ideal) h va mu g b : Rows10k)
      = fun i => (h i - mu (ix2 (0 : Fin 1) (i 1)))
          * Ideal.rsqrt (va (ix2 (0 : Fin 1) (i 1)) + Ideal.ofBits .f32 0x3727C5AC#32)
          * g (ix2 (0 : Fin 1) (i 1)) + b (ix2 (0 : Fin 1) (i 1)) :=
  funext fun i => k2_pay1_at h va mu g b i (i 0) (i 1) (eq_ix2 i)

/-- The other bodies of the same two kinds are the same text. -/
theorem k3_pay1_eq : @k3_pay1 Ideal _ = @k1_pay1 Ideal _ := rfl
theorem k5_pay1_eq : @k5_pay1 Ideal _ = @k1_pay1 Ideal _ := rfl
theorem k4_pay1_eq : @k4_pay1 Ideal _ = @k2_pay1 Ideal _ := rfl

end Cert.KernelIdeal.Regions

end
-- ==== Proof.KSlab.lean ====
/-
  Slabs of rows.

  The node table has 100000 rows; every kernel walks it in ten slabs of 10000 rows, slab `t` holding rows
  `10000 t … 10000 t + 9999`. Each layer of the network computes row `r` of its result from row `r` of its
  operand tables alone (and from the whole of its small operands), so a slab of the result is the layer of
  the slabs. That is stated here for the three kinds of layer the kernels compute: a dense layer, the
  two-layer perceptron (with and without the aggregated neighbours added first) and the column
  normalisation with given column statistics.
-/
import proofs.«117363_j52089363366042_1_alg».proof.Proof.Spec

noncomputable section

namespace Cert.KernelIdeal.Regions

open Idealize.ShloMosaic Idealize.ShloMosaic.ValueIdx
open Cert

/-- Row `r` of slab `t` is row `10000 t + r` of the table. -/
def slabRow (t : Nat) (ht : t < 10) (r : Fin 10000) : Fin 100000 :=
  ⟨t * 10000 + r.val, by have := r.isLt; omega⟩

/-- Slab `t` of a table. -/
abbrev slab (t : Nat) (ht : t < 10) (X : Gin.Tab) : (⟨2, ![10000, 64]⟩ : Shape).Idx → EReal :=
  Dense.rows (slabRow t ht) X

/-- An index of the table whose row is `10000 t` plus a slab index's row, and whose column is the slab
    index's column, is that slab index's place in the table. The hypotheses are spelt as a block's
    coordinates come: block index times block extent plus one times the coordinate inside the block. -/
theorem idx_slab (t : Nat) (ht : t < 10) (y : (⟨2, ![10000, 64]⟩ : Shape).Idx)
    (j : (⟨2, ![100000, 64]⟩ : Shape).Idx)
    (h0 : (j 0).val = t * 10000 + 1 * (y 0).val) (h1 : (j 1).val = 0 * 64 + 1 * (y 1).val) :
    j = ix2 (slabRow t ht (y 0)) (y 1) := by
  funext a
  apply Fin.ext
  match a with
  | ⟨0, _⟩ => show (j 0).val = t * 10000 + (y 0).val; omega
  | ⟨1, _⟩ => show (j 1).val = (y 1).val; omega

/-- An index of a small operand read through its one block, at block index 0 on both axes, is itself. -/
theorem idx_whole {A B : Nat} (y j : (⟨2, ![A, B]⟩ : Shape).Idx)
    (h0 : (j 0).val = 0 * A + 1 * (y 0).val) (h1 : (j 1).val = 0 * B + 1 * (y 1).val) : j = y := by
  funext a
  apply Fin.ext
  match a with
  | ⟨0, _⟩ => show (j 0).val = (y 0).val; omega
  | ⟨1, _⟩ => show (j 1).val = (y 1).val; omega

/-- A slab of a dense layer is the dense layer of the slab. -/
theorem affine_slab (t : Nat) (ht : t < 10) (X : Gin.Tab) (W : Gin.Mat) (b : Gin.Row) :
    Dense.affine (slab t ht X) W b = slab t ht (Dense.affine X W b) := rfl

/-- A slab of the perceptron of a table plus its aggregated neighbours is the perceptron of the two slabs
    added. -/
theorem mlp_add_slab (t : Nat) (ht : t < 10) (H A : Gin.Tab) (W1 : Gin.Mat) (b1 : Gin.Row) (W2 : Gin.Mat)
    (b2 : Gin.Row) :
    Dense.affine (fun i => Gin.leaky (Dense.affine (fun i => slab t ht H i + slab t ht A i) W1 b1 i)) W2 b2
      = slab t ht (Gin.mlp (fun i => H i + A i) W1 b1 W2 b2) := rfl

/-- A slab of the perceptron of a table is the perceptron of the slab. -/
theorem mlp_slab (t : Nat) (ht : t < 10) (H : Gin.Tab) (W1 : Gin.Mat) (b1 : Gin.Row) (W2 : Gin.Mat)
    (b2 : Gin.Row) :
    Dense.affine (fun i => Gin.leaky (Dense.affine (slab t ht H) W1 b1 i)) W2 b2
      = slab t ht (Gin.mlp H W1 b1 W2 b2) := rfl

/-- A slab of the column normalisation with given statistics, the four rows held as `[1, 64]` tables, is the
    normalisation of the slab entry by entry. -/
theorem normWith_slab (t : Nat) (ht : t < 10) (H : Gin.Tab)
    (mu va g b : (⟨2, ![1, 64]⟩ : Shape).Idx → EReal) :
    (fun i : (⟨2, ![10000, 64]⟩ : Shape).Idx =>
        (slab t ht H i - mu (ix2 (0 : Fin 1) (i 1)))
          * Ideal.rsqrt (va (ix2 (0 : Fin 1) (i 1)) + Ideal.ofBits .f32 0x3727C5AC#32)
          * g (ix2 (0 : Fin 1) (i 1)) + b (ix2 (0 : Fin 1) (i 1)))
      = slab t ht (Gin.normWith H (Dense.row0 mu) (Dense.row0 va) (Dense.row0 g) (Dense.row0 b)) := rfl

end Cert.KernelIdeal.Regions

end
-- ==== Proof.KFinal0.lean ====
/-
  The first region: the node table through a dense layer.

  The kernel runs at ten points. At point `t` it reads slab `t` of the node table and the whole of the weight
  table and of the bias row, and writes slab `t` of its output. What it writes is the dense layer of the slab
  it read, which is slab `t` of the dense layer of the whole table; the ten slabs fill the output, so after
  the region the output is the dense layer of the table.
-/
import proofs.«117363_j52089363366042_1_alg».proof.Proof.Gen.KernelIdeal.Frame
import proofs.«117363_j52089363366042_1_alg».proof.Proof.KPay
import proofs.«117363_j52089363366042_1_alg».proof.Proof.KSlab
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert Cert.KernelIdeal Cert.KernelIdeal.Gen

variable (V : (c : Dev nD) → (b : Ref sig .tc) → Buf (Elt Ideal) ((c : Thread nD τ).loc b))

theorem offsets0 : (![0, 0] : Fin 2 → Nat) = fun _ => 0 := funext fun a => by fin_cases a <;> rfl

/-- The index maps over the grid: at point `t` the table and the output are at block `t` of the rows, the
    weights and the bias at their one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt0 (t : Fin cfg0.N) : t.val < 10 := by
  have h := t.isLt
  have hN : cfg0.N = 10 := N_0
  omega

/-- The table's block at point `t` is slab `t` of the table. -/
theorem iblk0_0 (c : Dev nD) (t : Fin cfg0.N) :
    (iblk0 (F := Ideal) V c 0 t : Vec Ideal S10000x64 .f32) = slab t.val (lt0 t) (V c main_arg0) := by
  obtain ⟨e0, e1, -⟩ := idx0 t
  funext y
  show V c main_arg0 (((cfg0.win 0).blk t).view.emb y) = V c main_arg0 (ix2 (slabRow t.val (lt0 t) (y 0)) (y 1))
  refine congrArg (V c main_arg0) (idx_slab t.val (lt0 t) y _ ?_ ?_)
  · show win0_0.index t (0 : Fin 2) * 10000 + 1 * (y 0).val = _
    rw [e0]
  · show win0_0.index t (1 : Fin 2) * 64 + 1 * (y 1).val = _
    rw [e1]

/-- The weights' block at every point is the weight table. -/
theorem iblk0_1 (c : Dev nD) (t : Fin cfg0.N) :
    (iblk0 (F := Ideal) V c 1 t : Vec Ideal S64x64 .f32) = V c main_arg2 := by
  obtain ⟨-, -, e0, e1, -⟩ := idx0 t
  funext y
  show V c main_arg2 (((cfg0.win 1).blk t).view.emb y) = V c main_arg2 y
  refine congrArg (V c main_arg2) (idx_whole y _ ?_ ?_)
  · show win0_1.index t (0 : Fin 2) * 64 + 1 * (y 0).val = _
    rw [e0]
  · show win0_1.index t (1 : Fin 2) * 64 + 1 * (y 1).val = _
    rw [e1]

/-- The bias row's block at every point is the bias row. -/
theorem iblk0_2 (c : Dev nD) (t : Fin cfg0.N) :
    (iblk0 (F := Ideal) V c 2 t : Vec Ideal S1x64 .f32) = V c main_v4 := by
  obtain ⟨-, -, -, -, e0, e1, -⟩ := idx0 t
  funext y
  show V c main_v4 (((cfg0.win 2).blk t).view.emb y) = V c main_v4 y
  refine congrArg (V c main_v4) (idx_whole y _ ?_ ?_)
  · show win0_2.index t (0 : Fin 2) * 1 + 1 * (y 0).val = _
    rw [e0]
  · show win0_2.index t (1 : Fin 2) * 64 + 1 * (y 1).val = _
    rw [e1]

/-- A table read through the output's block at point `t` is slab `t` of the table. -/
theorem read_out0 (c : Dev nD) (t : Fin cfg0.N) (G : Gin.Tab) :
    ((cfg0.win 3).blk t).view.read (Elt Ideal) G = slab t.val (lt0 t) G := by
  obtain ⟨-, -, -, -, -, -, e0, e1⟩ := idx0 t
  funext y
  show G (((cfg0.win 3).blk t).view.emb y) = G (ix2 (slabRow t.val (lt0 t) (y 0)) (y 1))
  refine congrArg G (idx_slab t.val (lt0 t) y _ ?_ ?_)
  · show win0_3.index t (0 : Fin 2) * 10000 + 1 * (y 0).val = _
    rw [e0]
  · show win0_3.index t (1 : Fin 2) * 64 + 1 * (y 1).val = _
    rw [e1]

/-- What point `t` writes back is slab `t` of the dense layer of the table as the region finds it. -/
theorem flushed0 (c : Dev nD) (t : Fin cfg0.N) :
    (dat0 (F := Ideal) V c).flushed 3 t
      = ((cfg0.win 3).blk t).view.read (Elt Ideal)
          (Dense.affine (V c main_arg0) (V c main_arg2) (Dense.row0 (V c main_v4)) : Gin.Tab) := by
  show (cfg0.win 3).cut (grid0.coords t) ((dat0 V c).after 3 t) = _
  rw [after0_3]
  unfold out0_3
  rw [View.canon_unit_zero offsets0]
  simp only [View.ld_unit_zero (S := S10000x64) offsets0, View.ld_unit_zero (S := S64x64) offsets0,
    View.ld_unit_zero (S := S1x64) offsets0]
  rw [iblk0_0 V c t, iblk0_1 V c t, iblk0_2 V c t, k0_pay1_eq, read_out0 c t]
  rfl

/-- An index of the output is in point `t`'s block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v5).slice (win0_3.rect t)).set ↔ _
  rw [View.set_slice_whole, Rect.mem_set_unit]
  exact Iff.rfl

/-- Every row of the output is in the slab of the point its row number divided by 10000 names. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, -, -, e0, e1⟩ := idx0 t
  refine ⟨t, flush0_3 t, ?_⟩
  rw [mem_blk0]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 64 ≤ (i 1).val ∧ (i 1).val < win0_3.index t (1 : Fin 2) * 64 + 64
    rw [e1]; omega

/-- After the region the output holds the dense layer of the node table, the weight table and the bias row as
    the region found them. -/
theorem final0 (c : Dev nD) :
    (dat0 (F := Ideal) V c).arrAt 3 cfg0.N
      = (Dense.affine (V c main_arg0) (V c main_arg2) (Dense.row0 (V c main_v4)) : Gin.Tab) :=
  (dat0 (F := Ideal) V c).arrAt_eq_of_cover 3 _ (fun t _ => flushed0 V c t) cover0

end Cert.KernelIdeal.Regions

end
-- ==== Proof.KFinal1.lean ====
/-
  A message-passing region: a table plus its aggregated neighbours through the two-layer perceptron.

  The kernel runs at ten points. At point `t` it reads slab `t` of the node table and of the table of aggregated
  neighbours, and the whole of the two weight tables and the two bias rows, and writes slab `t` of its output.
  What it writes is the perceptron of the two slabs added, which is slab `t` of the perceptron of the two tables
  added; the ten slabs fill the output, so after the region the output is the perceptron of the sum.
-/
import proofs.«117363_j52089363366042_1_alg».proof.Proof.Gen.KernelIdeal.Frame
import proofs.«117363_j52089363366042_1_alg».proof.Proof.KPay
import proofs.«117363_j52089363366042_1_alg».proof.Proof.KSlab
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert Cert.KernelIdeal Cert.KernelIdeal.Gen

variable (V : (c : Dev nD) → (b : Ref sig .tc) → Buf (Elt Ideal) ((c : Thread nD τ).loc b))

theorem offsets1 : (![0, 0] : Fin 2 → Nat) = fun _ => 0 := funext fun a => by fin_cases a <;> rfl

theorem lt1 (t : Fin cfg1.N) : t.val < 10 := by
  have h := t.isLt
  have hN : cfg1.N = 10 := N_1
  omega

/-- The index map of the node table: block `t` of the rows at point `t`. -/
theorem idx1_0 : ∀ t : Fin cfg1.N,
    win1_0.index t (0 : Fin 2) = t.val ∧ win1_0.index t (1 : Fin 2) = 0 :=
  (by decide +kernel : ∀ t : Fin grid1.N, _)

/-- The block of the node table at point `t` is slab `t` of it. -/
theorem iblk1_0 (c : Dev nD) (t : Fin cfg1.N) :
    (iblk1 (F := Ideal) V c 0 t : Vec Ideal S10000x64 .f32) = slab t.val (lt1 t) (V c main_v5) := by
  obtain ⟨e0, e1⟩ := idx1_0 t
  funext y
  show V c main_v5 (((cfg1.win 0).blk t).view.emb y)
    = V c main_v5 (ix2 (slabRow t.val (lt1 t) (y 0)) (y 1))
  refine congrArg (V c main_v5) (idx_slab t.val (lt1 t) y _ ?_ ?_)
  · show win1_0.index t (0 : Fin 2) * 10000 + 1 * (y 0).val = _
    rw [e0]
  · show win1_0.index t (1 : Fin 2) * 64 + 1 * (y 1).val = _
    rw [e1]

/-- The index map of the table of aggregated neighbours: block `t` of the rows at point `t`. -/
theorem idx1_1 : ∀ t : Fin cfg1.N,
    win1_1.index t (0 : Fin 2) = t.val ∧ win1_1.index t (1 : Fin 2) = 0 :=
  (by decide +kernel : ∀ t : Fin grid1.N, _)

/-- The block of the table of aggregated neighbours at point `t` is slab `t` of it. -/
theorem iblk1_1 (c : Dev nD) (t : Fin cfg1.N) :
    (iblk1 (F := Ideal) V c 1 t : Vec Ideal S10000x64 .f32) = slab t.val (lt1 t) (V c main_v15) := by
  obtain ⟨e0, e1⟩ := idx1_1 t
  funext y
  show V c main_v15 (((cfg1.win 1).blk t).view.emb y)
    = V c main_v15 (ix2 (slabRow t.val (lt1 t) (y 0)) (y 1))
  refine congrArg (V c main_v15) (idx_slab t.val (lt1 t) y _ ?_ ?_)
  · show win1_1.index t (0 : Fin 2) * 10000 + 1 * (y 0).val = _
    rw [e0]
  · show win1_1.index t (1 : Fin 2) * 64 + 1 * (y 1).val = _
    rw [e1]

/-- The index map of the first weight table: its one block at every point. -/
theorem idx1_2 : ∀ t : Fin cfg1.N,
    win1_2.index t (0 : Fin 2) = 0 ∧ win1_2.index t (1 : Fin 2) = 0 :=
  (by decide +kernel : ∀ t : Fin grid1.N, _)

/-- The block of the first weight table at every point is the whole of it. -/
theorem iblk1_2 (c : Dev nD) (t : Fin cfg1.N) :
    (iblk1 (F := Ideal) V c 2 t : Vec Ideal S64x64 .f32) = V c main_v17 := by
  obtain ⟨e0, e1⟩ := idx1_2 t
  funext y
  show V c main_v17 (((cfg1.win 2).blk t).view.emb y) = V c main_v17 y
  refine congrArg (V c main_v17) (idx_whole y _ ?_ ?_)
  · show win1_2.index t (0 : Fin 2) * 64 + 1 * (y 0).val = _
    rw [e0]
  · show win1_2.index t (1 : Fin 2) * 64 + 1 * (y 1).val = _
    rw [e1]

/-- The index map of the first bias row: its one block at every point. -/
theorem idx1_3 : ∀ t : Fin cfg1.N,
    win1_3.index t (0 : Fin 2) = 0 ∧ win1_3.index t (1 : Fin 2) = 0 :=
  (by decide +kernel : ∀ t : Fin grid1.N, _)

/-- The block of the first bias row at every point is the whole of it. -/
theorem iblk1_3 (c : Dev nD) (t : Fin cfg1.N) :
    (iblk1 (F := Ideal) V c 3 t : Vec Ideal S1x64 .f32) = V c main_v24 := by
  obtain ⟨e0, e1⟩ := idx1_3 t
  funext y
  show V c main_v24 (((cfg1.win 3).blk t).view.emb y) = V c main_v24 y
  refine congrArg (V c main_v24) (idx_whole y _ ?_ ?_)
  · show win1_3.index t (0 : Fin 2) * 1 + 1 * (y 0).val = _
    rw [e0]
  · show win1_3.index t (1 : Fin 2) * 64 + 1 * (y 1).val = _
    rw [e1]

/-- The index map of the second weight table: its one block at every point. -/
theorem idx1_4 : ∀ t : Fin cfg1.N,
    win1_4.index t (0 : Fin 2) = 0 ∧ win1_4.index t (1 : Fin 2) = 0 :=
  (by decide +kernel : ∀ t : Fin grid1.N, _)

/-- The block of the second weight table at every point is the whole of it. -/
theorem iblk1_4 (c : Dev nD) (t : Fin cfg1.N) :
    (iblk1 (F := Ideal) V c 4 t : Vec Ideal S64x64 .f32) = V c main_v21 := by
  obtain ⟨e0, e1⟩ := idx1_4 t
  funext y
  show V c main_v21 (((cfg1.win 4).blk t).view.emb y) = V c main_v21 y
  refine congrArg (V c main_v21) (idx_whole y _ ?_ ?_)
  · show win1_4.index t (0 : Fin 2) * 64 + 1 * (y 0).val = _
    rw [e0]
  · show win1_4.index t (1 : Fin 2) * 64 + 1 * (y 1).val = _
    rw [e1]

/-- The index map of the second bias row: its one block at every point. -/
theorem idx1_5 : ∀ t : Fin cfg1.N,
    win1_5.index t (0 : Fin 2) = 0 ∧ win1_5.index t (1 : Fin 2) = 0 :=
  (by decide +kernel : ∀ t : Fin grid1.N, _)

/-- The block of the second bias row at every point is the whole of it. -/
theorem iblk1_5 (c : Dev nD) (t : Fin cfg1.N) :
    (iblk1 (F := Ideal) V c 5 t : Vec Ideal S1x64 .f32) = V c main_v25 := by
  obtain ⟨e0, e1⟩ := idx1_5 t
  funext y
  show V c main_v25 (((cfg1.win 5).blk t).view.emb y) = V c main_v25 y
  refine congrArg (V c main_v25) (idx_whole y _ ?_ ?_)
  · show win1_5.index t (0 : Fin 2) * 1 + 1 * (y 0).val = _
    rw [e0]
  · show win1_5.index t (1 : Fin 2) * 64 + 1 * (y 1).val = _
    rw [e1]

/-- The index map of the output: block `t` of the rows at point `t`. -/
theorem idx1_6 : ∀ t : Fin cfg1.N,
    win1_6.index t (0 : Fin 2) = t.val ∧ win1_6.index t (1 : Fin 2) = 0 :=
  (by decide +kernel : ∀ t : Fin grid1.N, _)

/-- A table read through the output's block at point `t` is slab `t` of the table. -/
theorem read_out1 (c : Dev nD) (t : Fin cfg1.N) (G : Gin.Tab) :
    ((cfg1.win 6).blk t).view.read (Elt Ideal) G = slab t.val (lt1 t) G := by
  obtain ⟨e0, e1⟩ := idx1_6 t
  funext y
  show G (((cfg1.win 6).blk t).view.emb y) = G (ix2 (slabRow t.val (lt1 t) (y 0)) (y 1))
  refine congrArg G (idx_slab t.val (lt1 t) y _ ?_ ?_)
  · show win1_6.index t (0 : Fin 2) * 10000 + 1 * (y 0).val = _
    rw [e0]
  · show win1_6.index t (1 : Fin 2) * 64 + 1 * (y 1).val = _
    rw [e1]

/-- What point `t` writes back is slab `t` of the perceptron of the table plus its aggregated neighbours, of the operands as the region finds
    them. -/
theorem flushed1 (c : Dev nD) (t : Fin cfg1.N) :
    (dat1 (F := Ideal) V c).flushed 6 t
      = ((cfg1.win 6).blk t).view.read (Elt Ideal)
          (Gin.mlp (fun i => HAdd.hAdd (α := EReal) (β := EReal) (γ := EReal) (V c main_v5 i) (V c main_v15 i)) (V c main_v17)
          (Dense.row0 (V c main_v24)) (V c main_v21) (Dense.row0 (V c main_v25)) : Gin.Tab) := by
  show (cfg1.win 6).cut (grid1.coords t) ((dat1 V c).after 6 t) = _
  rw [after1_6]
  unfold out1_6
  rw [View.canon_unit_zero offsets1]
  simp only [View.ld_unit_zero (S := S10000x64) offsets1, View.ld_unit_zero (S := S64x64) offsets1,
    View.ld_unit_zero (S := S1x64) offsets1]
  rw [iblk1_0 V c t, iblk1_1 V c t, iblk1_2 V c t, iblk1_3 V c t, iblk1_4 V c t, iblk1_5 V c t,
    k1_pay1_eq, read_out1 c t]
  rfl

/-- An index of the output is in point `t`'s block iff each coordinate is in the block's range on its axis. -/
theorem mem_blk1 (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v26).slice (win1_6.rect t)).set ↔ _
  rw [View.set_slice_whole, Rect.mem_set_unit]
  exact Iff.rfl

/-- Every row of the output is in the slab of the point its row number divided by 10000 names. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by omega⟩, rfl⟩
  obtain ⟨e0, e1⟩ := idx1_6 t
  refine ⟨t, flush1_6 t, ?_⟩
  rw [mem_blk1]
  intro a
  match a with
  | ⟨0, _⟩ =>
    show win1_6.index t (0 : Fin 2) * 10000 ≤ (i 0).val
      ∧ (i 0).val < win1_6.index t (0 : Fin 2) * 10000 + 10000
    rw [e0, ht]; omega
  | ⟨1, _⟩ =>
    show win1_6.index t (1 : Fin 2) * 64 ≤ (i 1).val ∧ (i 1).val < win1_6.index t (1 : Fin 2) * 64 + 64
    rw [e1]; omega

/-- After the region the output holds the perceptron of the table plus its aggregated neighbours, of the operands as the region
    found them. -/
theorem final1 (c : Dev nD) :
    (dat1 (F := Ideal) V c).arrAt 6 cfg1.N
      = (Gin.mlp (fun i => HAdd.hAdd (α := EReal) (β := EReal) (γ := EReal) (V c main_v5 i) (V c main_v15 i)) (V c main_v17)
          (Dense.row0 (V c main_v24)) (V c main_v21) (Dense.row0 (V c main_v25)) : Gin.Tab) :=
  (dat1 (F := Ideal) V c).arrAt_eq_of_cover 6 _ (fun t _ => flushed1 V c t) cover1

end Cert.KernelIdeal.Regions

end
-- ==== Proof.KFinal2.lean ====
/-
  A normalising region: every column of a table centred and scaled by given column statistics.

  The kernel runs at ten points. At point `t` it reads slab `t` of the table and the whole of four rows (the
  column means, the column variances, a scale and a shift), and writes slab `t` of its output. What it writes is
  the normalisation of the slab entry by entry, which is slab `t` of the normalisation of the table; the ten
  slabs fill the output, so after the region the output is the normalised table.
-/
import proofs.«117363_j52089363366042_1_alg».proof.Proof.Gen.KernelIdeal.Frame
import proofs.«117363_j52089363366042_1_alg».proof.Proof.KPay
import proofs.«117363_j52089363366042_1_alg».proof.Proof.KSlab
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert Cert.KernelIdeal Cert.KernelIdeal.Gen

variable (V : (c : Dev nD) → (b : Ref sig .tc) → Buf (Elt Ideal) ((c : Thread nD τ).loc b))

theorem offsets2 : (![0, 0] : Fin 2 → Nat) = fun _ => 0 := funext fun a => by fin_cases a <;> rfl

theorem lt2 (t : Fin cfg2.N) : t.val < 10 := by
  have h := t.isLt
  have hN : cfg2.N = 10 := N_2
  omega

/-- The index map of the table: block `t` of the rows at point `t`. -/
theorem idx2_0 : ∀ t : Fin cfg2.N,
    win2_0.index t (0 : Fin 2) = t.val ∧ win2_0.index t (1 : Fin 2) = 0 :=
  (by decide +kernel : ∀ t : Fin grid2.N, _)

/-- The block of the table at point `t` is slab `t` of it. -/
theorem iblk2_0 (c : Dev nD) (t : Fin cfg2.N) :
    (iblk2 (F := Ideal) V c 0 t : Vec Ideal S10000x64 .f32) = slab t.val (lt2 t) (V c main_v26) := by
  obtain ⟨e0, e1⟩ := idx2_0 t
  funext y
  show V c main_v26 (((cfg2.win 0).blk t).view.emb y)
    = V c main_v26 (ix2 (slabRow t.val (lt2 t) (y 0)) (y 1))
  refine congrArg (V c main_v26) (idx_slab t.val (lt2 t) y _ ?_ ?_)
  · show win2_0.index t (0 : Fin 2) * 10000 + 1 * (y 0).val = _
    rw [e0]
  · show win2_0.index t (1 : Fin 2) * 64 + 1 * (y 1).val = _
    rw [e1]

/-- The index map of the row of column means: its one block at every point. -/
theorem idx2_1 : ∀ t : Fin cfg2.N,
    win2_1.index t (0 : Fin 2) = 0 ∧ win2_1.index t (1 : Fin 2) = 0 :=
  (by decide +kernel : ∀ t : Fin grid2.N, _)

/-- The block of the row of column means at every point is the whole of it. -/
theorem iblk2_1 (c : Dev nD) (t : Fin cfg2.N) :
    (iblk2 (F := Ideal) V c 1 t : Vec Ideal S1x64 .f32) = V c main_v35 := by
  obtain ⟨e0, e1⟩ := idx2_1 t
  funext y
  show V c main_v35 (((cfg2.win 1).blk t).view.emb y) = V c main_v35 y
  refine congrArg (V c main_v35) (idx_whole y _ ?_ ?_)
  · show win2_1.index t (0 : Fin 2) * 1 + 1 * (y 0).val = _
    rw [e0]
  · show win2_1.index t (1 : Fin 2) * 64 + 1 * (y 1).val = _
    rw [e1]

/-- The index map of the row of column variances: its one block at every point. -/
theorem idx2_2 : ∀ t : Fin cfg2.N,
    win2_2.index t (0 : Fin 2) = 0 ∧ win2_2.index t (1 : Fin 2) = 0 :=
  (by decide +kernel : ∀ t : Fin grid2.N, _)

/-- The block of the row of column variances at every point is the whole of it. -/
theorem iblk2_2 (c : Dev nD) (t : Fin cfg2.N) :
    (iblk2 (F := Ideal) V c 2 t : Vec Ideal S1x64 .f32) = V c main_v36 := by
  obtain ⟨e0, e1⟩ := idx2_2 t
  funext y
  show V c main_v36 (((cfg2.win 2).blk t).view.emb y) = V c main_v36 y
  refine congrArg (V c main_v36) (idx_whole y _ ?_ ?_)
  · show win2_2.index t (0 : Fin 2) * 1 + 1 * (y 0).val = _
    rw [e0]
  · show win2_2.index t (1 : Fin 2) * 64 + 1 * (y 1).val = _
    rw [e1]

/-- The index map of the scale row: its one block at every point. -/
theorem idx2_3 : ∀ t : Fin cfg2.N,
    win2_3.index t (0 : Fin 2) = 0 ∧ win2_3.index t (1 : Fin 2) = 0 :=
  (by decide +kernel : ∀ t : Fin grid2.N, _)

/-- The block of the scale row at every point is the whole of it. -/
theorem iblk2_3 (c : Dev nD) (t : Fin cfg2.N) :
    (iblk2 (F := Ideal) V c 3 t : Vec Ideal S1x64 .f32) = V c main_v37 := by
  obtain ⟨e0, e1⟩ := idx2_3 t
  funext y
  show V c main_v37 (((cfg2.win 3).blk t).view.emb y) = V c main_v37 y
  refine congrArg (V c main_v37) (idx_whole y _ ?_ ?_)
  · show win2_3.index t (0 : Fin 2) * 1 + 1 * (y 0).val = _
    rw [e0]
  · show win2_3.index t (1 : Fin 2) * 64 + 1 * (y 1).val = _
    rw [e1]

/-- The index map of the shift row: its one block at every point. -/
theorem idx2_4 : ∀ t : Fin cfg2.N,
    win2_4.index t (0 : Fin 2) = 0 ∧ win2_4.index t (1 : Fin 2) = 0 :=
  (by decide +kernel : ∀ t : Fin grid2.N, _)

/-- The block of the shift row at every point is the whole of it. -/
theorem iblk2_4 (c : Dev nD) (t : Fin cfg2.N) :
    (iblk2 (F := Ideal) V c 4 t : Vec Ideal S1x64 .f32) = V c main_v38 := by
  obtain ⟨e0, e1⟩ := idx2_4 t
  funext y
  show V c main_v38 (((cfg2.win 4).blk t).view.emb y) = V c main_v38 y
  refine congrArg (V c main_v38) (idx_whole y _ ?_ ?_)
  · show win2_4.index t (0 : Fin 2) * 1 + 1 * (y 0).val = _
    rw [e0]
  · show win2_4.index t (1 : Fin 2) * 64 + 1 * (y 1).val = _
    rw [e1]

/-- The index map of the output: block `t` of the rows at point `t`. -/
theorem idx2_5 : ∀ t : Fin cfg2.N,
    win2_5.index t (0 : Fin 2) = t.val ∧ win2_5.index t (1 : Fin 2) = 0 :=
  (by decide +kernel : ∀ t : Fin grid2.N, _)

/-- A table read through the output's block at point `t` is slab `t` of the table. -/
theorem read_out2 (c : Dev nD) (t : Fin cfg2.N) (G : Gin.Tab) :
    ((cfg2.win 5).blk t).view.read (Elt Ideal) G = slab t.val (lt2 t) G := by
  obtain ⟨e0, e1⟩ := idx2_5 t
  funext y
  show G (((cfg2.win 5).blk t).view.emb y) = G (ix2 (slabRow t.val (lt2 t) (y 0)) (y 1))
  refine congrArg G (idx_slab t.val (lt2 t) y _ ?_ ?_)
  · show win2_5.index t (0 : Fin 2) * 10000 + 1 * (y 0).val = _
    rw [e0]
  · show win2_5.index t (1 : Fin 2) * 64 + 1 * (y 1).val = _
    rw [e1]

/-- What point `t` writes back is slab `t` of the normalisation of the table by the given column statistics, of the operands as the region finds
    them. -/
theorem flushed2 (c : Dev nD) (t : Fin cfg2.N) :
    (dat2 (F := Ideal) V c).flushed 5 t
      = ((cfg2.win 5).blk t).view.read (Elt Ideal)
          (Gin.normWith (V c main_v26) (Dense.row0 (V c main_v35)) (Dense.row0 (V c main_v36))
          (Dense.row0 (V c main_v37)) (Dense.row0 (V c main_v38)) : Gin.Tab) := by
  show (cfg2.win 5).cut (grid2.coords t) ((dat2 V c).after 5 t) = _
  rw [after2_5]
  unfold out2_5
  rw [View.canon_unit_zero offsets2]
  simp only [View.ld_unit_zero (S := S10000x64) offsets2, View.ld_unit_zero (S := S64x64) offsets2,
    View.ld_unit_zero (S := S1x64) offsets2]
  rw [iblk2_0 V c t, iblk2_1 V c t, iblk2_2 V c t, iblk2_3 V c t, iblk2_4 V c t,
    k2_pay1_eq, read_out2 c t]
  rfl

/-- An index of the output is in point `t`'s block iff each coordinate is in the block's range on its axis. -/
theorem mem_blk2 (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v39).slice (win2_5.rect t)).set ↔ _
  rw [View.set_slice_whole, Rect.mem_set_unit]
  exact Iff.rfl

/-- Every row of the output is in the slab of the point its row number divided by 10000 names. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by omega⟩, rfl⟩
  obtain ⟨e0, e1⟩ := idx2_5 t
  refine ⟨t, flush2_5 t, ?_⟩
  rw [mem_blk2]
  intro a
  match a with
  | ⟨0, _⟩ =>
    show win2_5.index t (0 : Fin 2) * 10000 ≤ (i 0).val
      ∧ (i 0).val < win2_5.index t (0 : Fin 2) * 10000 + 10000
    rw [e0, ht]; omega
  | ⟨1, _⟩ =>
    show win2_5.index t (1 : Fin 2) * 64 ≤ (i 1).val ∧ (i 1).val < win2_5.index t (1 : Fin 2) * 64 + 64
    rw [e1]; omega

/-- After the region the output holds the normalisation of the table by the given column statistics, of the operands as the region
    found them. -/
theorem final2 (c : Dev nD) :
    (dat2 (F := Ideal) V c).arrAt 5 cfg2.N
      = (Gin.normWith (V c main_v26) (Dense.row0 (V c main_v35)) (Dense.row0 (V c main_v36))
          (Dense.row0 (V c main_v37)) (Dense.row0 (V c main_v38)) : Gin.Tab) :=
  (dat2 (F := Ideal) V c).arrAt_eq_of_cover 5 _ (fun t _ => flushed2 V c t) cover2

end Cert.KernelIdeal.Regions

end
-- ==== Proof.KFinal3.lean ====
/-
  A message-passing region: a table plus its aggregated neighbours through the two-layer perceptron.

  The kernel runs at ten points. At point `t` it reads slab `t` of the node table and of the table of aggregated
  neighbours, and the whole of the two weight tables and the two bias rows, and writes slab `t` of its output.
  What it writes is the perceptron of the two slabs added, which is slab `t` of the perceptron of the two tables
  added; the ten slabs fill the output, so after the region the output is the perceptron of the sum.
-/
import proofs.«117363_j52089363366042_1_alg».proof.Proof.Gen.KernelIdeal.Frame
import proofs.«117363_j52089363366042_1_alg».proof.Proof.KPay
import proofs.«117363_j52089363366042_1_alg».proof.Proof.KSlab
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert Cert.KernelIdeal Cert.KernelIdeal.Gen

variable (V : (c : Dev nD) → (b : Ref sig .tc) → Buf (Elt Ideal) ((c : Thread nD τ).loc b))

theorem offsets3 : (![0, 0] : Fin 2 → Nat) = fun _ => 0 := funext fun a => by fin_cases a <;> rfl

theorem lt3 (t : Fin cfg3.N) : t.val < 10 := by
  have h := t.isLt
  have hN : cfg3.N = 10 := N_3
  omega

/-- The index map of the node table: block `t` of the rows at point `t`. -/
theorem idx3_0 : ∀ t : Fin cfg3.N,
    win3_0.index t (0 : Fin 2) = t.val ∧ win3_0.index t (1 : Fin 2) = 0 :=
  (by decide +kernel : ∀ t : Fin grid3.N, _)

/-- The block of the node table at point `t` is slab `t` of it. -/
theorem iblk3_0 (c : Dev nD) (t : Fin cfg3.N) :
    (iblk3 (F := Ideal) V c 0 t : Vec Ideal S10000x64 .f32) = slab t.val (lt3 t) (V c main_v39) := by
  obtain ⟨e0, e1⟩ := idx3_0 t
  funext y
  show V c main_v39 (((cfg3.win 0).blk t).view.emb y)
    = V c main_v39 (ix2 (slabRow t.val (lt3 t) (y 0)) (y 1))
  refine congrArg (V c main_v39) (idx_slab t.val (lt3 t) y _ ?_ ?_)
  · show win3_0.index t (0 : Fin 2) * 10000 + 1 * (y 0).val = _
    rw [e0]
  · show win3_0.index t (1 : Fin 2) * 64 + 1 * (y 1).val = _
    rw [e1]

/-- The index map of the table of aggregated neighbours: block `t` of the rows at point `t`. -/
theorem idx3_1 : ∀ t : Fin cfg3.N,
    win3_1.index t (0 : Fin 2) = t.val ∧ win3_1.index t (1 : Fin 2) = 0 :=
  (by decide +kernel : ∀ t : Fin grid3.N, _)

/-- The block of the table of aggregated neighbours at point `t` is slab `t` of it. -/
theorem iblk3_1 (c : Dev nD) (t : Fin cfg3.N) :
    (iblk3 (F := Ideal) V c 1 t : Vec Ideal S10000x64 .f32) = slab t.val (lt3 t) (V c main_v49) := by
  obtain ⟨e0, e1⟩ := idx3_1 t
  funext y
  show V c main_v49 (((cfg3.win 1).blk t).view.emb y)
    = V c main_v49 (ix2 (slabRow t.val (lt3 t) (y 0)) (y 1))
  refine congrArg (V c main_v49) (idx_slab t.val (lt3 t) y _ ?_ ?_)
  · show win3_1.index t (0 : Fin 2) * 10000 + 1 * (y 0).val = _
    rw [e0]
  · show win3_1.index t (1 : Fin 2) * 64 + 1 * (y 1).val = _
    rw [e1]

/-- The index map of the first weight table: its one block at every point. -/
theorem idx3_2 : ∀ t : Fin cfg3.N,
    win3_2.index t (0 : Fin 2) = 0 ∧ win3_2.index t (1 : Fin 2) = 0 :=
  (by decide +kernel : ∀ t : Fin grid3.N, _)

/-- The block of the first weight table at every point is the whole of it. -/
theorem iblk3_2 (c : Dev nD) (t : Fin cfg3.N) :
    (iblk3 (F := Ideal) V c 2 t : Vec Ideal S64x64 .f32) = V c main_v51 := by
  obtain ⟨e0, e1⟩ := idx3_2 t
  funext y
  show V c main_v51 (((cfg3.win 2).blk t).view.emb y) = V c main_v51 y
  refine congrArg (V c main_v51) (idx_whole y _ ?_ ?_)
  · show win3_2.index t (0 : Fin 2) * 64 + 1 * (y 0).val = _
    rw [e0]
  · show win3_2.index t (1 : Fin 2) * 64 + 1 * (y 1).val = _
    rw [e1]

/-- The index map of the first bias row: its one block at every point. -/
theorem idx3_3 : ∀ t : Fin cfg3.N,
    win3_3.index t (0 : Fin 2) = 0 ∧ win3_3.index t (1 : Fin 2) = 0 :=
  (by decide +kernel : ∀ t : Fin grid3.N, _)

/-- The block of the first bias row at every point is the whole of it. -/
theorem iblk3_3 (c : Dev nD) (t : Fin cfg3.N) :
    (iblk3 (F := Ideal) V c 3 t : Vec Ideal S1x64 .f32) = V c main_v58 := by
  obtain ⟨e0, e1⟩ := idx3_3 t
  funext y
  show V c main_v58 (((cfg3.win 3).blk t).view.emb y) = V c main_v58 y
  refine congrArg (V c main_v58) (idx_whole y _ ?_ ?_)
  · show win3_3.index t (0 : Fin 2) * 1 + 1 * (y 0).val = _
    rw [e0]
  · show win3_3.index t (1 : Fin 2) * 64 + 1 * (y 1).val = _
    rw [e1]

/-- The index map of the second weight table: its one block at every point. -/
theorem idx3_4 : ∀ t : Fin cfg3.N,
    win3_4.index t (0 : Fin 2) = 0 ∧ win3_4.index t (1 : Fin 2) = 0 :=
  (by decide +kernel : ∀ t : Fin grid3.N, _)

/-- The block of the second weight table at every point is the whole of it. -/
theorem iblk3_4 (c : Dev nD) (t : Fin cfg3.N) :
    (iblk3 (F := Ideal) V c 4 t : Vec Ideal S64x64 .f32) = V c main_v55 := by
  obtain ⟨e0, e1⟩ := idx3_4 t
  funext y
  show V c main_v55 (((cfg3.win 4).blk t).view.emb y) = V c main_v55 y
  refine congrArg (V c main_v55) (idx_whole y _ ?_ ?_)
  · show win3_4.index t (0 : Fin 2) * 64 + 1 * (y 0).val = _
    rw [e0]
  · show win3_4.index t (1 : Fin 2) * 64 + 1 * (y 1).val = _
    rw [e1]

/-- The index map of the second bias row: its one block at every point. -/
theorem idx3_5 : ∀ t : Fin cfg3.N,
    win3_5.index t (0 : Fin 2) = 0 ∧ win3_5.index t (1 : Fin 2) = 0 :=
  (by decide +kernel : ∀ t : Fin grid3.N, _)

/-- The block of the second bias row at every point is the whole of it. -/
theorem iblk3_5 (c : Dev nD) (t : Fin cfg3.N) :
    (iblk3 (F := Ideal) V c 5 t : Vec Ideal S1x64 .f32) = V c main_v59 := by
  obtain ⟨e0, e1⟩ := idx3_5 t
  funext y
  show V c main_v59 (((cfg3.win 5).blk t).view.emb y) = V c main_v59 y
  refine congrArg (V c main_v59) (idx_whole y _ ?_ ?_)
  · show win3_5.index t (0 : Fin 2) * 1 + 1 * (y 0).val = _
    rw [e0]
  · show win3_5.index t (1 : Fin 2) * 64 + 1 * (y 1).val = _
    rw [e1]

/-- The index map of the output: block `t` of the rows at point `t`. -/
theorem idx3_6 : ∀ t : Fin cfg3.N,
    win3_6.index t (0 : Fin 2) = t.val ∧ win3_6.index t (1 : Fin 2) = 0 :=
  (by decide +kernel : ∀ t : Fin grid3.N, _)

/-- A table read through the output's block at point `t` is slab `t` of the table. -/
theorem read_out3 (c : Dev nD) (t : Fin cfg3.N) (G : Gin.Tab) :
    ((cfg3.win 6).blk t).view.read (Elt Ideal) G = slab t.val (lt3 t) G := by
  obtain ⟨e0, e1⟩ := idx3_6 t
  funext y
  show G (((cfg3.win 6).blk t).view.emb y) = G (ix2 (slabRow t.val (lt3 t) (y 0)) (y 1))
  refine congrArg G (idx_slab t.val (lt3 t) y _ ?_ ?_)
  · show win3_6.index t (0 : Fin 2) * 10000 + 1 * (y 0).val = _
    rw [e0]
  · show win3_6.index t (1 : Fin 2) * 64 + 1 * (y 1).val = _
    rw [e1]

/-- What point `t` writes back is slab `t` of the perceptron of the table plus its aggregated neighbours, of the operands as the region finds
    them. -/
theorem flushed3 (c : Dev nD) (t : Fin cfg3.N) :
    (dat3 (F := Ideal) V c).flushed 6 t
      = ((cfg3.win 6).blk t).view.read (Elt Ideal)
          (Gin.mlp (fun i => HAdd.hAdd (α := EReal) (β := EReal) (γ := EReal) (V c main_v39 i) (V c main_v49 i)) (V c main_v51)
          (Dense.row0 (V c main_v58)) (V c main_v55) (Dense.row0 (V c main_v59)) : Gin.Tab) := by
  show (cfg3.win 6).cut (grid3.coords t) ((dat3 V c).after 6 t) = _
  rw [after3_6]
  unfold out3_6
  rw [View.canon_unit_zero offsets3]
  simp only [View.ld_unit_zero (S := S10000x64) offsets3, View.ld_unit_zero (S := S64x64) offsets3,
    View.ld_unit_zero (S := S1x64) offsets3]
  rw [iblk3_0 V c t, iblk3_1 V c t, iblk3_2 V c t, iblk3_3 V c t, iblk3_4 V c t, iblk3_5 V c t,
    k3_pay1_eq, k1_pay1_eq, read_out3 c t]
  rfl

/-- An index of the output is in point `t`'s block iff each coordinate is in the block's range on its axis. -/
theorem mem_blk3 (t : Fin cfg3.N) (i : S100000x64.Idx) :
    i ∈ ((cfg3.win 6).blk t).view.set ↔ ∀ a : Fin 2, win3_6.index t a * S10000x64.size a ≤ (i a).val
      ∧ (i a).val < win3_6.index t a * S10000x64.size a + S10000x64.size a := by
  show i ∈ ((View.whole main_v60).slice (win3_6.rect t)).set ↔ _
  rw [View.set_slice_whole, Rect.mem_set_unit]
  exact Iff.rfl

/-- Every row of the output is in the slab of the point its row number divided by 10000 names. -/
theorem cover3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by omega⟩, rfl⟩
  obtain ⟨e0, e1⟩ := idx3_6 t
  refine ⟨t, flush3_6 t, ?_⟩
  rw [mem_blk3]
  intro a
  match a with
  | ⟨0, _⟩ =>
    show win3_6.index t (0 : Fin 2) * 10000 ≤ (i 0).val
      ∧ (i 0).val < win3_6.index t (0 : Fin 2) * 10000 + 10000
    rw [e0, ht]; omega
  | ⟨1, _⟩ =>
    show win3_6.index t (1 : Fin 2) * 64 ≤ (i 1).val ∧ (i 1).val < win3_6.index t (1 : Fin 2) * 64 + 64
    rw [e1]; omega

/-- After the region the output holds the perceptron of the table plus its aggregated neighbours, of the operands as the region
    found them. -/
theorem final3 (c : Dev nD) :
    (dat3 (F := Ideal) V c).arrAt 6 cfg3.N
      = (Gin.mlp (fun i => HAdd.hAdd (α := EReal) (β := EReal) (γ := EReal) (V c main_v39 i) (V c main_v49 i)) (V c main_v51)
          (Dense.row0 (V c main_v58)) (V c main_v55) (Dense.row0 (V c main_v59)) : Gin.Tab) :=
  (dat3 (F := Ideal) V c).arrAt_eq_of_cover 6 _ (fun t _ => flushed3 V c t) cover3

end Cert.KernelIdeal.Regions

end
-- ==== Proof.KFinal4.lean ====
/-
  A normalising region: every column of a table centred and scaled by given column statistics.

  The kernel runs at ten points. At point `t` it reads slab `t` of the table and the whole of four rows (the
  column means, the column variances, a scale and a shift), and writes slab `t` of its output. What it writes is
  the normalisation of the slab entry by entry, which is slab `t` of the normalisation of the table; the ten
  slabs fill the output, so after the region the output is the normalised table.
-/
import proofs.«117363_j52089363366042_1_alg».proof.Proof.Gen.KernelIdeal.Frame
import proofs.«117363_j52089363366042_1_alg».proof.Proof.KPay
import proofs.«117363_j52089363366042_1_alg».proof.Proof.KSlab
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert Cert.KernelIdeal Cert.KernelIdeal.Gen

variable (V : (c : Dev nD) → (b : Ref sig .tc) → Buf (Elt Ideal) ((c : Thread nD τ).loc b))

theorem offsets4 : (![0, 0] : Fin 2 → Nat) = fun _ => 0 := funext fun a => by fin_cases a <;> rfl

theorem lt4 (t : Fin cfg4.N) : t.val < 10 := by
  have h := t.isLt
  have hN : cfg4.N = 10 := N_4
  omega

/-- The index map of the table: block `t` of the rows at point `t`. -/
theorem idx4_0 : ∀ t : Fin cfg4.N,
    win4_0.index t (0 : Fin 2) = t.val ∧ win4_0.index t (1 : Fin 2) = 0 :=
  (by decide +kernel : ∀ t : Fin grid4.N, _)

/-- The block of the table at point `t` is slab `t` of it. -/
theorem iblk4_0 (c : Dev nD) (t : Fin cfg4.N) :
    (iblk4 (F := Ideal) V c 0 t : Vec Ideal S10000x64 .f32) = slab t.val (lt4 t) (V c main_v60) := by
  obtain ⟨e0, e1⟩ := idx4_0 t
  funext y
  show V c main_v60 (((cfg4.win 0).blk t).view.emb y)
    = V c main_v60 (ix2 (slabRow t.val (lt4 t) (y 0)) (y 1))
  refine congrArg (V c main_v60) (idx_slab t.val (lt4 t) y _ ?_ ?_)
  · show win4_0.index t (0 : Fin 2) * 10000 + 1 * (y 0).val = _
    rw [e0]
  · show win4_0.index t (1 : Fin 2) * 64 + 1 * (y 1).val = _
    rw [e1]

/-- The index map of the row of column means: its one block at every point. -/
theorem idx4_1 : ∀ t : Fin cfg4.N,
    win4_1.index t (0 : Fin 2) = 0 ∧ win4_1.index t (1 : Fin 2) = 0 :=
  (by decide +kernel : ∀ t : Fin grid4.N, _)

/-- The block of the row of column means at every point is the whole of it. -/
theorem iblk4_1 (c : Dev nD) (t : Fin cfg4.N) :
    (iblk4 (F := Ideal) V c 1 t : Vec Ideal S1x64 .f32) = V c main_v69 := by
  obtain ⟨e0, e1⟩ := idx4_1 t
  funext y
  show V c main_v69 (((cfg4.win 1).blk t).view.emb y) = V c main_v69 y
  refine congrArg (V c main_v69) (idx_whole y _ ?_ ?_)
  · show win4_1.index t (0 : Fin 2) * 1 + 1 * (y 0).val = _
    rw [e0]
  · show win4_1.index t (1 : Fin 2) * 64 + 1 * (y 1).val = _
    rw [e1]

/-- The index map of the row of column variances: its one block at every point. -/
theorem idx4_2 : ∀ t : Fin cfg4.N,
    win4_2.index t (0 : Fin 2) = 0 ∧ win4_2.index t (1 : Fin 2) = 0 :=
  (by decide +kernel : ∀ t : Fin grid4.N, _)

/-- The block of the row of column variances at every point is the whole of it. -/
theorem iblk4_2 (c : Dev nD) (t : Fin cfg4.N) :
    (iblk4 (F := Ideal) V c 2 t : Vec Ideal S1x64 .f32) = V c main_v70 := by
  obtain ⟨e0, e1⟩ := idx4_2 t
  funext y
  show V c main_v70 (((cfg4.win 2).blk t).view.emb y) = V c main_v70 y
  refine congrArg (V c main_v70) (idx_whole y _ ?_ ?_)
  · show win4_2.index t (0 : Fin 2) * 1 + 1 * (y 0).val = _
    rw [e0]
  · show win4_2.index t (1 : Fin 2) * 64 + 1 * (y 1).val = _
    rw [e1]

/-- The index map of the scale row: its one block at every point. -/
theorem idx4_3 : ∀ t : Fin cfg4.N,
    win4_3.index t (0 : Fin 2) = 0 ∧ win4_3.index t (1 : Fin 2) = 0 :=
  (by decide +kernel : ∀ t : Fin grid4.N, _)

/-- The block of the scale row at every point is the whole of it. -/
theorem iblk4_3 (c : Dev nD) (t : Fin cfg4.N) :
    (iblk4 (F := Ideal) V c 3 t : Vec Ideal S1x64 .f32) = V c main_v71 := by
  obtain ⟨e0, e1⟩ := idx4_3 t
  funext y
  show V c main_v71 (((cfg4.win 3).blk t).view.emb y) = V c main_v71 y
  refine congrArg (V c main_v71) (idx_whole y _ ?_ ?_)
  · show win4_3.index t (0 : Fin 2) * 1 + 1 * (y 0).val = _
    rw [e0]
  · show win4_3.index t (1 : Fin 2) * 64 + 1 * (y 1).val = _
    rw [e1]

/-- The index map of the shift row: its one block at every point. -/
theorem idx4_4 : ∀ t : Fin cfg4.N,
    win4_4.index t (0 : Fin 2) = 0 ∧ win4_4.index t (1 : Fin 2) = 0 :=
  (by decide +kernel : ∀ t : Fin grid4.N, _)

/-- The block of the shift row at every point is the whole of it. -/
theorem iblk4_4 (c : Dev nD) (t : Fin cfg4.N) :
    (iblk4 (F := Ideal) V c 4 t : Vec Ideal S1x64 .f32) = V c main_v72 := by
  obtain ⟨e0, e1⟩ := idx4_4 t
  funext y
  show V c main_v72 (((cfg4.win 4).blk t).view.emb y) = V c main_v72 y
  refine congrArg (V c main_v72) (idx_whole y _ ?_ ?_)
  · show win4_4.index t (0 : Fin 2) * 1 + 1 * (y 0).val = _
    rw [e0]
  · show win4_4.index t (1 : Fin 2) * 64 + 1 * (y 1).val = _
    rw [e1]

/-- The index map of the output: block `t` of the rows at point `t`. -/
theorem idx4_5 : ∀ t : Fin cfg4.N,
    win4_5.index t (0 : Fin 2) = t.val ∧ win4_5.index t (1 : Fin 2) = 0 :=
  (by decide +kernel : ∀ t : Fin grid4.N, _)

/-- A table read through the output's block at point `t` is slab `t` of the table. -/
theorem read_out4 (c : Dev nD) (t : Fin cfg4.N) (G : Gin.Tab) :
    ((cfg4.win 5).blk t).view.read (Elt Ideal) G = slab t.val (lt4 t) G := by
  obtain ⟨e0, e1⟩ := idx4_5 t
  funext y
  show G (((cfg4.win 5).blk t).view.emb y) = G (ix2 (slabRow t.val (lt4 t) (y 0)) (y 1))
  refine congrArg G (idx_slab t.val (lt4 t) y _ ?_ ?_)
  · show win4_5.index t (0 : Fin 2) * 10000 + 1 * (y 0).val = _
    rw [e0]
  · show win4_5.index t (1 : Fin 2) * 64 + 1 * (y 1).val = _
    rw [e1]

/-- What point `t` writes back is slab `t` of the normalisation of the table by the given column statistics, of the operands as the region finds
    them. -/
theorem flushed4 (c : Dev nD) (t : Fin cfg4.N) :
    (dat4 (F := Ideal) V c).flushed 5 t
      = ((cfg4.win 5).blk t).view.read (Elt Ideal)
          (Gin.normWith (V c main_v60) (Dense.row0 (V c main_v69)) (Dense.row0 (V c main_v70))
          (Dense.row0 (V c main_v71)) (Dense.row0 (V c main_v72)) : Gin.Tab) := by
  show (cfg4.win 5).cut (grid4.coords t) ((dat4 V c).after 5 t) = _
  rw [after4_5]
  unfold out4_5
  rw [View.canon_unit_zero offsets4]
  simp only [View.ld_unit_zero (S := S10000x64) offsets4, View.ld_unit_zero (S := S64x64) offsets4,
    View.ld_unit_zero (S := S1x64) offsets4]
  rw [iblk4_0 V c t, iblk4_1 V c t, iblk4_2 V c t, iblk4_3 V c t, iblk4_4 V c t,
    k4_pay1_eq, k2_pay1_eq, read_out4 c t]
  rfl

/-- An index of the output is in point `t`'s block iff each coordinate is in the block's range on its axis. -/
theorem mem_blk4 (t : Fin cfg4.N) (i : S100000x64.Idx) :
    i ∈ ((cfg4.win 5).blk t).view.set ↔ ∀ a : Fin 2, win4_5.index t a * S10000x64.size a ≤ (i a).val
      ∧ (i a).val < win4_5.index t a * S10000x64.size a + S10000x64.size a := by
  show i ∈ ((View.whole main_v73).slice (win4_5.rect t)).set ↔ _
  rw [View.set_slice_whole, Rect.mem_set_unit]
  exact Iff.rfl

/-- Every row of the output is in the slab of the point its row number divided by 10000 names. -/
theorem cover4 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 10 := N_4
  obtain ⟨t, ht⟩ : ∃ t : Fin cfg4.N, t.val = (i 0).val / 10000 := ⟨⟨(i 0).val / 10000, by omega⟩, rfl⟩
  obtain ⟨e0, e1⟩ := idx4_5 t
  refine ⟨t, flush4_5 t, ?_⟩
  rw [mem_blk4]
  intro a
  match a with
  | ⟨0, _⟩ =>
    show win4_5.index t (0 : Fin 2) * 10000 ≤ (i 0).val
      ∧ (i 0).val < win4_5.index t (0 : Fin 2) * 10000 + 10000
    rw [e0, ht]; omega
  | ⟨1, _⟩ =>
    show win4_5.index t (1 : Fin 2) * 64 ≤ (i 1).val ∧ (i 1).val < win4_5.index t (1 : Fin 2) * 64 + 64
    rw [e1]; omega

/-- After the region the output holds the normalisation of the table by the given column statistics, of the operands as the region
    found them. -/
theorem final4 (c : Dev nD) :
    (dat4 (F := Ideal) V c).arrAt 5 cfg4.N
      = (Gin.normWith (V c main_v60) (Dense.row0 (V c main_v69)) (Dense.row0 (V c main_v70))
          (Dense.row0 (V c main_v71)) (Dense.row0 (V c main_v72)) : Gin.Tab) :=
  (dat4 (F := Ideal) V c).arrAt_eq_of_cover 5 _ (fun t _ => flushed4 V c t) cover4

end Cert.KernelIdeal.Regions

end
-- ==== Proof.KFinal5.lean ====
/-
  A message-passing region: a table plus its aggregated neighbours through the two-layer perceptron.

  The kernel runs at ten points. At point `t` it reads slab `t` of the node table and of the table of aggregated
  neighbours, and the whole of the two weight tables and the two bias rows, and writes slab `t` of its output.
  What it writes is the perceptron of the two slabs added, which is slab `t` of the perceptron of the two tables
  added; the ten slabs fill the output, so after the region the output is the perceptron of the sum.
-/
import proofs.«117363_j52089363366042_1_alg».proof.Proof.Gen.KernelIdeal.Frame
import proofs.«117363_j52089363366042_1_alg».proof.Proof.KPay
import proofs.«117363_j52089363366042_1_alg».proof.Proof.KSlab
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert Cert.KernelIdeal Cert.KernelIdeal.Gen

variable (V : (c : Dev nD) → (b : Ref sig .tc) → Buf (Elt Ideal) ((c : Thread nD τ).loc b))

theorem offsets5 : (![0, 0] : Fin 2 → Nat) = fun _ => 0 := funext fun a => by fin_cases a <;> rfl

theorem lt5 (t : Fin cfg5.N) : t.val < 10 := by
  have h := t.isLt
  have hN : cfg5.N = 10 := N_5
  omega

/-- The index map of the node table: block `t` of the rows at point `t`. -/
theorem idx5_0 : ∀ t : Fin cfg5.N,
    win5_0.index t (0 : Fin 2) = t.val ∧ win5_0.index t (1 : Fin 2) = 0 :=
  (by decide +kernel : ∀ t : Fin grid5.N, _)

/-- The block of the node table at point `t` is slab `t` of it. -/
theorem iblk5_0 (c : Dev nD) (t : Fin cfg5.N) :
    (iblk5 (F := Ideal) V c 0 t : Vec Ideal S10000x64 .f32) = slab t.val (lt5 t) (V c main_v73) := by
  obtain ⟨e0, e1⟩ := idx5_0 t
  funext y
  show V c main_v73 (((cfg5.win 0).blk t).view.emb y)
    = V c main_v73 (ix2 (slabRow t.val (lt5 t) (y 0)) (y 1))
  refine congrArg (V c main_v73) (idx_slab t.val (lt5 t) y _ ?_ ?_)
  · show win5_0.index t (0 : Fin 2) * 10000 + 1 * (y 0).val = _
    rw [e0]
  · show win5_0.index t (1 : Fin 2) * 64 + 1 * (y 1).val = _
    rw [e1]

/-- The index map of the table of aggregated neighbours: block `t` of the rows at point `t`. -/
theorem idx5_1 : ∀ t : Fin cfg5.N,
    win5_1.index t (0 : Fin 2) = t.val ∧ win5_1.index t (1 : Fin 2) = 0 :=
  (by decide +kernel : ∀ t : Fin grid5.N, _)

/-- The block of the table of aggregated neighbours at point `t` is slab `t` of it. -/
theorem iblk5_1 (c : Dev nD) (t : Fin cfg5.N) :
    (iblk5 (F := Ideal) V c 1 t : Vec Ideal S10000x64 .f32) = slab t.val (lt5 t) (V c main_v83) := by
  obtain ⟨e0, e1⟩ := idx5_1 t
  funext y
  show V c main_v83 (((cfg5.win 1).blk t).view.emb y)
    = V c main_v83 (ix2 (slabRow t.val (lt5 t) (y 0)) (y 1))
  refine congrArg (V c main_v83) (idx_slab t.val (lt5 t) y _ ?_ ?_)
  · show win5_1.index t (0 : Fin 2) * 10000 + 1 * (y 0).val = _
    rw [e0]
  · show win5_1.index t (1 : Fin 2) * 64 + 1 * (y 1).val = _
    rw [e1]

/-- The index map of the first weight table: its one block at every point. -/
theorem idx5_2 : ∀ t : Fin cfg5.N,
    win5_2.index t (0 : Fin 2) = 0 ∧ win5_2.index t (1 : Fin 2) = 0 :=
  (by decide +kernel : ∀ t : Fin grid5.N, _)

/-- The block of the first weight table at every point is the whole of it. -/
theorem iblk5_2 (c : Dev nD) (t : Fin cfg5.N) :
    (iblk5 (F := Ideal) V c 2 t : Vec Ideal S64x64 .f32) = V c main_v85 := by
  obtain ⟨e0, e1⟩ := idx5_2 t
  funext y
  show V c main_v85 (((cfg5.win 2).blk t).view.emb y) = V c main_v85 y
  refine congrArg (V c main_v85) (idx_whole y _ ?_ ?_)
  · show win5_2.index t (0 : Fin 2) * 64 + 1 * (y 0).val = _
    rw [e0]
  · show win5_2.index t (1 : Fin 2) * 64 + 1 * (y 1).val = _
    rw [e1]

/-- The index map of the first bias row: its one block at every point. -/
theorem idx5_3 : ∀ t : Fin cfg5.N,
    win5_3.index t (0 : Fin 2) = 0 ∧ win5_3.index t (1 : Fin 2) = 0 :=
  (by decide +kernel : ∀ t : Fin grid5.N, _)

/-- The block of the first bias row at every point is the whole of it. -/
theorem iblk5_3 (c : Dev nD) (t : Fin cfg5.N) :
    (iblk5 (F := Ideal) V c 3 t : Vec Ideal S1x64 .f32) = V c main_v92 := by
  obtain ⟨e0, e1⟩ := idx5_3 t
  funext y
  show V c main_v92 (((cfg5.win 3).blk t).view.emb y) = V c main_v92 y
  refine congrArg (V c main_v92) (idx_whole y _ ?_ ?_)
  · show win5_3.index t (0 : Fin 2) * 1 + 1 * (y 0).val = _
    rw [e0]
  · show win5_3.index t (1 : Fin 2) * 64 + 1 * (y 1).val = _
    rw [e1]

/-- The index map of the second weight table: its one block at every point. -/
theorem idx5_4 : ∀ t : Fin cfg5.N,
    win5_4.index t (0 : Fin 2) = 0 ∧ win5_4.index t (1 : Fin 2) = 0 :=
  (by decide +kernel : ∀ t : Fin grid5.N, _)

/-- The block of the second weight table at every point is the whole of it. -/
theorem iblk5_4 (c : Dev nD) (t : Fin cfg5.N) :
    (iblk5 (F := Ideal) V c 4 t : Vec Ideal S64x64 .f32) = V c main_v89 := by
  obtain ⟨e0, e1⟩ := idx5_4 t
  funext y
  show V c main_v89 (((cfg5.win 4).blk t).view.emb y) = V c main_v89 y
  refine congrArg (V c main_v89) (idx_whole y _ ?_ ?_)
  · show win5_4.index t (0 : Fin 2) * 64 + 1 * (y 0).val = _
    rw [e0]
  · show win5_4.index t (1 : Fin 2) * 64 + 1 * (y 1).val = _
    rw [e1]

/-- The index map of the second bias row: its one block at every point. -/
theorem idx5_5 : ∀ t : Fin cfg5.N,
    win5_5.index t (0 : Fin 2) = 0 ∧ win5_5.index t (1 : Fin 2) = 0 :=
  (by decide +kernel : ∀ t : Fin grid5.N, _)

/-- The block of the second bias row at every point is the whole of it. -/
theorem iblk5_5 (c : Dev nD) (t : Fin cfg5.N) :
    (iblk5 (F := Ideal) V c 5 t : Vec Ideal S1x64 .f32) = V c main_v93 := by
  obtain ⟨e0, e1⟩ := idx5_5 t
  funext y
  show V c main_v93 (((cfg5.win 5).blk t).view.emb y) = V c main_v93 y
  refine congrArg (V c main_v93) (idx_whole y _ ?_ ?_)
  · show win5_5.index t (0 : Fin 2) * 1 + 1 * (y 0).val = _
    rw [e0]
  · show win5_5.index t (1 : Fin 2) * 64 + 1 * (y 1).val = _
    rw [e1]

/-- The index map of the output: block `t` of the rows at point `t`. -/
theorem idx5_6 : ∀ t : Fin cfg5.N,
    win5_6.index t (0 : Fin 2) = t.val ∧ win5_6.index t (1 : Fin 2) = 0 :=
  (by decide +kernel : ∀ t : Fin grid5.N, _)

/-- A table read through the output's block at point `t` is slab `t` of the table. -/
theorem read_out5 (c : Dev nD) (t : Fin cfg5.N) (G : Gin.Tab) :
    ((cfg5.win 6).blk t).view.read (Elt Ideal) G = slab t.val (lt5 t) G := by
  obtain ⟨e0, e1⟩ := idx5_6 t
  funext y
  show G (((cfg5.win 6).blk t).view.emb y) = G (ix2 (slabRow t.val (lt5 t) (y 0)) (y 1))
  refine congrArg G (idx_slab t.val (lt5 t) y _ ?_ ?_)
  · show win5_6.index t (0 : Fin 2) * 10000 + 1 * (y 0).val = _
    rw [e0]
  · show win5_6.index t (1 : Fin 2) * 64 + 1 * (y 1).val = _
    rw [e1]

/-- What point `t` writes back is slab `t` of the perceptron of the table plus its aggregated neighbours, of the operands as the region finds
    them. -/
theorem flushed5 (c : Dev nD) (t : Fin cfg5.N) :
    (dat5 (F := Ideal) V c).flushed 6 t
      = ((cfg5.win 6).blk t).view.read (Elt Ideal)
          (Gin.mlp (fun i => HAdd.hAdd (α := EReal) (β := EReal) (γ := EReal) (V c main_v73 i) (V c main_v83 i)) (V c main_v85)
          (Dense.row0 (V c main_v92)) (V c main_v89) (Dense.row0 (V c main_v93)) : Gin.Tab) := by
  show (cfg5.win 6).cut (grid5.coords t) ((dat5 V c).after 6 t) = _
  rw [after5_6]
  unfold out5_6
  rw [View.canon_unit_zero offsets5]
  simp only [View.ld_unit_zero (S := S10000x64) offsets5, View.ld_unit_zero (S := S64x64) offsets5,
    View.ld_unit_zero (S := S1x64) offsets5]
  rw [iblk5_0 V c t, iblk5_1 V c t, iblk5_2 V c t, iblk5_3 V c t, iblk5_4 V c t, iblk5_5 V c t,
    k5_pay1_eq, k1_pay1_eq, read_out5 c t]
  rfl

/-- An index of the output is in point `t`'s block iff each coordinate is in the block's range on its axis. -/
theorem mem_blk5 (t : Fin cfg5.N) (i : S100000x64.Idx) :
    i ∈ ((cfg5.win 6).blk t).view.set ↔ ∀ a : Fin 2, win5_6.index t a * S10000x64.size a ≤ (i a).val
      ∧ (i a).val < win5_6.index t a * S10000x64.size a + S10000x64.size a := by
  show i ∈ ((View.whole main_v94).slice (win5_6.rect t)).set ↔ _
  rw [View.set_slice_whole, Rect.mem_set_unit]
  exact Iff.rfl

/-- Every row of the output is in the slab of the point its row number divided by 10000 names. -/
theorem cover5 (i : S100000x64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  have hN : cfg5.N = 10 := N_5
  obtain ⟨t, ht⟩ : ∃ t : Fin cfg5.N, t.val = (i 0).val / 10000 := ⟨⟨(i 0).val / 10000, by omega⟩, rfl⟩
  obtain ⟨e0, e1⟩ := idx5_6 t
  refine ⟨t, flush5_6 t, ?_⟩
  rw [mem_blk5]
  intro a
  match a with
  | ⟨0, _⟩ =>
    show win5_6.index t (0 : Fin 2) * 10000 ≤ (i 0).val
      ∧ (i 0).val < win5_6.index t (0 : Fin 2) * 10000 + 10000
    rw [e0, ht]; omega
  | ⟨1, _⟩ =>
    show win5_6.index t (1 : Fin 2) * 64 ≤ (i 1).val ∧ (i 1).val < win5_6.index t (1 : Fin 2) * 64 + 64
    rw [e1]; omega

/-- After the region the output holds the perceptron of the table plus its aggregated neighbours, of the operands as the region
    found them. -/
theorem final5 (c : Dev nD) :
    (dat5 (F := Ideal) V c).arrAt 6 cfg5.N
      = (Gin.mlp (fun i => HAdd.hAdd (α := EReal) (β := EReal) (γ := EReal) (V c main_v73 i) (V c main_v83 i)) (V c main_v85)
          (Dense.row0 (V c main_v92)) (V c main_v89) (Dense.row0 (V c main_v93)) : Gin.Tab) :=
  (dat5 (F := Ideal) V c).arrAt_eq_of_cover 6 _ (fun t _ => flushed5 V c t) cover5

end Cert.KernelIdeal.Regions

end
-- ==== Proof.KFinal6.lean ====
/-
  The last region: the table through the last two-layer perceptron.

  The kernel runs at ten points. At point `t` it reads slab `t` of the table and the whole of the two weight tables
  and the two bias rows, and writes slab `t` of its output. What it writes is the perceptron of the slab, which is
  slab `t` of the perceptron of the table; the ten slabs fill the output, so after the region the output is the
  perceptron of the table.
-/
import proofs.«117363_j52089363366042_1_alg».proof.Proof.Gen.KernelIdeal.Frame
import proofs.«117363_j52089363366042_1_alg».proof.Proof.KPay
import proofs.«117363_j52089363366042_1_alg».proof.Proof.KSlab
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert Cert.KernelIdeal Cert.KernelIdeal.Gen

variable (V : (c : Dev nD) → (b : Ref sig .tc) → Buf (Elt Ideal) ((c : Thread nD τ).loc b))

theorem offsets6 : (![0, 0] : Fin 2 → Nat) = fun _ => 0 := funext fun a => by fin_cases a <;> rfl

theorem lt6 (t : Fin cfg6.N) : t.val < 10 := by
  have h := t.isLt
  have hN : cfg6.N = 10 := N_6
  omega

/-- The index map of the table: block `t` of the rows at point `t`. -/
theorem idx6_0 : ∀ t : Fin cfg6.N,
    win6_0.index t (0 : Fin 2) = t.val ∧ win6_0.index t (1 : Fin 2) = 0 :=
  (by decide +kernel : ∀ t : Fin grid6.N, _)

/-- The block of the table at point `t` is slab `t` of it. -/
theorem iblk6_0 (c : Dev nD) (t : Fin cfg6.N) :
    (iblk6 (F := Ideal) V c 0 t : Vec Ideal S10000x64 .f32) = slab t.val (lt6 t) (V c main_v94) := by
  obtain ⟨e0, e1⟩ := idx6_0 t
  funext y
  show V c main_v94 (((cfg6.win 0).blk t).view.emb y)
    = V c main_v94 (ix2 (slabRow t.val (lt6 t) (y 0)) (y 1))
  refine congrArg (V c main_v94) (idx_slab t.val (lt6 t) y _ ?_ ?_)
  · show win6_0.index t (0 : Fin 2) * 10000 + 1 * (y 0).val = _
    rw [e0]
  · show win6_0.index t (1 : Fin 2) * 64 + 1 * (y 1).val = _
    rw [e1]

/-- The index map of the first weight table: its one block at every point. -/
theorem idx6_1 : ∀ t : Fin cfg6.N,
    win6_1.index t (0 : Fin 2) = 0 ∧ win6_1.index t (1 : Fin 2) = 0 :=
  (by decide +kernel : ∀ t : Fin grid6.N, _)

/-- The block of the first weight table at every point is the whole of it. -/
theorem iblk6_1 (c : Dev nD) (t : Fin cfg6.N) :
    (iblk6 (F := Ideal) V c 1 t : Vec Ideal S64x64 .f32) = V c main_arg10 := by
  obtain ⟨e0, e1⟩ := idx6_1 t
  funext y
  show V c main_arg10 (((cfg6.win 1).blk t).view.emb y) = V c main_arg10 y
  refine congrArg (V c main_arg10) (idx_whole y _ ?_ ?_)
  · show win6_1.index t (0 : Fin 2) * 64 + 1 * (y 0).val = _
    rw [e0]
  · show win6_1.index t (1 : Fin 2) * 64 + 1 * (y 1).val = _
    rw [e1]

/-- The index map of the first bias row: its one block at every point. -/
theorem idx6_2 : ∀ t : Fin cfg6.N,
    win6_2.index t (0 : Fin 2) = 0 ∧ win6_2.index t (1 : Fin 2) = 0 :=
  (by decide +kernel : ∀ t : Fin grid6.N, _)

/-- The block of the first bias row at every point is the whole of it. -/
theorem iblk6_2 (c : Dev nD) (t : Fin cfg6.N) :
    (iblk6 (F := Ideal) V c 2 t : Vec Ideal S1x64 .f32) = V c main_v95 := by
  obtain ⟨e0, e1⟩ := idx6_2 t
  funext y
  show V c main_v95 (((cfg6.win 2).blk t).view.emb y) = V c main_v95 y
  refine congrArg (V c main_v95) (idx_whole y _ ?_ ?_)
  · show win6_2.index t (0 : Fin 2) * 1 + 1 * (y 0).val = _
    rw [e0]
  · show win6_2.index t (1 : Fin 2) * 64 + 1 * (y 1).val = _
    rw [e1]

/-- The index map of the second weight table: its one block at every point. -/
theorem idx6_3 : ∀ t : Fin cfg6.N,
    win6_3.index t (0 : Fin 2) = 0 ∧ win6_3.index t (1 : Fin 2) = 0 :=
  (by decide +kernel : ∀ t : Fin grid6.N, _)

/-- The block of the second weight table at every point is the whole of it. -/
theorem iblk6_3 (c : Dev nD) (t : Fin cfg6.N) :
    (iblk6 (F := Ideal) V c 3 t : Vec Ideal S64x64 .f32) = V c main_arg12 := by
  obtain ⟨e0, e1⟩ := idx6_3 t
  funext y
  show V c main_arg12 (((cfg6.win 3).blk t).view.emb y) = V c main_arg12 y
  refine congrArg (V c main_arg12) (idx_whole y _ ?_ ?_)
  · show win6_3.index t (0 : Fin 2) * 64 + 1 * (y 0).val = _
    rw [e0]
  · show win6_3.index t (1 : Fin 2) * 64 + 1 * (y 1).val = _
    rw [e1]

/-- The index map of the second bias row: its one block at every point. -/
theorem idx6_4 : ∀ t : Fin cfg6.N,
    win6_4.index t (0 : Fin 2) = 0 ∧ win6_4.index t (1 : Fin 2) = 0 :=
  (by decide +kernel : ∀ t : Fin grid6.N, _)

/-- The block of the second bias row at every point is the whole of it. -/
theorem iblk6_4 (c : Dev nD) (t : Fin cfg6.N) :
    (iblk6 (F := Ideal) V c 4 t : Vec Ideal S1x64 .f32) = V c main_v96 := by
  obtain ⟨e0, e1⟩ := idx6_4 t
  funext y
  show V c main_v96 (((cfg6.win 4).blk t).view.emb y) = V c main_v96 y
  refine congrArg (V c main_v96) (idx_whole y _ ?_ ?_)
  · show win6_4.index t (0 : Fin 2) * 1 + 1 * (y 0).val = _
    rw [e0]
  · show win6_4.index t (1 : Fin 2) * 64 + 1 * (y 1).val = _
    rw [e1]

/-- The index map of the output: block `t` of the rows at point `t`. -/
theorem idx6_5 : ∀ t : Fin cfg6.N,
    win6_5.index t (0 : Fin 2) = t.val ∧ win6_5.index t (1 : Fin 2) = 0 :=
  (by decide +kernel : ∀ t : Fin grid6.N, _)

/-- A table read through the output's block at point `t` is slab `t` of the table. -/
theorem read_out6 (c : Dev nD) (t : Fin cfg6.N) (G : Gin.Tab) :
    ((cfg6.win 5).blk t).view.read (Elt Ideal) G = slab t.val (lt6 t) G := by
  obtain ⟨e0, e1⟩ := idx6_5 t
  funext y
  show G (((cfg6.win 5).blk t).view.emb y) = G (ix2 (slabRow t.val (lt6 t) (y 0)) (y 1))
  refine congrArg G (idx_slab t.val (lt6 t) y _ ?_ ?_)
  · show win6_5.index t (0 : Fin 2) * 10000 + 1 * (y 0).val = _
    rw [e0]
  · show win6_5.index t (1 : Fin 2) * 64 + 1 * (y 1).val = _
    rw [e1]

/-- What point `t` writes back is slab `t` of the perceptron of the table, of the operands as the region finds
    them. -/
theorem flushed6 (c : Dev nD) (t : Fin cfg6.N) :
    (dat6 (F := Ideal) V c).flushed 5 t
      = ((cfg6.win 5).blk t).view.read (Elt Ideal)
          (Gin.mlp (V c main_v94) (V c main_arg10) (Dense.row0 (V c main_v95)) (V c main_arg12)
          (Dense.row0 (V c main_v96)) : Gin.Tab) := by
  show (cfg6.win 5).cut (grid6.coords t) ((dat6 V c).after 5 t) = _
  rw [after6_5]
  unfold out6_5
  rw [View.canon_unit_zero offsets6]
  simp only [View.ld_unit_zero (S := S10000x64) offsets6, View.ld_unit_zero (S := S64x64) offsets6,
    View.ld_unit_zero (S := S1x64) offsets6]
  rw [iblk6_0 V c t, iblk6_1 V c t, iblk6_2 V c t, iblk6_3 V c t, iblk6_4 V c t,
    k6_pay1_eq, read_out6 c t]
  rfl

/-- An index of the output is in point `t`'s block iff each coordinate is in the block's range on its axis. -/
theorem mem_blk6 (t : Fin cfg6.N) (i : S100000x64.Idx) :
    i ∈ ((cfg6.win 5).blk t).view.set ↔ ∀ a : Fin 2, win6_5.index t a * S10000x64.size a ≤ (i a).val
      ∧ (i a).val < win6_5.index t a * S10000x64.size a + S10000x64.size a := by
  show i ∈ ((View.whole main_v97).slice (win6_5.rect t)).set ↔ _
  rw [View.set_slice_whole, Rect.mem_set_unit]
  exact Iff.rfl

/-- Every row of the output is in the slab of the point its row number divided by 10000 names. -/
theorem cover6 (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  have hN : cfg6.N = 10 := N_6
  obtain ⟨t, ht⟩ : ∃ t : Fin cfg6.N, t.val = (i 0).val / 10000 := ⟨⟨(i 0).val / 10000, by omega⟩, rfl⟩
  obtain ⟨e0, e1⟩ := idx6_5 t
  refine ⟨t, flush6_5 t, ?_⟩
  rw [mem_blk6]
  intro a
  match a with
  | ⟨0, _⟩ =>
    show win6_5.index t (0 : Fin 2) * 10000 ≤ (i 0).val
      ∧ (i 0).val < win6_5.index t (0 : Fin 2) * 10000 + 10000
    rw [e0, ht]; omega
  | ⟨1, _⟩ =>
    show win6_5.index t (1 : Fin 2) * 64 ≤ (i 1).val ∧ (i 1).val < win6_5.index t (1 : Fin 2) * 64 + 64
    rw [e1]; omega

/-- After the region the output holds the perceptron of the table, of the operands as the region
    found them. -/
theorem final6 (c : Dev nD) :
    (dat6 (F := Ideal) V c).arrAt 5 cfg6.N
      = (Gin.mlp (V c main_v94) (V c main_arg10) (Dense.row0 (V c main_v95)) (V c main_arg12)
          (Dense.row0 (V c main_v96)) : Gin.Tab) :=
  (dat6 (F := Ideal) V c).arrAt_eq_of_cover 5 _ (fun t _ => flushed6 V c t) cover6

end Cert.KernelIdeal.Regions

end
-- ==== Proof.Chains.lean ====
/-
  The stretches of host arithmetic that the network's two programs share, each stated once over literal
  shapes with its dimension records and side facts as parameters: a row of the edge list; the aggregation
  of a node table over the edges (every edge adds its source node's row into its destination node's row, a
  negative source index counted from the end); the mean and the variance of every feature column over the
  nodes (the variance by the centred squares, divided by the node count less a correction `z`, and kept only
  where that divisor is positive); and the slices of a stacked weight table or bias table that belong to one
  layer. Nothing is computed here: these are the operations' own compositions, named.
-/
import proofs.«117363_j52089363366042_1_alg».proof.Proof.Spec

noncomputable section

namespace Cert.Gin

open Idealize.ShloMosaic

abbrev SN : Shape := ⟨2, ![100000, 64]⟩
abbrev SE2 : Shape := ⟨2, ![2, 1600000]⟩
abbrev SE1 : Shape := ⟨2, ![1, 1600000]⟩
abbrev SE : Shape := ⟨1, ![1600000]⟩
abbrev SEc : Shape := ⟨2, ![1600000, 1]⟩
abbrev SEH : Shape := ⟨2, ![1600000, 64]⟩
abbrev S0 : Shape := ⟨0, ![]⟩
abbrev SF : Shape := ⟨1, ![64]⟩
abbrev SF1 : Shape := ⟨2, ![1, 64]⟩
abbrev SW : Shape := ⟨2, ![64, 64]⟩
abbrev SW1 : Shape := ⟨3, ![1, 64, 64]⟩
abbrev SW3 : Shape := ⟨3, ![3, 64, 64]⟩
abbrev SB3 : Shape := ⟨2, ![3, 64]⟩
abbrev SB2 : Shape := ⟨2, ![2, 64]⟩

/-- One row of the `[2, E]` edge list, as a vector of `E` node indices. -/
def edgeRow (off : Fin SE2.rank → Nat) (hs : SE2.Slices off SE1) (hc : SE1.ShapeCasts SE) (ei : IVec SE2 32) : IVec SE 32 :=
  shapeCast SE (extractStridedSlice SE1 off ei hs) hc

/-- The aggregation: the rows of `h` gathered at the (wrapped) source indices, scatter-added into a table of
    zeros at the destination indices. -/
def seg (gd : GatherDims SN SEc SEH) (sd : ScatterDims SN SEc SEH)
    (hz : S0.BroadcastsInDim SN (![] : Fin 0 → Fin SN.rank)) (hc : SE.BroadcastsInDim SEc (![0] : Fin 1 → Fin SEc.rank))
    (he : S0.BroadcastsInDim SE (![] : Fin 0 → Fin SE.rank)) (src dst : IVec SE 32) (h : Tab) : Tab :=
  Host.scatterAdd (F := Ideal) (φ := .f32) sd (broadcastInDim SN ![] hz (constant S0 .f32 0x00000000#32))
    (broadcastInDim SEc ![0] hc dst)
    (Host.gather gd h (broadcastInDim SEc ![0] hc
      (select (cmpi .slt src (broadcastInDim SE ![] he (constantI S0 32 0#32)))
        (addi src (broadcastInDim SE ![] he (constantI S0 32 100000#32))) src)))

/-- The sum of every column over the nodes. -/
def colSum (hr : SN.ReducesTo [0] SF) (h0 : 0 < S0.numel) (h : Tab) : Row :=
  Host.reduceAdd (F := Ideal) (φ := .f32) h (constant S0 .f32 0x00000000#32) hr h0

/-- The mean of every column: its sum divided by the node count. -/
def colMean (hr : SN.ReducesTo [0] SF) (h0 : 0 < S0.numel) (hb : S0.BroadcastsInDim SF (![] : Fin 0 → Fin SF.rank)) (h : Tab) : Row :=
  Host.divf (F := Ideal) (colSum hr h0 h) (broadcastInDim SF ![] hb (constant S0 .f32 0x47C35000#32))

/-- The table centred by its column means (the means taken as a `[1, 64]` row and broadcast down the nodes). -/
def centred (hr : SN.ReducesTo [0] SF) (h0 : 0 < S0.numel) (hb1 : SF.BroadcastsInDim SF1 (![1] : Fin 1 → Fin SF1.rank))
    (hb01 : S0.BroadcastsInDim SF1 (![] : Fin 0 → Fin SF1.rank)) (hbN : SF1.BroadcastsInDim SN (![0, 1] : Fin 2 → Fin SN.rank))
    (h : Tab) : Tab :=
  subf (F := Ideal) (φ := .f32) h (broadcastInDim SN ![0, 1] hbN
    (Host.divf (broadcastInDim SF1 ![1] hb1 (colSum hr h0 h)) (broadcastInDim SF1 ![] hb01 (constant S0 .f32 0x47C35000#32))))

/-- The divisor of the variance: the node count less the correction `z`. -/
def varDen (z : IVec S0 32) : FVec Ideal S0 .f32 :=
  subf (F := Ideal) (constant S0 .f32 0x47C35000#32) (sitofp .f32 z)

/-- The variance of every column: the sum of the centred squares over the divisor, where the divisor is
    positive (and the not-a-number word elsewhere). -/
def colVar (hr : SN.ReducesTo [0] SF) (h0 : 0 < S0.numel) (hb : S0.BroadcastsInDim SF (![] : Fin 0 → Fin SF.rank))
    (hb1 : SF.BroadcastsInDim SF1 (![1] : Fin 1 → Fin SF1.rank))
    (hb01 : S0.BroadcastsInDim SF1 (![] : Fin 0 → Fin SF1.rank)) (hbN : SF1.BroadcastsInDim SN (![0, 1] : Fin 2 → Fin SN.rank))
    (z : IVec S0 32) (h : Tab) : Row :=
  select (broadcastInDim SF ![] hb (cmpf (F := Ideal) .ogt (varDen z) (constant S0 .f32 0x00000000#32)))
    (Host.divf (F := Ideal)
      (colSum hr h0 (mulf (F := Ideal) (φ := .f32) (centred hr h0 hb1 hb01 hbN h) (centred hr h0 hb1 hb01 hbN h)))
      (broadcastInDim SF ![] hb (varDen z)))
    (broadcastInDim SF ![] hb (constant (F := Ideal) S0 .f32 0x7FC00000#32))

/-- Layer `off 0`'s weight table out of a stack of three. -/
def mat3 (off : Fin SW3.rank → Nat) (hs : SW3.Slices off SW1) (hc : SW1.ShapeCasts SW) (w : FVec Ideal SW3 .f32) : Mat :=
  shapeCast SW (extractStridedSlice SW1 off w hs) hc

/-- Layer `off 0`'s bias row out of a stack of three. -/
def row3 (off : Fin SB3.rank → Nat) (hs : SB3.Slices off SF1) (hc : SF1.ShapeCasts SF) (b : FVec Ideal SB3 .f32) : Row :=
  shapeCast SF (extractStridedSlice SF1 off b hs) hc

/-- Layer `off 0`'s normalisation row out of a stack of two. -/
def row2 (off : Fin SB2.rank → Nat) (hs : SB2.Slices off SF1) (hc : SF1.ShapeCasts SF) (b : FVec Ideal SB2 .f32) : Row :=
  shapeCast SF (extractStridedSlice SF1 off b hs) hc

end Cert.Gin

end
-- ==== Proof.KChains.lean ====
/-
  The kernel program's host stretches, read. Each stretch of host operations between two kernel launches is a
  fold over the buffer contents; here every buffer a later launch or stretch reads is read back, from ANY
  contents `V` the stretch starts at, as one of the shared compositions: the two rows of the edge list, the
  aggregation of the current node table, a layer's weight tables and bias rows (a bias kept as a `[1, 64]`
  row for the launch), the column mean and variance, and the final re-laying of the result.
-/
import proofs.«117363_j52089363366042_1_alg».proof.Proof.Gen.KernelIdeal.Frame
import proofs.«117363_j52089363366042_1_alg».proof.Proof.Chains

set_option maxRecDepth 16384
set_option maxHeartbeats 1000000

noncomputable section

namespace Cert.KernelIdeal.Hand

open Cert.KernelIdeal Cert.KernelIdeal.Gen Idealize.ShloMosaic Idealize.ShloMosaic.TcCoe Idealize.ShloMosaic.StableHlo
open Cert

/-- The source-node row and the destination-node row of the edge list. -/
def srcK (ei : IVec S2x1600000 32) : IVec S1600000 32 :=
  Gin.edgeRow ![0, 0] slices_S2x1600000_S1x1600000_0_0 shapeCasts_S1x1600000_S1600000 ei
def dstK (ei : IVec S2x1600000 32) : IVec S1600000 32 :=
  Gin.edgeRow ![1, 0] slices_S2x1600000_S1x1600000_1_0 shapeCasts_S1x1600000_S1600000 ei

/-- The aggregation over the edges. -/
def segK (src dst : IVec S1600000 32) (h : Gin.Tab) : Gin.Tab :=
  Gin.seg gather_S100000x64_S1600000x1_S1600000x64_1_0_n_n_0_1_164 scatter_S100000x64_S1600000x1_S1600000x64_1_0_0_1
    bcast_S_S100000x64 bcast_S1600000_S1600000x1_0 bcast_S_S1600000 src dst h

/-- The column mean and the column variance. -/
def meanK (h : Gin.Tab) : Gin.Row := Gin.colMean reducesTo_S100000x64_S64_d0 h_S_ bcast_S_S64 h
def varK (z : IVec S_ 32) (h : Gin.Tab) : Gin.Row :=
  Gin.colVar reducesTo_S100000x64_S64_d0 h_S_ bcast_S_S64 bcast_S64_S1x64_1 bcast_S_S1x64 bcast_S1x64_S100000x64_0_1 z h

/-- A layer's weight table, bias row and normalisation row. -/
def mat3K : Fin 3 → FVec Ideal S3x64x64 .f32 → Gin.Mat
  | 0 => Gin.mat3 ![0, 0, 0] slices_S3x64x64_S1x64x64_0_0_0 shapeCasts_S1x64x64_S64x64
  | 1 => Gin.mat3 ![1, 0, 0] slices_S3x64x64_S1x64x64_1_0_0 shapeCasts_S1x64x64_S64x64
  | 2 => Gin.mat3 ![2, 0, 0] slices_S3x64x64_S1x64x64_2_0_0 shapeCasts_S1x64x64_S64x64
def row3K : Fin 3 → FVec Ideal S3x64 .f32 → Gin.Row
  | 0 => Gin.row3 ![0, 0] slices_S3x64_S1x64_0_0 shapeCasts_S1x64_S64
  | 1 => Gin.row3 ![1, 0] slices_S3x64_S1x64_1_0 shapeCasts_S1x64_S64
  | 2 => Gin.row3 ![2, 0] slices_S3x64_S1x64_2_0 shapeCasts_S1x64_S64
def row2K : Fin 2 → FVec Ideal S2x64 .f32 → Gin.Row
  | 0 => Gin.row2 ![0, 0] slices_S2x64_S1x64_0_0 shapeCasts_S1x64_S64
  | 1 => Gin.row2 ![1, 0] slices_S2x64_S1x64_1_0 shapeCasts_S1x64_S64

/-- A row of 64 kept as a `[1, 64]` table. -/
def asRow1 (b : Gin.Row) : FVec Ideal S1x64 .f32 := shapeCast S1x64 b shapeCasts_S64_S1x64

theorem row0_asRow1 (b : Gin.Row) : Dense.row0 (asRow1 b) = b := Dense.row0_shapeCast b _

/-- A buffer no operation of the stretch writes is left as it was. -/
macro "host_keep" : tactic => `(tactic| (
  refine StableHlo.after_of_forall_not_mem _ _ (List.forall_iff_forall_mem.mp ?_)
  simp only [hostOps0, hostOps1, hostOps2, hostOps2_1, hostOps2_2, hostOps3, hostOps4, hostOps4_1, hostOps4_2, hostOps5, hostOps6, hostOps7,
    List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Before the first launch -/
theorem ops0_src (V : Valuation τ sig (Elt Ideal)) :
    after (hostOps0 (F := Ideal)) V (Proc.devRef .tc main_v1) = srcK (V (Proc.devRef .tc main_arg1)) := by
  after_results_simp
  try rfl

theorem ops0_dst (V : Valuation τ sig (Elt Ideal)) :
    after (hostOps0 (F := Ideal)) V (Proc.devRef .tc main_v3) = dstK (V (Proc.devRef .tc main_arg1)) := by
  after_results_simp
  try rfl

theorem ops0_bias (V : Valuation τ sig (Elt Ideal)) :
    after (hostOps0 (F := Ideal)) V (Proc.devRef .tc main_v4) = asRow1 (V (Proc.devRef .tc main_arg3)) := by
  after_results_simp
  try rfl

/-! ## Before message-passing layer 0 -/
theorem gin0_agg (V : Valuation τ sig (Elt Ideal)) :
    after (hostOps1 (F := Ideal)) V (Proc.devRef .tc main_v15) = segK (V (Proc.devRef .tc main_v1)) (V (Proc.devRef .tc main_v3)) (V (Proc.devRef .tc main_v5)) := by
  after_results_simp
  try rfl
theorem gin0_w1 (V : Valuation τ sig (Elt Ideal)) :
    after (hostOps1 (F := Ideal)) V (Proc.devRef .tc main_v17) = mat3K 0 (V (Proc.devRef .tc main_arg4)) := by
  after_results_simp
  try rfl
theorem gin0_b1 (V : Valuation τ sig (Elt Ideal)) :
    after (hostOps1 (F := Ideal)) V (Proc.devRef .tc main_v24) = asRow1 (row3K 0 (V (Proc.devRef .tc main_arg5))) := by
  after_results_simp
  try rfl
theorem gin0_w2 (V : Valuation τ sig (Elt Ideal)) :
    after (hostOps1 (F := Ideal)) V (Proc.devRef .tc main_v21) = mat3K 0 (V (Proc.devRef .tc main_arg6)) := by
  after_results_simp
  try rfl
theorem gin0_b2 (V : Valuation τ sig (Elt Ideal)) :
    after (hostOps1 (F := Ideal)) V (Proc.devRef .tc main_v25) = asRow1 (row3K 0 (V (Proc.devRef .tc main_arg7))) := by
  after_results_simp
  try rfl
theorem gin0_keep_h (V : Valuation τ sig (Elt Ideal)) :
    after (hostOps1 (F := Ideal)) V (Proc.devRef .tc main_v5) = V (Proc.devRef .tc main_v5) := by host_keep

/-! ## Before message-passing layer 1 -/
theorem gin1_agg (V : Valuation τ sig (Elt Ideal)) :
    after (hostOps3 (F := Ideal)) V (Proc.devRef .tc main_v49) = segK (V (Proc.devRef .tc main_v1)) (V (Proc.devRef .tc main_v3)) (V (Proc.devRef .tc main_v39)) := by
  after_results_simp
  try rfl
theorem gin1_w1 (V : Valuation τ sig (Elt Ideal)) :
    after (hostOps3 (F := Ideal)) V (Proc.devRef .tc main_v51) = mat3K 1 (V (Proc.devRef .tc main_arg4)) := by
  after_results_simp
  try rfl
theorem gin1_b1 (V : Valuation τ sig (Elt Ideal)) :
    after (hostOps3 (F := Ideal)) V (Proc.devRef .tc main_v58) = asRow1 (row3K 1 (V (Proc.devRef .tc main_arg5))) := by
  after_results_simp
  try rfl
theorem gin1_w2 (V : Valuation τ sig (Elt Ideal)) :
    after (hostOps3 (F := Ideal)) V (Proc.devRef .tc main_v55) = mat3K 1 (V (Proc.devRef .tc main_arg6)) := by
  after_results_simp
  try rfl
theorem gin1_b2 (V : Valuation τ sig (Elt Ideal)) :
    after (hostOps3 (F := Ideal)) V (Proc.devRef .tc main_v59) = asRow1 (row3K 1 (V (Proc.devRef .tc main_arg7))) := by
  after_results_simp
  try rfl
theorem gin1_keep_h (V : Valuation τ sig (Elt Ideal)) :
    after (hostOps3 (F := Ideal)) V (Proc.devRef .tc main_v39) = V (Proc.devRef .tc main_v39) := by host_keep

/-! ## Before message-passing layer 2 -/
theorem gin2_agg (V : Valuation τ sig (Elt Ideal)) :
    after (hostOps5 (F := Ideal)) V (Proc.devRef .tc main_v83) = segK (V (Proc.devRef .tc main_v1)) (V (Proc.devRef .tc main_v3)) (V (Proc.devRef .tc main_v73)) := by
  after_results_simp
  try rfl
theorem gin2_w1 (V : Valuation τ sig (Elt Ideal)) :
    after (hostOps5 (F := Ideal)) V (Proc.devRef .tc main_v85) = mat3K 2 (V (Proc.devRef .tc main_arg4)) := by
  after_results_simp
  try rfl
theorem gin2_b1 (V : Valuation τ sig (Elt Ideal)) :
    after (hostOps5 (F := Ideal)) V (Proc.devRef .tc main_v92) = asRow1 (row3K 2 (V (Proc.devRef .tc main_arg5))) := by
  after_results_simp
  try rfl
theorem gin2_w2 (V : Valuation τ sig (Elt Ideal)) :
    after (hostOps5 (F := Ideal)) V (Proc.devRef .tc main_v89) = mat3K 2 (V (Proc.devRef .tc main_arg6)) := by
  after_results_simp
  try rfl
theorem gin2_b2 (V : Valuation τ sig (Elt Ideal)) :
    after (hostOps5 (F := Ideal)) V (Proc.devRef .tc main_v93) = asRow1 (row3K 2 (V (Proc.devRef .tc main_arg7))) := by
  after_results_simp
  try rfl
theorem gin2_keep_h (V : Valuation τ sig (Elt Ideal)) :
    after (hostOps5 (F := Ideal)) V (Proc.devRef .tc main_v73) = V (Proc.devRef .tc main_v73) := by host_keep

/-! ## Before normalisation 0 -/
theorem bn0_mean (V : Valuation τ sig (Elt Ideal)) :
    after (hostOps2 (F := Ideal)) V (Proc.devRef .tc main_v29) = meanK (V (Proc.devRef .tc main_v26)) := by
  after_results_simp
  try rfl
theorem bn0_zero (V : Valuation τ sig (Elt Ideal)) :
    after (hostOps2 (F := Ideal)) V (Proc.devRef .tc main_c_3) = constantI S_ 32 0#32 := by
  after_results_simp
  try rfl
theorem bn0_keep1_h (V : Valuation τ sig (Elt Ideal)) :
    after (hostOps2 (F := Ideal)) V (Proc.devRef .tc main_v26) = V (Proc.devRef .tc main_v26) := by host_keep

theorem bn0_var (V : Valuation τ sig (Elt Ideal)) :
    after (hostOps2_1 (F := Ideal)) V (Proc.devRef .tc main_v30) = varK (V (Proc.devRef .tc main_c_3)) (V (Proc.devRef .tc main_v26)) := by
  after_results_simp
  try rfl
theorem bn0_keep2_h (V : Valuation τ sig (Elt Ideal)) :
    after (hostOps2_1 (F := Ideal)) V (Proc.devRef .tc main_v26) = V (Proc.devRef .tc main_v26) := by host_keep

theorem bn0_keep2_mean (V : Valuation τ sig (Elt Ideal)) :
    after (hostOps2_1 (F := Ideal)) V (Proc.devRef .tc main_v29) = V (Proc.devRef .tc main_v29) := by host_keep

theorem bn0_mur (V : Valuation τ sig (Elt Ideal)) :
    after (hostOps2_2 (F := Ideal)) V (Proc.devRef .tc main_v35) = asRow1 (V (Proc.devRef .tc main_v29)) := by
  after_results_simp
  try rfl
theorem bn0_varr (V : Valuation τ sig (Elt Ideal)) :
    after (hostOps2_2 (F := Ideal)) V (Proc.devRef .tc main_v36) = asRow1 (V (Proc.devRef .tc main_v30)) := by
  after_results_simp
  try rfl
theorem bn0_gr (V : Valuation τ sig (Elt Ideal)) :
    after (hostOps2_2 (F := Ideal)) V (Proc.devRef .tc main_v37) = asRow1 (row2K 0 (V (Proc.devRef .tc main_arg8))) := by
  after_results_simp
  try rfl
theorem bn0_br (V : Valuation τ sig (Elt Ideal)) :
    after (hostOps2_2 (F := Ideal)) V (Proc.devRef .tc main_v38) = asRow1 (row2K 0 (V (Proc.devRef .tc main_arg9))) := by
  after_results_simp
  try rfl
theorem bn0_keep3_h (V : Valuation τ sig (Elt Ideal)) :
    after (hostOps2_2 (F := Ideal)) V (Proc.devRef .tc main_v26) = V (Proc.devRef .tc main_v26) := by host_keep

/-! ## Before normalisation 1 -/
theorem bn1_mean (V : Valuation τ sig (Elt Ideal)) :
    after (hostOps4 (F := Ideal)) V (Proc.devRef .tc main_v63) = meanK (V (Proc.devRef .tc main_v60)) := by
  after_results_simp
  try rfl
theorem bn1_zero (V : Valuation τ sig (Elt Ideal)) :
    after (hostOps4 (F := Ideal)) V (Proc.devRef .tc main_c_9) = constantI S_ 32 0#32 := by
  after_results_simp
  try rfl
theorem bn1_keep1_h (V : Valuation τ sig (Elt Ideal)) :
    after (hostOps4 (F := Ideal)) V (Proc.devRef .tc main_v60) = V (Proc.devRef .tc main_v60) := by host_keep

theorem bn1_var (V : Valuation τ sig (Elt Ideal)) :
    after (hostOps4_1 (F := Ideal)) V (Proc.devRef .tc main_v64) = varK (V (Proc.devRef .tc main_c_9)) (V (Proc.devRef .tc main_v60)) := by
  after_results_simp
  try rfl
theorem bn1_keep2_h (V : Valuation τ sig (Elt Ideal)) :
    after (hostOps4_1 (F := Ideal)) V (Proc.devRef .tc main_v60) = V (Proc.devRef .tc main_v60) := by host_keep

theorem bn1_keep2_mean (V : Valuation τ sig (Elt Ideal)) :
    after (hostOps4_1 (F := Ideal)) V (Proc.devRef .tc main_v63) = V (Proc.devRef .tc main_v63) := by host_keep

theorem bn1_mur (V : Valuation τ sig (Elt Ideal)) :
    after (hostOps4_2 (F := Ideal)) V (Proc.devRef .tc main_v69) = asRow1 (V (Proc.devRef .tc main_v63)) := by
  after_results_simp
  try rfl
theorem bn1_varr (V : Valuation τ sig (Elt Ideal)) :
    after (hostOps4_2 (F := Ideal)) V (Proc.devRef .tc main_v70) = asRow1 (V (Proc.devRef .tc main_v64)) := by
  after_results_simp
  try rfl
theorem bn1_gr (V : Valuation τ sig (Elt Ideal)) :
    after (hostOps4_2 (F := Ideal)) V (Proc.devRef .tc main_v71) = asRow1 (row2K 1 (V (Proc.devRef .tc main_arg8))) := by
  after_results_simp
  try rfl
theorem bn1_br (V : Valuation τ sig (Elt Ideal)) :
    after (hostOps4_2 (F := Ideal)) V (Proc.devRef .tc main_v72) = asRow1 (row2K 1 (V (Proc.devRef .tc main_arg9))) := by
  after_results_simp
  try rfl
theorem bn1_keep3_h (V : Valuation τ sig (Elt Ideal)) :
    after (hostOps4_2 (F := Ideal)) V (Proc.devRef .tc main_v60) = V (Proc.devRef .tc main_v60) := by host_keep

/-! ## Around the last launch -/
theorem post_b1 (V : Valuation τ sig (Elt Ideal)) :
    after (hostOps6 (F := Ideal)) V (Proc.devRef .tc main_v95) = asRow1 (V (Proc.devRef .tc main_arg11)) := by
  after_results_simp
  try rfl
theorem post_b2 (V : Valuation τ sig (Elt Ideal)) :
    after (hostOps6 (F := Ideal)) V (Proc.devRef .tc main_v96) = asRow1 (V (Proc.devRef .tc main_arg13)) := by
  after_results_simp
  try rfl
theorem post_keep_h (V : Valuation τ sig (Elt Ideal)) :
    after (hostOps6 (F := Ideal)) V (Proc.devRef .tc main_v94) = V (Proc.devRef .tc main_v94) := by host_keep

theorem result_relaid (V : Valuation τ sig (Elt Ideal)) :
    after (hostOps7 (F := Ideal)) V (Proc.devRef .tc main_v98) = shapeCast S20x320000 (V (Proc.devRef .tc main_v97)) shapeCasts_S100000x64_S20x320000 := by
  after_results_simp
  try rfl

end Cert.KernelIdeal.Hand

end
-- ==== Proof.KKeep.lean ====
/-
  What the chain of segments leaves alone. The argument arrays and the two rows of the edge list are written by
  no host operation after the first stretch, and a kernel launch writes only its output array (an input
  window's array is written back as it was read). So at every boundary of the chain, up to the last launch, each
  of them holds what it held when the first launch was entered: the argument arrays their launch contents, the
  two index rows the edge list's rows.
-/
import proofs.«117363_j52089363366042_1_alg».proof.Proof.KChains

set_option maxRecDepth 16384
set_option maxHeartbeats 2000000

noncomputable section

namespace Cert.KernelIdeal.Hand

open Cert.KernelIdeal Cert.KernelIdeal.Gen Idealize.ShloMosaic Idealize.ShloMosaic.TcCoe Idealize.ShloMosaic.StableHlo
open Cert

variable (m : (ℓ : Loc nD τ sig) → Buf (Elt Ideal) ℓ) (ρ : Dev nD → PrngReg) (c : Dev nD)

/-- The argument arrays. -/
def argRefs : List (Ref sig .tc) := [main_arg0, main_arg1, main_arg2, main_arg3, main_arg4, main_arg5, main_arg6, main_arg7, main_arg8, main_arg9, main_arg10, main_arg11, main_arg12, main_arg13]
/-- The buffers carried unchanged along the chain: the arguments and the two index rows. -/
def persist : List (Ref sig .tc) := [main_arg0, main_arg1, main_arg2, main_arg3, main_arg4, main_arg5, main_arg6, main_arg7, main_arg8, main_arg9, main_arg10, main_arg11, main_arg12, main_arg13, main_v1, main_v3]

/-! ## One step of the chain -/
theorem keep1 (b : Ref sig .tc) (hb : b ∈ persist) :
    W2 m ρ c (Proc.devRef .tc b) = W1 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))

theorem keep2 (b : Ref sig .tc) (hb : b ∈ persist) :
    W3 m ρ c (Proc.devRef .tc b) = W2 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals host_keep

theorem keep3 (b : Ref sig .tc) (hb : b ∈ persist) :
    W4 m ρ c (Proc.devRef .tc b) = W3 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals first
    | exact W4_of_ne m ρ c _ (by decide)

theorem keep4 (b : Ref sig .tc) (hb : b ∈ persist) :
    W5 m ρ c (Proc.devRef .tc b) = W4 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals host_keep

theorem keep5 (b : Ref sig .tc) (hb : b ∈ persist) :
    W6 m ρ c (Proc.devRef .tc b) = W5 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals host_keep

theorem keep6 (b : Ref sig .tc) (hb : b ∈ persist) :
    W7 m ρ c (Proc.devRef .tc b) = W6 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals host_keep

theorem keep7 (b : Ref sig .tc) (hb : b ∈ persist) :
    W8 m ρ c (Proc.devRef .tc b) = W7 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals first
    | exact W8_of_ne m ρ c _ (by decide)

theorem keep8 (b : Ref sig .tc) (hb : b ∈ persist) :
    W9 m ρ c (Proc.devRef .tc b) = W8 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals host_keep

theorem keep9 (b : Ref sig .tc) (hb : b ∈ persist) :
    W10 m ρ c (Proc.devRef .tc b) = W9 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals first
    | exact W10_of_ne m ρ c _ (by decide)

theorem keep10 (b : Ref sig .tc) (hb : b ∈ persist) :
    W11 m ρ c (Proc.devRef .tc b) = W10 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals host_keep

theorem keep11 (b : Ref sig .tc) (hb : b ∈ persist) :
    W12 m ρ c (Proc.devRef .tc b) = W11 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals host_keep

theorem keep12 (b : Ref sig .tc) (hb : b ∈ persist) :
    W13 m ρ c (Proc.devRef .tc b) = W12 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals host_keep

theorem keep13 (b : Ref sig .tc) (hb : b ∈ persist) :
    W14 m ρ c (Proc.devRef .tc b) = W13 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals first
    | exact W14_of_ne m ρ c _ (by decide)

theorem keep14 (b : Ref sig .tc) (hb : b ∈ persist) :
    W15 m ρ c (Proc.devRef .tc b) = W14 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals host_keep

theorem keep15 (b : Ref sig .tc) (hb : b ∈ persist) :
    W16 m ρ c (Proc.devRef .tc b) = W15 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals first
    | exact W16_of_ne m ρ c _ (by decide)

theorem keep16 (b : Ref sig .tc) (hb : b ∈ persist) :
    W17 m ρ c (Proc.devRef .tc b) = W16 m ρ c (Proc.devRef .tc b) := by
  simp only [persist, List.mem_cons, List.not_mem_nil, or_false] at hb
  rcases hb with rfl|rfl|rfl|rfl|rfl|rfl|rfl|rfl|rfl|rfl|rfl|rfl|rfl|rfl|rfl|rfl
  all_goals host_keep

/-! ## From the first launch's entry to each boundary -/
theorem at2 (b : Ref sig .tc) (hb : b ∈ persist) : W2 m ρ c (Proc.devRef .tc b) = W1 m ρ c (Proc.devRef .tc b) := keep1 m ρ c b hb
theorem at3 (b : Ref sig .tc) (hb : b ∈ persist) : W3 m ρ c (Proc.devRef .tc b) = W1 m ρ c (Proc.devRef .tc b) :=
  (keep2 m ρ c b hb).trans (at2 m ρ c b hb)
theorem at4 (b : Ref sig .tc) (hb : b ∈ persist) : W4 m ρ c (Proc.devRef .tc b) = W1 m ρ c (Proc.devRef .tc b) :=
  (keep3 m ρ c b hb).trans (at3 m ρ c b hb)
theorem at5 (b : Ref sig .tc) (hb : b ∈ persist) : W5 m ρ c (Proc.devRef .tc b) = W1 m ρ c (Proc.devRef .tc b) :=
  (keep4 m ρ c b hb).trans (at4 m ρ c b hb)
theorem at6 (b : Ref sig .tc) (hb : b ∈ persist) : W6 m ρ c (Proc.devRef .tc b) = W1 m ρ c (Proc.devRef .tc b) :=
  (keep5 m ρ c b hb).trans (at5 m ρ c b hb)
theorem at7 (b : Ref sig .tc) (hb : b ∈ persist) : W7 m ρ c (Proc.devRef .tc b) = W1 m ρ c (Proc.devRef .tc b) :=
  (keep6 m ρ c b hb).trans (at6 m ρ c b hb)
theorem at8 (b : Ref sig .tc) (hb : b ∈ persist) : W8 m ρ c (Proc.devRef .tc b) = W1 m ρ c (Proc.devRef .tc b) :=
  (keep7 m ρ c b hb).trans (at7 m ρ c b hb)
theorem at9 (b : Ref sig .tc) (hb : b ∈ persist) : W9 m ρ c (Proc.devRef .tc b) = W1 m ρ c (Proc.devRef .tc b) :=
  (keep8 m ρ c b hb).trans (at8 m ρ c b hb)
theorem at10 (b : Ref sig .tc) (hb : b ∈ persist) : W10 m ρ c (Proc.devRef .tc b) = W1 m ρ c (Proc.devRef .tc b) :=
  (keep9 m ρ c b hb).trans (at9 m ρ c b hb)
theorem at11 (b : Ref sig .tc) (hb : b ∈ persist) : W11 m ρ c (Proc.devRef .tc b) = W1 m ρ c (Proc.devRef .tc b) :=
  (keep10 m ρ c b hb).trans (at10 m ρ c b hb)
theorem at12 (b : Ref sig .tc) (hb : b ∈ persist) : W12 m ρ c (Proc.devRef .tc b) = W1 m ρ c (Proc.devRef .tc b) :=
  (keep11 m ρ c b hb).trans (at11 m ρ c b hb)
theorem at13 (b : Ref sig .tc) (hb : b ∈ persist) : W13 m ρ c (Proc.devRef .tc b) = W1 m ρ c (Proc.devRef .tc b) :=
  (keep12 m ρ c b hb).trans (at12 m ρ c b hb)
theorem at14 (b : Ref sig .tc) (hb : b ∈ persist) : W14 m ρ c (Proc.devRef .tc b) = W1 m ρ c (Proc.devRef .tc b) :=
  (keep13 m ρ c b hb).trans (at13 m ρ c b hb)
theorem at15 (b : Ref sig .tc) (hb : b ∈ persist) : W15 m ρ c (Proc.devRef .tc b) = W1 m ρ c (Proc.devRef .tc b) :=
  (keep14 m ρ c b hb).trans (at14 m ρ c b hb)
theorem at16 (b : Ref sig .tc) (hb : b ∈ persist) : W16 m ρ c (Proc.devRef .tc b) = W1 m ρ c (Proc.devRef .tc b) :=
  (keep15 m ρ c b hb).trans (at15 m ρ c b hb)
theorem at17 (b : Ref sig .tc) (hb : b ∈ persist) : W17 m ρ c (Proc.devRef .tc b) = W1 m ρ c (Proc.devRef .tc b) :=
  (keep16 m ρ c b hb).trans (at16 m ρ c b hb)

/-! ## At the first launch's entry -/

/-- An argument array holds its launch contents. -/
theorem w1_arg (b : Ref sig .tc) (hb : b ∈ argRefs) : W1 m ρ c (Proc.devRef .tc b) = m ((c : Thread nD τ).loc b) := by
  simp only [argRefs, List.mem_cons, List.not_mem_nil, or_false] at hb
  rcases hb with rfl|rfl|rfl|rfl|rfl|rfl|rfl|rfl|rfl|rfl|rfl|rfl|rfl|rfl
  all_goals (refine Eq.trans (b := W0 m ρ c _) ?_ rfl; host_keep)

/-- The two index rows are the edge list's rows. -/
theorem w1_src : W1 m ρ c (Proc.devRef .tc main_v1) = srcK (m ((c : Thread nD τ).loc main_arg1)) := ops0_src (W0 m ρ c)
theorem w1_dst : W1 m ρ c (Proc.devRef .tc main_v3) = dstK (m ((c : Thread nD τ).loc main_arg1)) := ops0_dst (W0 m ρ c)
/-- The first layer's bias, kept as a row. -/
theorem w1_bias : W1 m ρ c (Proc.devRef .tc main_v4) = asRow1 (m ((c : Thread nD τ).loc main_arg3)) := ops0_bias (W0 m ρ c)

end Cert.KernelIdeal.Hand

end
-- ==== Proof.KTrace.lean ====
/-
  The kernel program's result, traced through the chain of segments. Each launch's output array is, by
  `RegionValues`, a row-wise function of the arrays it is entered at; each of those was left there by the host
  stretch before it (an aggregation of the previous table, a layer's weights and bias rows, the column mean
  and variance) or by an earlier launch, or is an argument. Followed from the first stretch to the last, the
  result buffer ends holding the network's table, re-laid as 20 rows of 320000.
-/
import proofs.«117363_j52089363366042_1_alg».proof.Proof.KKeep

set_option maxRecDepth 16384
set_option maxHeartbeats 2000000

noncomputable section

namespace Cert.KernelIdeal.Hand

open Cert.KernelIdeal Cert.KernelIdeal.Gen Idealize.ShloMosaic Idealize.ShloMosaic.TcCoe Idealize.ShloMosaic.StableHlo
open Cert

variable (m : (ℓ : Loc nD τ sig) → Buf (Elt Ideal) ℓ) (ρ : Dev nD → PrngReg) (c : Dev nD)

/-- What each launch leaves in its output array, as a function of the contents `V` it is entered at: the first
    dense layer; a message-passing layer's perceptron of the table plus its aggregation; a column
    normalisation by the given mean and variance rows; the last perceptron. -/
structure RegionValues : Prop where
  pre : ∀ (V : (c : Dev nD) → (b : Ref sig .tc) → Buf (Elt Ideal) ((c : Thread nD τ).loc b)) (c : Dev nD), (dat0 (F := Ideal) V c).arrAt 3 cfg0.N
      = Dense.affine (V c main_arg0) (V c main_arg2) (Dense.row0 (V c main_v4))
  gin0 : ∀ (V : (c : Dev nD) → (b : Ref sig .tc) → Buf (Elt Ideal) ((c : Thread nD τ).loc b)) (c : Dev nD), (dat1 (F := Ideal) V c).arrAt 6 cfg1.N
      = Gin.mlp (fun i => HAdd.hAdd (α := EReal) (β := EReal) (γ := EReal) (V c main_v5 i) (V c main_v15 i)) (V c main_v17) (Dense.row0 (V c main_v24)) (V c main_v21) (Dense.row0 (V c main_v25))
  bn0 : ∀ (V : (c : Dev nD) → (b : Ref sig .tc) → Buf (Elt Ideal) ((c : Thread nD τ).loc b)) (c : Dev nD), (dat2 (F := Ideal) V c).arrAt 5 cfg2.N
      = Gin.normWith (V c main_v26) (Dense.row0 (V c main_v35)) (Dense.row0 (V c main_v36)) (Dense.row0 (V c main_v37)) (Dense.row0 (V c main_v38))
  gin1 : ∀ (V : (c : Dev nD) → (b : Ref sig .tc) → Buf (Elt Ideal) ((c : Thread nD τ).loc b)) (c : Dev nD), (dat3 (F := Ideal) V c).arrAt 6 cfg3.N
      = Gin.mlp (fun i => HAdd.hAdd (α := EReal) (β := EReal) (γ := EReal) (V c main_v39 i) (V c main_v49 i)) (V c main_v51) (Dense.row0 (V c main_v58)) (V c main_v55) (Dense.row0 (V c main_v59))
  bn1 : ∀ (V : (c : Dev nD) → (b : Ref sig .tc) → Buf (Elt Ideal) ((c : Thread nD τ).loc b)) (c : Dev nD), (dat4 (F := Ideal) V c).arrAt 5 cfg4.N
      = Gin.normWith (V c main_v60) (Dense.row0 (V c main_v69)) (Dense.row0 (V c main_v70)) (Dense.row0 (V c main_v71)) (Dense.row0 (V c main_v72))
  gin2 : ∀ (V : (c : Dev nD) → (b : Ref sig .tc) → Buf (Elt Ideal) ((c : Thread nD τ).loc b)) (c : Dev nD), (dat5 (F := Ideal) V c).arrAt 6 cfg5.N
      = Gin.mlp (fun i => HAdd.hAdd (α := EReal) (β := EReal) (γ := EReal) (V c main_v73 i) (V c main_v83 i)) (V c main_v85) (Dense.row0 (V c main_v92)) (V c main_v89) (Dense.row0 (V c main_v93))
  post : ∀ (V : (c : Dev nD) → (b : Ref sig .tc) → Buf (Elt Ideal) ((c : Thread nD τ).loc b)) (c : Dev nD), (dat6 (F := Ideal) V c).arrAt 5 cfg6.N
      = Gin.mlp (V c main_v94) (V c main_arg10) (Dense.row0 (V c main_v95)) (V c main_arg12) (Dense.row0 (V c main_v96))

/-! ## The tables, stage by stage -/

/-- The aggregation over this launch's edge list. -/
def sgK : Gin.Tab → Gin.Tab := segK (srcK (m ((c : Thread nD τ).loc main_arg1))) (dstK (m ((c : Thread nD τ).loc main_arg1)))
/-- The first dense layer's table. -/
def T0 : Gin.Tab := Dense.affine (m ((c : Thread nD τ).loc main_arg0)) (m ((c : Thread nD τ).loc main_arg2)) (m ((c : Thread nD τ).loc main_arg3))
/-- Message-passing layer `l` of a table. -/
def ginK (l : Fin 3) (h : Gin.Tab) : Gin.Tab :=
  Gin.gin (sgK m c) h (mat3K l (m ((c : Thread nD τ).loc main_arg4))) (row3K l (m ((c : Thread nD τ).loc main_arg5))) (mat3K l (m ((c : Thread nD τ).loc main_arg6))) (row3K l (m ((c : Thread nD τ).loc main_arg7)))
/-- Normalisation `l` of a table. -/
def bnK (l : Fin 2) (g : Gin.Tab) : Gin.Tab :=
  Gin.norm meanK (varK (constantI S_ 32 0#32)) g (row2K l (m ((c : Thread nD τ).loc main_arg8))) (row2K l (m ((c : Thread nD τ).loc main_arg9)))
def T1 : Gin.Tab := ginK m c 0 (T0 m c)
def T2 : Gin.Tab := bnK m c 0 (T1 m c)
def T3 : Gin.Tab := ginK m c 1 (T2 m c)
def T4 : Gin.Tab := bnK m c 1 (T3 m c)
def T5 : Gin.Tab := ginK m c 2 (T4 m c)
/-- The last perceptron's table: the network's output. -/
def TOut : Gin.Tab := Gin.mlp (T5 m c) (m ((c : Thread nD τ).loc main_arg10)) (m ((c : Thread nD τ).loc main_arg11)) (m ((c : Thread nD τ).loc main_arg12)) (m ((c : Thread nD τ).loc main_arg13))

variable (hv : RegionValues)
include hv

/-! ## The first launch -/

theorem at_pre : W2 m ρ c (Proc.devRef .tc main_v5) = T0 m c := by
  have e0 : V1 m ρ c main_arg0 = (m ((c : Thread nD τ).loc main_arg0)) := (w1_arg m ρ c main_arg0 (by decide))
  have e2 : V1 m ρ c main_arg2 = (m ((c : Thread nD τ).loc main_arg2)) := (w1_arg m ρ c main_arg2 (by decide))
  have e4 : V1 m ρ c main_v4 = asRow1 (m ((c : Thread nD τ).loc main_arg3)) := w1_bias m ρ c
  refine (W2_arr m ρ c 3).trans ((hv.pre (V1 m ρ) c).trans ?_)
  rw [e0, e2, e4, row0_asRow1]
  rfl

/-! ## Message-passing layer 0 -/

theorem at_gin0 : W4 m ρ c (Proc.devRef .tc main_v26) = T1 m c := by
  have hin : W2 m ρ c (Proc.devRef .tc main_v5) = T0 m c := at_pre m ρ c hv
  have e_h : V3 m ρ c main_v5 = T0 m c := (gin0_keep_h (W2 m ρ c)).trans hin
  have e_agg : V3 m ρ c main_v15 = sgK m c (T0 m c) := by
    refine (gin0_agg (W2 m ρ c)).trans ?_
    rw [((at2 m ρ c main_v1 (by decide)).trans (w1_src m ρ c)), ((at2 m ρ c main_v3 (by decide)).trans (w1_dst m ρ c)), hin]
    rfl
  have e_w1 : V3 m ρ c main_v17 = mat3K 0 (m ((c : Thread nD τ).loc main_arg4)) := by
    refine (gin0_w1 (W2 m ρ c)).trans ?_
    rw [((at2 m ρ c main_arg4 (by decide)).trans (w1_arg m ρ c main_arg4 (by decide)))]
  have e_b1 : V3 m ρ c main_v24 = asRow1 (row3K 0 (m ((c : Thread nD τ).loc main_arg5))) := by
    refine (gin0_b1 (W2 m ρ c)).trans ?_
    rw [((at2 m ρ c main_arg5 (by decide)).trans (w1_arg m ρ c main_arg5 (by decide)))]
  have e_w2 : V3 m ρ c main_v21 = mat3K 0 (m ((c : Thread nD τ).loc main_arg6)) := by
    refine (gin0_w2 (W2 m ρ c)).trans ?_
    rw [((at2 m ρ c main_arg6 (by decide)).trans (w1_arg m ρ c main_arg6 (by decide)))]
  have e_b2 : V3 m ρ c main_v25 = asRow1 (row3K 0 (m ((c : Thread nD τ).loc main_arg7))) := by
    refine (gin0_b2 (W2 m ρ c)).trans ?_
    rw [((at2 m ρ c main_arg7 (by decide)).trans (w1_arg m ρ c main_arg7 (by decide)))]
  refine (W4_arr m ρ c 6).trans ((hv.gin0 (V3 m ρ) c).trans ?_)
  rw [e_h, e_agg, e_w1, e_b1, e_w2, e_b2, row0_asRow1, row0_asRow1]
  rfl

/-! ## Normalisation 0 -/

theorem at_bn0 : W8 m ρ c (Proc.devRef .tc main_v39) = T2 m c := by
  have hin : W4 m ρ c (Proc.devRef .tc main_v26) = T1 m c := at_gin0 m ρ c hv
  have h1 : W5 m ρ c (Proc.devRef .tc main_v26) = T1 m c := (bn0_keep1_h (W4 m ρ c)).trans hin
  have h2 : W6 m ρ c (Proc.devRef .tc main_v26) = T1 m c := (bn0_keep2_h (W5 m ρ c)).trans h1
  have e_h : V7 m ρ c main_v26 = T1 m c := (bn0_keep3_h (W6 m ρ c)).trans h2
  have mu1 : W5 m ρ c (Proc.devRef .tc main_v29) = meanK (T1 m c) := by
    refine (bn0_mean (W4 m ρ c)).trans ?_
    rw [hin]
  have mu2 : W6 m ρ c (Proc.devRef .tc main_v29) = meanK (T1 m c) := (bn0_keep2_mean (W5 m ρ c)).trans mu1
  have z1 : W5 m ρ c (Proc.devRef .tc main_c_3) = constantI S_ 32 0#32 := bn0_zero (W4 m ρ c)
  have va2 : W6 m ρ c (Proc.devRef .tc main_v30) = varK (constantI S_ 32 0#32) (T1 m c) := by
    refine (bn0_var (W5 m ρ c)).trans ?_
    rw [z1, h1]
  have e_mu : V7 m ρ c main_v35 = asRow1 (meanK (T1 m c)) := by
    refine (bn0_mur (W6 m ρ c)).trans ?_
    rw [mu2]
  have e_va : V7 m ρ c main_v36 = asRow1 (varK (constantI S_ 32 0#32) (T1 m c)) := by
    refine (bn0_varr (W6 m ρ c)).trans ?_
    rw [va2]
  have e_g : V7 m ρ c main_v37 = asRow1 (row2K 0 (m ((c : Thread nD τ).loc main_arg8))) := by
    refine (bn0_gr (W6 m ρ c)).trans ?_
    rw [((at6 m ρ c main_arg8 (by decide)).trans (w1_arg m ρ c main_arg8 (by decide)))]
  have e_b : V7 m ρ c main_v38 = asRow1 (row2K 0 (m ((c : Thread nD τ).loc main_arg9))) := by
    refine (bn0_br (W6 m ρ c)).trans ?_
    rw [((at6 m ρ c main_arg9 (by decide)).trans (w1_arg m ρ c main_arg9 (by decide)))]
  refine (W8_arr m ρ c 5).trans ((hv.bn0 (V7 m ρ) c).trans ?_)
  rw [e_h, e_mu, e_va, e_g, e_b, row0_asRow1, row0_asRow1, row0_asRow1, row0_asRow1]
  rfl

/-! ## Message-passing layer 1 -/

theorem at_gin1 : W10 m ρ c (Proc.devRef .tc main_v60) = T3 m c := by
  have hin : W8 m ρ c (Proc.devRef .tc main_v39) = T2 m c := at_bn0 m ρ c hv
  have e_h : V9 m ρ c main_v39 = T2 m c := (gin1_keep_h (W8 m ρ c)).trans hin
  have e_agg : V9 m ρ c main_v49 = sgK m c (T2 m c) := by
    refine (gin1_agg (W8 m ρ c)).trans ?_
    rw [((at8 m ρ c main_v1 (by decide)).trans (w1_src m ρ c)), ((at8 m ρ c main_v3 (by decide)).trans (w1_dst m ρ c)), hin]
    rfl
  have e_w1 : V9 m ρ c main_v51 = mat3K 1 (m ((c : Thread nD τ).loc main_arg4)) := by
    refine (gin1_w1 (W8 m ρ c)).trans ?_
    rw [((at8 m ρ c main_arg4 (by decide)).trans (w1_arg m ρ c main_arg4 (by decide)))]
  have e_b1 : V9 m ρ c main_v58 = asRow1 (row3K 1 (m ((c : Thread nD τ).loc main_arg5))) := by
    refine (gin1_b1 (W8 m ρ c)).trans ?_
    rw [((at8 m ρ c main_arg5 (by decide)).trans (w1_arg m ρ c main_arg5 (by decide)))]
  have e_w2 : V9 m ρ c main_v55 = mat3K 1 (m ((c : Thread nD τ).loc main_arg6)) := by
    refine (gin1_w2 (W8 m ρ c)).trans ?_
    rw [((at8 m ρ c main_arg6 (by decide)).trans (w1_arg m ρ c main_arg6 (by decide)))]
  have e_b2 : V9 m ρ c main_v59 = asRow1 (row3K 1 (m ((c : Thread nD τ).loc main_arg7))) := by
    refine (gin1_b2 (W8 m ρ c)).trans ?_
    rw [((at8 m ρ c main_arg7 (by decide)).trans (w1_arg m ρ c main_arg7 (by decide)))]
  refine (W10_arr m ρ c 6).trans ((hv.gin1 (V9 m ρ) c).trans ?_)
  rw [e_h, e_agg, e_w1, e_b1, e_w2, e_b2, row0_asRow1, row0_asRow1]
  rfl

/-! ## Normalisation 1 -/

theorem at_bn1 : W14 m ρ c (Proc.devRef .tc main_v73) = T4 m c := by
  have hin : W10 m ρ c (Proc.devRef .tc main_v60) = T3 m c := at_gin1 m ρ c hv
  have h1 : W11 m ρ c (Proc.devRef .tc main_v60) = T3 m c := (bn1_keep1_h (W10 m ρ c)).trans hin
  have h2 : W12 m ρ c (Proc.devRef .tc main_v60) = T3 m c := (bn1_keep2_h (W11 m ρ c)).trans h1
  have e_h : V13 m ρ c main_v60 = T3 m c := (bn1_keep3_h (W12 m ρ c)).trans h2
  have mu1 : W11 m ρ c (Proc.devRef .tc main_v63) = meanK (T3 m c) := by
    refine (bn1_mean (W10 m ρ c)).trans ?_
    rw [hin]
  have mu2 : W12 m ρ c (Proc.devRef .tc main_v63) = meanK (T3 m c) := (bn1_keep2_mean (W11 m ρ c)).trans mu1
  have z1 : W11 m ρ c (Proc.devRef .tc main_c_9) = constantI S_ 32 0#32 := bn1_zero (W10 m ρ c)
  have va2 : W12 m ρ c (Proc.devRef .tc main_v64) = varK (constantI S_ 32 0#32) (T3 m c) := by
    refine (bn1_var (W11 m ρ c)).trans ?_
    rw [z1, h1]
  have e_mu : V13 m ρ c main_v69 = asRow1 (meanK (T3 m c)) := by
    refine (bn1_mur (W12 m ρ c)).trans ?_
    rw [mu2]
  have e_va : V13 m ρ c main_v70 = asRow1 (varK (constantI S_ 32 0#32) (T3 m c)) := by
    refine (bn1_varr (W12 m ρ c)).trans ?_
    rw [va2]
  have e_g : V13 m ρ c main_v71 = asRow1 (row2K 1 (m ((c : Thread nD τ).loc main_arg8))) := by
    refine (bn1_gr (W12 m ρ c)).trans ?_
    rw [((at12 m ρ c main_arg8 (by decide)).trans (w1_arg m ρ c main_arg8 (by decide)))]
  have e_b : V13 m ρ c main_v72 = asRow1 (row2K 1 (m ((c : Thread nD τ).loc main_arg9))) := by
    refine (bn1_br (W12 m ρ c)).trans ?_
    rw [((at12 m ρ c main_arg9 (by decide)).trans (w1_arg m ρ c main_arg9 (by decide)))]
  refine (W14_arr m ρ c 5).trans ((hv.bn1 (V13 m ρ) c).trans ?_)
  rw [e_h, e_mu, e_va, e_g, e_b, row0_asRow1, row0_asRow1, row0_asRow1, row0_asRow1]
  rfl

/-! ## Message-passing layer 2 -/

theorem at_gin2 : W16 m ρ c (Proc.devRef .tc main_v94) = T5 m c := by
  have hin : W14 m ρ c (Proc.devRef .tc main_v73) = T4 m c := at_bn1 m ρ c hv
  have e_h : V15 m ρ c main_v73 = T4 m c := (gin2_keep_h (W14 m ρ c)).trans hin
  have e_agg : V15 m ρ c main_v83 = sgK m c (T4 m c) := by
    refine (gin2_agg (W14 m ρ c)).trans ?_
    rw [((at14 m ρ c main_v1 (by decide)).trans (w1_src m ρ c)), ((at14 m ρ c main_v3 (by decide)).trans (w1_dst m ρ c)), hin]
    rfl
  have e_w1 : V15 m ρ c main_v85 = mat3K 2 (m ((c : Thread nD τ).loc main_arg4)) := by
    refine (gin2_w1 (W14 m ρ c)).trans ?_
    rw [((at14 m ρ c main_arg4 (by decide)).trans (w1_arg m ρ c main_arg4 (by decide)))]
  have e_b1 : V15 m ρ c main_v92 = asRow1 (row3K 2 (m ((c : Thread nD τ).loc main_arg5))) := by
    refine (gin2_b1 (W14 m ρ c)).trans ?_
    rw [((at14 m ρ c main_arg5 (by decide)).trans (w1_arg m ρ c main_arg5 (by decide)))]
  have e_w2 : V15 m ρ c main_v89 = mat3K 2 (m ((c : Thread nD τ).loc main_arg6)) := by
    refine (gin2_w2 (W14 m ρ c)).trans ?_
    rw [((at14 m ρ c main_arg6 (by decide)).trans (w1_arg m ρ c main_arg6 (by decide)))]
  have e_b2 : V15 m ρ c main_v93 = asRow1 (row3K 2 (m ((c : Thread nD τ).loc main_arg7))) := by
    refine (gin2_b2 (W14 m ρ c)).trans ?_
    rw [((at14 m ρ c main_arg7 (by decide)).trans (w1_arg m ρ c main_arg7 (by decide)))]
  refine (W16_arr m ρ c 6).trans ((hv.gin2 (V15 m ρ) c).trans ?_)
  rw [e_h, e_agg, e_w1, e_b1, e_w2, e_b2, row0_asRow1, row0_asRow1]
  rfl

/-! ## The last launch and the re-laying -/

theorem at_post : W18 m ρ c (Proc.devRef .tc main_v97) = TOut m c := by
  have hin : W16 m ρ c (Proc.devRef .tc main_v94) = T5 m c := at_gin2 m ρ c hv
  have e_h : V17 m ρ c main_v94 = T5 m c := (post_keep_h (W16 m ρ c)).trans hin
  have e_w1 : V17 m ρ c main_arg10 = (m ((c : Thread nD τ).loc main_arg10)) := ((at17 m ρ c main_arg10 (by decide)).trans (w1_arg m ρ c main_arg10 (by decide)))
  have e_w2 : V17 m ρ c main_arg12 = (m ((c : Thread nD τ).loc main_arg12)) := ((at17 m ρ c main_arg12 (by decide)).trans (w1_arg m ρ c main_arg12 (by decide)))
  have e_b1 : V17 m ρ c main_v95 = asRow1 (m ((c : Thread nD τ).loc main_arg11)) := by
    refine (post_b1 (W16 m ρ c)).trans ?_
    rw [((at16 m ρ c main_arg11 (by decide)).trans (w1_arg m ρ c main_arg11 (by decide)))]
  have e_b2 : V17 m ρ c main_v96 = asRow1 (m ((c : Thread nD τ).loc main_arg13)) := by
    refine (post_b2 (W16 m ρ c)).trans ?_
    rw [((at16 m ρ c main_arg13 (by decide)).trans (w1_arg m ρ c main_arg13 (by decide)))]
  refine (W18_arr m ρ c 5).trans ((hv.post (V17 m ρ) c).trans ?_)
  rw [e_h, e_w1, e_w2, e_b1, e_b2, row0_asRow1, row0_asRow1]
  rfl

/-- The result buffer at the end of the chain: the network's table re-laid. -/
theorem result_value : W19 m ρ c (Proc.devRef .tc main_v98)
    = shapeCast S20x320000 (TOut m c) shapeCasts_S100000x64_S20x320000 := by
  refine (result_relaid (W18 m ρ c)).trans ?_
  rw [at_post m ρ c hv]

omit hv in
/-- The traced table is the network of the specification at this program's chains. -/
theorem tout_eq : TOut m c = Gin.net (sgK m c) meanK (varK (constantI S_ 32 0#32))
    (m ((c : Thread nD τ).loc main_arg0)) (m ((c : Thread nD τ).loc main_arg2)) (m ((c : Thread nD τ).loc main_arg3))
    (fun l => mat3K l (m ((c : Thread nD τ).loc main_arg4))) (fun l => row3K l (m ((c : Thread nD τ).loc main_arg5)))
    (fun l => mat3K l (m ((c : Thread nD τ).loc main_arg6))) (fun l => row3K l (m ((c : Thread nD τ).loc main_arg7)))
    (fun l => row2K l (m ((c : Thread nD τ).loc main_arg8))) (fun l => row2K l (m ((c : Thread nD τ).loc main_arg9)))
    (m ((c : Thread nD τ).loc main_arg10)) (m ((c : Thread nD τ).loc main_arg11)) (m ((c : Thread nD τ).loc main_arg12)) (m ((c : Thread nD τ).loc main_arg13)) := rfl

end Cert.KernelIdeal.Hand

end
-- ==== Proof.KRegionsAll.lean ====
/-
  The seven launches together: what each leaves in its output array, gathered into the one record the trace of
  the chain takes.
-/
import proofs.«117363_j52089363366042_1_alg».proof.Proof.KFinal0
import proofs.«117363_j52089363366042_1_alg».proof.Proof.KFinal1
import proofs.«117363_j52089363366042_1_alg».proof.Proof.KFinal2
import proofs.«117363_j52089363366042_1_alg».proof.Proof.KFinal3
import proofs.«117363_j52089363366042_1_alg».proof.Proof.KFinal4
import proofs.«117363_j52089363366042_1_alg».proof.Proof.KFinal5
import proofs.«117363_j52089363366042_1_alg».proof.Proof.KFinal6
import proofs.«117363_j52089363366042_1_alg».proof.Proof.KTrace

noncomputable section

namespace Cert.KernelIdeal.Hand

open Cert.KernelIdeal Cert.KernelIdeal.Gen Idealize.ShloMosaic

theorem regionValues : RegionValues where
  pre := fun V c => Cert.KernelIdeal.Regions.final0 V c
  gin0 := fun V c => Cert.KernelIdeal.Regions.final1 V c
  bn0 := fun V c => Cert.KernelIdeal.Regions.final2 V c
  gin1 := fun V c => Cert.KernelIdeal.Regions.final3 V c
  bn1 := fun V c => Cert.KernelIdeal.Regions.final4 V c
  gin2 := fun V c => Cert.KernelIdeal.Regions.final5 V c
  post := fun V c => Cert.KernelIdeal.Regions.final6 V c

end Cert.KernelIdeal.Hand

end
-- ==== Proof.KRun.lean ====
/-
  The kernel program's run with its result named. Every weakly fair execution of @main terminates without a
  fault; in the final state the result buffer holds what the last stretch of host operations leaves there — the
  contents `W19` at the end of the chain of segments: host stretches folded over the contents, each region's
  arrays at what its write-backs leave — and every argument array is as launched.
-/
import proofs.«117363_j52089363366042_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the segments, the last thread state read against the final state: the result buffer at the
    chain's last contents, each argument as launched. -/
theorem run_result : θ_run defs (onTc (τ := τ) (main (F := F))) ⟨m, fun _ => 0, ρ⟩ (fun r => ∀ c : Dev nD,
      r.2.mem ((c.tc : Thread nD τ).loc main_v98) = W19 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v98 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c)⟩)

end Cert.KernelIdeal.Hand

end
-- ==== Proof.KValue.lean ====
/-
  The kernel program's run, with its result as the network. Every weakly fair execution terminates without a
  fault, the result buffer ends holding the specification's network — at this program's aggregation and column
  statistics — of the argument arrays, re-laid as 20 rows of 320000, and the argument arrays end as launched.
-/
import proofs.«117363_j52089363366042_1_alg».proof.Proof.KRun
import proofs.«117363_j52089363366042_1_alg».proof.Proof.KTrace

set_option maxRecDepth 16384

noncomputable section

namespace Cert.KernelIdeal.Hand

open Cert.KernelIdeal Cert.KernelIdeal.Gen Idealize.ShloMosaic Idealize.ShloMosaic.TcCoe Idealize.SL.Sem
open Cert

/-- The network of the argument arrays as launched, at this program's chains, re-laid. -/
def resultK (m : (ℓ : Loc nD τ sig) → Buf (Elt Ideal) ℓ) (c : Dev nD) : FVec Ideal S20x320000 .f32 :=
  shapeCast S20x320000
    (Gin.net (sgK m c) meanK (varK (constantI S_ 32 0#32))
        (m ((c : Thread nD τ).loc main_arg0)) (m ((c : Thread nD τ).loc main_arg2)) (m ((c : Thread nD τ).loc main_arg3))
        (fun l => mat3K l (m ((c : Thread nD τ).loc main_arg4))) (fun l => row3K l (m ((c : Thread nD τ).loc main_arg5)))
        (fun l => mat3K l (m ((c : Thread nD τ).loc main_arg6))) (fun l => row3K l (m ((c : Thread nD τ).loc main_arg7)))
        (fun l => row2K l (m ((c : Thread nD τ).loc main_arg8))) (fun l => row2K l (m ((c : Thread nD τ).loc main_arg9)))
        (m ((c : Thread nD τ).loc main_arg10)) (m ((c : Thread nD τ).loc main_arg11)) (m ((c : Thread nD τ).loc main_arg12)) (m ((c : Thread nD τ).loc main_arg13)))
    shapeCasts_S100000x64_S20x320000

theorem run_value (hv : RegionValues) (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v98) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono
    (fun r h c => ⟨(h c).1.trans ((result_value m ρ c hv).trans (by rw [tout_eq]; rfl)), (h c).2⟩)
    (run_result m ρ)

end Cert.KernelIdeal.Hand

end
-- ==== Proof.RefOps.lean ====
/-
  The reference program as one straight line of host operations.

  The program is a sequence of whole-array operations, each writing one array from earlier ones; where it calls a
  helper (the leaky rectifier, the selection by a condition, the column variance) the helper's own operations stand
  in the call's place, over the arrays that call names. The line is cut by stage of the network: the first dense
  layer; then, three times, a message-passing layer, followed after the first two by a column normalisation; then
  the last perceptron and the final recast. Running the program is running the line (`main_eq`), so every array
  ends at the fold of the line over the initial contents (`run_main`).
-/
import proofs.«117363_j52089363366042_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The line, stage by stage -/

/-- The two index rows cut out of the edge table, and the first dense layer. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg2 main_v4 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S100000x64 ![0, 1] bcast_S1x64_S100000x64_0_1 : (⟨S1x64, .f32⟩ : BufTy).Contents (Elt F) → (⟨S100000x64, .f32⟩ : BufTy).Contents (Elt F)),
    StableHlo.binary main_v4 main_v6 main_v7 (addf : (⟨S100000x64, .f32⟩ : BufTy).Contents (Elt F) → (⟨S100000x64, .f32⟩ : BufTy).Contents (Elt F) → (⟨S100000x64, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub ..⟩

theorem ops0_fresh : ∀ op ∈ (ops0 : List (HloOp τ sig (Elt F))), op.fresh = ∅ := by
  intro _ h; (repeat (cases h with | head => rfl | tail _ h => ?_)); exact nomatch h

/-- Message passing, layer 0: the layer's weights cut out, the neighbours' rows gathered and added up per node, the two-layer perceptron. -/
abbrev ops1 : List (HloOp τ sig (Elt F)) :=
  [ StableHlo.unary main_arg4 main_v8 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v8 main_v9 rfl shapeCasts_S1x64x64_S64x64,
    StableHlo.unary main_arg5 main_v10 ((extractStridedSlice S1x64 ![0, 0] · slices_S3x64_S1x64_0_0) : (⟨S3x64, .f32⟩ : BufTy).Contents (Elt F) → (⟨S1x64, .f32⟩ : BufTy).Contents (Elt F)),
    StableHlo.reshape main_v10 main_v11 rfl shapeCasts_S1x64_S64,
    StableHlo.unary main_arg6 main_v12 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v12 main_v13 rfl shapeCasts_S1x64x64_S64x64,
    StableHlo.unary main_arg7 main_v14 ((extractStridedSlice S1x64 ![0, 0] · slices_S3x64_S1x64_0_0) : (⟨S3x64, .f32⟩ : BufTy).Contents (Elt F) → (⟨S1x64, .f32⟩ : BufTy).Contents (Elt F)),
    StableHlo.reshape main_v14 main_v15 rfl shapeCasts_S1x64_S64,
    StableHlo.nullary main_c (constantI S_ 32 0#32),
    StableHlo.unary main_c main_v16 (broadcastInDim S1600000 ![] bcast_S_S1600000 : (⟨S_, .i32⟩ : BufTy).Contents (Elt F) → (⟨S1600000, .i32⟩ : BufTy).Contents (Elt F)),
    StableHlo.binary main_v1 main_v16 main_v17 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v18 (broadcastInDim S1600000 ![] bcast_S_S1600000 : (⟨S_, .i32⟩ : BufTy).Contents (Elt F) → (⟨S1600000, .i32⟩ : BufTy).Contents (Elt F)),
    StableHlo.binary main_v1 main_v18 main_v19 (addi : (⟨S1600000, .i32⟩ : BufTy).Contents (Elt F) → (⟨S1600000, .i32⟩ : BufTy).Contents (Elt F) → (⟨S1600000, .i32⟩ : BufTy).Contents (Elt F)),
    StableHlo.ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v20 main_v21 (broadcastInDim S1600000x1 ![0] bcast_S1600000_S1600000x1_0 : (⟨S1600000, .i32⟩ : BufTy).Contents (Elt F) → (⟨S1600000x1, .i32⟩ : BufTy).Contents (Elt F)),
    StableHlo.binary main_v7 main_v21 main_v22 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v23 (broadcastInDim S100000x64 ![] bcast_S_S100000x64 : (⟨S_, .f32⟩ : BufTy).Contents (Elt F) → (⟨S100000x64, .f32⟩ : BufTy).Contents (Elt F)),
    StableHlo.unary main_v3 main_v24 (broadcastInDim S1600000x1 ![0] bcast_S1600000_S1600000x1_0 : (⟨S1600000, .i32⟩ : BufTy).Contents (Elt F) → (⟨S1600000x1, .i32⟩ : BufTy).Contents (Elt F)),
    StableHlo.ternary main_v23 main_v24 main_v22 main_v25 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v7 main_v25 main_v26 (addf : (⟨S100000x64, .f32⟩ : BufTy).Contents (Elt F) → (⟨S100000x64, .f32⟩ : BufTy).Contents (Elt F) → (⟨S100000x64, .f32⟩ : BufTy).Contents (Elt F)),
    StableHlo.binary main_v26 main_v9 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v11 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v29 main_v30 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3C23D70A#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S100000x64, .f32⟩) (broadcastInDim S100000x64 ![] bcast_S_S100000x64),
    StableHlo.TRef.binary (.of main_v30 : StableHlo.TRef sig ⟨S100000x64, .f32⟩) (.of main_call0_v0 : StableHlo.TRef sig ⟨S100000x64, .f32⟩) (.of main_call0_v1 : StableHlo.TRef sig ⟨S100000x64, .i1⟩) (cmpf .oge),
    StableHlo.TRef.unary (.of main_cst_1 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S100000x64, .f32⟩) (broadcastInDim S100000x64 ![] bcast_S_S100000x64),
    StableHlo.TRef.binary (.of main_call0_v3 : StableHlo.TRef sig ⟨S100000x64, .f32⟩) (.of main_v30 : StableHlo.TRef sig ⟨S100000x64, .f32⟩) (.of main_call0_v4 : StableHlo.TRef sig ⟨S100000x64, .f32⟩) mulf,
    StableHlo.TRef.ternary (.of main_call0_v1 : StableHlo.TRef sig ⟨S100000x64, .i1⟩) (.of main_v30 : StableHlo.TRef sig ⟨S100000x64, .f32⟩) (.of main_call0_v4 : StableHlo.TRef sig ⟨S100000x64, .f32⟩) (.of main_v31 : StableHlo.TRef sig ⟨S100000x64, .f32⟩) select,
    StableHlo.binary main_v31 main_v13 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v15 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S100000x64 ![0, 1] bcast_S1x64_S100000x64_0_1 : (⟨S1x64, .f32⟩ : BufTy).Contents (Elt F) → (⟨S100000x64, .f32⟩ : BufTy).Contents (Elt F)),
    StableHlo.binary main_v32 main_v34 main_v35 (addf : (⟨S100000x64, .f32⟩ : BufTy).Contents (Elt F) → (⟨S100000x64, .f32⟩ : BufTy).Contents (Elt F) → (⟨S100000x64, .f32⟩ : BufTy).Contents (Elt F)) ]

theorem ops1_sub : (ops1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

theorem ops1_fresh : ∀ op ∈ (ops1 : List (HloOp τ sig (Elt F))), op.fresh = ∅ := by
  intro _ h; (repeat (cases h with | head => rfl | tail _ h => ?_)); exact nomatch h

/-- Column normalisation after layer 0, first stretch: scale and shift rows cut out, the column mean, the column variance, the centred table and the inverse root. -/
abbrev ops2a : List (HloOp τ sig (Elt F)) :=
  [ StableHlo.unary main_arg8 main_v36 ((extractStridedSlice S1x64 ![0, 0] · slices_S2x64_S1x64_0_0) : (⟨S2x64, .f32⟩ : BufTy).Contents (Elt F) → (⟨S1x64, .f32⟩ : BufTy).Contents (Elt F)),
    StableHlo.reshape main_v36 main_v37 rfl shapeCasts_S1x64_S64,
    StableHlo.unary main_arg9 main_v38 ((extractStridedSlice S1x64 ![0, 0] · slices_S2x64_S1x64_0_0) : (⟨S2x64, .f32⟩ : BufTy).Contents (Elt F) → (⟨S1x64, .f32⟩ : BufTy).Contents (Elt F)),
    StableHlo.reshape main_v38 main_v39 rfl shapeCasts_S1x64_S64,
    StableHlo.nullary main_cst_2 (constant S_ .f32 0x00000000#32),
    StableHlo.binary main_v35 main_cst_2 main_v40 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_3 (constant S_ .f32 0x47C35000#32),
    StableHlo.unary main_cst_3 main_v41 (broadcastInDim S64 ![] bcast_S_S64 : (⟨S_, .f32⟩ : BufTy).Contents (Elt F) → (⟨S64, .f32⟩ : BufTy).Contents (Elt F)),
    StableHlo.binary main_v40 main_v41 main_v42 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary (.of main_call1_cst : StableHlo.TRef sig ⟨S_, .f32⟩) (constant S_ .f32 0x00000000#32),
    StableHlo.TRef.binary (.of main_v35 : StableHlo.TRef sig ⟨S100000x64, .f32⟩) (.of main_call1_cst : StableHlo.TRef sig ⟨S_, .f32⟩) (.of main_call1_v0 : StableHlo.TRef sig ⟨S64, .f32⟩) (fun x v => Host.reduceAdd x v reducesTo_S100000x64_S64_d0 h_S_),
    StableHlo.TRef.unary (.of main_call1_v0 : StableHlo.TRef sig ⟨S64, .f32⟩) (.of main_call1_v1 : StableHlo.TRef sig ⟨S1x64, .f32⟩) (broadcastInDim S1x64 ![1] bcast_S64_S1x64_1),
    StableHlo.TRef.nullary (.of main_call1_cst_0 : StableHlo.TRef sig ⟨S_, .f32⟩) (constant S_ .f32 0x47C35000#32),
    StableHlo.TRef.unary (.of main_call1_cst_0 : StableHlo.TRef sig ⟨S_, .f32⟩) (.of main_call1_v2 : StableHlo.TRef sig ⟨S1x64, .f32⟩) (broadcastInDim S1x64 ![] bcast_S_S1x64),
    StableHlo.TRef.binary (.of main_call1_v1 : StableHlo.TRef sig ⟨S1x64, .f32⟩) (.of main_call1_v2 : StableHlo.TRef sig ⟨S1x64, .f32⟩) (.of main_call1_v3 : StableHlo.TRef sig ⟨S1x64, .f32⟩) Host.divf,
    StableHlo.TRef.unary (.of main_call1_v3 : StableHlo.TRef sig ⟨S1x64, .f32⟩) (.of main_call1_v4 : StableHlo.TRef sig ⟨S100000x64, .f32⟩) (broadcastInDim S100000x64 ![0, 1] bcast_S1x64_S100000x64_0_1),
    StableHlo.TRef.binary (.of main_v35 : StableHlo.TRef sig ⟨S100000x64, .f32⟩) (.of main_call1_v4 : StableHlo.TRef sig ⟨S100000x64, .f32⟩) (.of main_call1_v5 : StableHlo.TRef sig ⟨S100000x64, .f32⟩) subf,
    StableHlo.TRef.binary (.of main_call1_v5 : StableHlo.TRef sig ⟨S100000x64, .f32⟩) (.of main_call1_v5 : StableHlo.TRef sig ⟨S100000x64, .f32⟩) (.of main_call1_v6 : StableHlo.TRef sig ⟨S100000x64, .f32⟩) mulf,
    StableHlo.TRef.unary (.of main_c_4 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47C35000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S100000x64, .f32⟩) (.of main_call1_cst_2 : StableHlo.TRef sig ⟨S_, .f32⟩) (.of main_call1_v9 : StableHlo.TRef sig ⟨S64, .f32⟩) (fun x v => Host.reduceAdd x v reducesTo_S100000x64_S64_d0 h_S_),
    StableHlo.TRef.unary (.of main_call1_v8 : StableHlo.TRef sig ⟨S_, .f32⟩) (.of main_call1_v10 : StableHlo.TRef sig ⟨S64, .f32⟩) (broadcastInDim S64 ![] bcast_S_S64),
    StableHlo.TRef.binary (.of main_call1_v9 : StableHlo.TRef sig ⟨S64, .f32⟩) (.of main_call1_v10 : StableHlo.TRef sig ⟨S64, .f32⟩) (.of main_call1_v11 : StableHlo.TRef sig ⟨S64, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S64, .f32⟩) (broadcastInDim S64 ![] bcast_S_S64),
    StableHlo.TRef.ternary (.of main_call1_v12 : StableHlo.TRef sig ⟨S_, .i1⟩) (.of main_call1_v11 : StableHlo.TRef sig ⟨S64, .f32⟩) (.of main_call1_call0_v1 : StableHlo.TRef sig ⟨S64, .f32⟩) (.of main_v43 : StableHlo.TRef sig ⟨S64, .f32⟩) (fun p a b => select (broadcastInDim S64 ![] bcast_S_S64 p) a b),
    StableHlo.unary main_v42 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v35 main_v45 main_v46 (subf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3727C5AC#32),
    StableHlo.unary main_cst_5 main_v47 (broadcastInDim S64 ![] bcast_S_S64 : (⟨S_, .f32⟩ : BufTy).Contents (Elt F) → (⟨S64, .f32⟩ : BufTy).Contents (Elt F)),
    StableHlo.binary main_v43 main_v47 main_v48 (addf : (⟨S64, .f32⟩ : BufTy).Contents (Elt F) → (⟨S64, .f32⟩ : BufTy).Contents (Elt F) → (⟨S64, .f32⟩ : BufTy).Contents (Elt F)),
    StableHlo.unary main_v48 main_v49 (Host.rsqrt : (⟨S64, .f32⟩ : BufTy).Contents (Elt F) → (⟨S64, .f32⟩ : BufTy).Contents (Elt F)),
    StableHlo.unary main_v49 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S100000x64 ![0, 1] bcast_S1x64_S100000x64_0_1 : (⟨S1x64, .f32⟩ : BufTy).Contents (Elt F) → (⟨S100000x64, .f32⟩ : BufTy).Contents (Elt F)) ]

theorem ops2a_sub : (ops2a : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩

theorem ops2a_fresh : ∀ op ∈ (ops2a : List (HloOp τ sig (Elt F))), op.fresh = ∅ := by
  intro _ h; (repeat (cases h with | head => rfl | tail _ h => ?_)); exact nomatch h

/-- Column normalisation after layer 0, second stretch: the products with the inverse root and the scale, and the shift. -/
abbrev ops2b : List (HloOp τ sig (Elt F)) :=
  [ StableHlo.binary main_v46 main_v51 main_v52 (mulf : (⟨S100000x64, .f32⟩ : BufTy).Contents (Elt F) → (⟨S100000x64, .f32⟩ : BufTy).Contents (Elt F) → (⟨S100000x64, .f32⟩ : BufTy).Contents (Elt F)),
    StableHlo.unary main_v37 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S100000x64 ![0, 1] bcast_S1x64_S100000x64_0_1 : (⟨S1x64, .f32⟩ : BufTy).Contents (Elt F) → (⟨S100000x64, .f32⟩ : BufTy).Contents (Elt F)),
    StableHlo.binary main_v52 main_v54 main_v55 (mulf : (⟨S100000x64, .f32⟩ : BufTy).Contents (Elt F) → (⟨S100000x64, .f32⟩ : BufTy).Contents (Elt F) → (⟨S100000x64, .f32⟩ : BufTy).Contents (Elt F)),
    StableHlo.unary main_v39 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v57 main_v58 (addf : (⟨S100000x64, .f32⟩ : BufTy).Contents (Elt F) → (⟨S100000x64, .f32⟩ : BufTy).Contents (Elt F) → (⟨S100000x64, .f32⟩ : BufTy).Contents (Elt F)) ]

theorem ops2b_sub : (ops2b : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub ..⟩

theorem ops2b_fresh : ∀ op ∈ (ops2b : List (HloOp τ sig (Elt F))), op.fresh = ∅ := by
  intro _ h; (repeat (cases h with | head => rfl | tail _ h => ?_)); exact nomatch h

/-- Message passing, layer 1. -/
abbrev ops3 : List (HloOp τ sig (Elt F)) :=
  [ StableHlo.unary main_arg4 main_v59 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v59 main_v60 rfl shapeCasts_S1x64x64_S64x64,
    StableHlo.unary main_arg5 main_v61 ((extractStridedSlice S1x64 ![1, 0] · slices_S3x64_S1x64_1_0) : (⟨S3x64, .f32⟩ : BufTy).Contents (Elt F) → (⟨S1x64, .f32⟩ : BufTy).Contents (Elt F)),
    StableHlo.reshape main_v61 main_v62 rfl shapeCasts_S1x64_S64,
    StableHlo.unary main_arg6 main_v63 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v63 main_v64 rfl shapeCasts_S1x64x64_S64x64,
    StableHlo.unary main_arg7 main_v65 ((extractStridedSlice S1x64 ![1, 0] · slices_S3x64_S1x64_1_0) : (⟨S3x64, .f32⟩ : BufTy).Contents (Elt F) → (⟨S1x64, .f32⟩ : BufTy).Contents (Elt F)),
    StableHlo.reshape main_v65 main_v66 rfl shapeCasts_S1x64_S64,
    StableHlo.nullary main_c_6 (constantI S_ 32 0#32),
    StableHlo.unary main_c_6 main_v67 (broadcastInDim S1600000 ![] bcast_S_S1600000 : (⟨S_, .i32⟩ : BufTy).Contents (Elt F) → (⟨S1600000, .i32⟩ : BufTy).Contents (Elt F)),
    StableHlo.binary main_v1 main_v67 main_v68 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v69 (broadcastInDim S1600000 ![] bcast_S_S1600000 : (⟨S_, .i32⟩ : BufTy).Contents (Elt F) → (⟨S1600000, .i32⟩ : BufTy).Contents (Elt F)),
    StableHlo.binary main_v1 main_v69 main_v70 (addi : (⟨S1600000, .i32⟩ : BufTy).Contents (Elt F) → (⟨S1600000, .i32⟩ : BufTy).Contents (Elt F) → (⟨S1600000, .i32⟩ : BufTy).Contents (Elt F)),
    StableHlo.ternary main_v68 main_v70 main_v1 main_v71 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v71 main_v72 (broadcastInDim S1600000x1 ![0] bcast_S1600000_S1600000x1_0 : (⟨S1600000, .i32⟩ : BufTy).Contents (Elt F) → (⟨S1600000x1, .i32⟩ : BufTy).Contents (Elt F)),
    StableHlo.binary main_v58 main_v72 main_v73 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_8 (constant S_ .f32 0x00000000#32),
    StableHlo.unary main_cst_8 main_v74 (broadcastInDim S100000x64 ![] bcast_S_S100000x64 : (⟨S_, .f32⟩ : BufTy).Contents (Elt F) → (⟨S100000x64, .f32⟩ : BufTy).Contents (Elt F)),
    StableHlo.unary main_v3 main_v75 (broadcastInDim S1600000x1 ![0] bcast_S1600000_S1600000x1_0 : (⟨S1600000, .i32⟩ : BufTy).Contents (Elt F) → (⟨S1600000x1, .i32⟩ : BufTy).Contents (Elt F)),
    StableHlo.ternary main_v74 main_v75 main_v73 main_v76 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v58 main_v76 main_v77 (addf : (⟨S100000x64, .f32⟩ : BufTy).Contents (Elt F) → (⟨S100000x64, .f32⟩ : BufTy).Contents (Elt F) → (⟨S100000x64, .f32⟩ : BufTy).Contents (Elt F)),
    StableHlo.binary main_v77 main_v60 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v62 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v80 main_v81 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x64, .f32⟩) (broadcastInDim S100000x64 ![] bcast_S_S100000x64),
    StableHlo.TRef.binary (.of main_v81 : StableHlo.TRef sig ⟨S100000x64, .f32⟩) (.of main_call2_v0 : StableHlo.TRef sig ⟨S100000x64, .f32⟩) (.of main_call2_v1 : StableHlo.TRef sig ⟨S100000x64, .i1⟩) (cmpf .oge),
    StableHlo.TRef.unary (.of main_cst_9 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S100000x64, .f32⟩) (broadcastInDim S100000x64 ![] bcast_S_S100000x64),
    StableHlo.TRef.binary (.of main_call2_v3 : StableHlo.TRef sig ⟨S100000x64, .f32⟩) (.of main_v81 : StableHlo.TRef sig ⟨S100000x64, .f32⟩) (.of main_call2_v4 : StableHlo.TRef sig ⟨S100000x64, .f32⟩) mulf,
    StableHlo.TRef.ternary (.of main_call2_v1 : StableHlo.TRef sig ⟨S100000x64, .i1⟩) (.of main_v81 : StableHlo.TRef sig ⟨S100000x64, .f32⟩) (.of main_call2_v4 : StableHlo.TRef sig ⟨S100000x64, .f32⟩) (.of main_v82 : StableHlo.TRef sig ⟨S100000x64, .f32⟩) select,
    StableHlo.binary main_v82 main_v64 main_v83 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v66 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S100000x64 ![0, 1] bcast_S1x64_S100000x64_0_1 : (⟨S1x64, .f32⟩ : BufTy).Contents (Elt F) → (⟨S100000x64, .f32⟩ : BufTy).Contents (Elt F)),
    StableHlo.binary main_v83 main_v85 main_v86 (addf : (⟨S100000x64, .f32⟩ : BufTy).Contents (Elt F) → (⟨S100000x64, .f32⟩ : BufTy).Contents (Elt F) → (⟨S100000x64, .f32⟩ : BufTy).Contents (Elt F)) ]

theorem ops3_sub : (ops3 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

theorem ops3_fresh : ∀ op ∈ (ops3 : List (HloOp τ sig (Elt F))), op.fresh = ∅ := by
  intro _ h; (repeat (cases h with | head => rfl | tail _ h => ?_)); exact nomatch h

/-- Column normalisation after layer 1, first stretch. -/
abbrev ops4a : List (HloOp τ sig (Elt F)) :=
  [ StableHlo.unary main_arg8 main_v87 ((extractStridedSlice S1x64 ![1, 0] · slices_S2x64_S1x64_1_0) : (⟨S2x64, .f32⟩ : BufTy).Contents (Elt F) → (⟨S1x64, .f32⟩ : BufTy).Contents (Elt F)),
    StableHlo.reshape main_v87 main_v88 rfl shapeCasts_S1x64_S64,
    StableHlo.unary main_arg9 main_v89 ((extractStridedSlice S1x64 ![1, 0] · slices_S2x64_S1x64_1_0) : (⟨S2x64, .f32⟩ : BufTy).Contents (Elt F) → (⟨S1x64, .f32⟩ : BufTy).Contents (Elt F)),
    StableHlo.reshape main_v89 main_v90 rfl shapeCasts_S1x64_S64,
    StableHlo.nullary main_cst_10 (constant S_ .f32 0x00000000#32),
    StableHlo.binary main_v86 main_cst_10 main_v91 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_11 (constant S_ .f32 0x47C35000#32),
    StableHlo.unary main_cst_11 main_v92 (broadcastInDim S64 ![] bcast_S_S64 : (⟨S_, .f32⟩ : BufTy).Contents (Elt F) → (⟨S64, .f32⟩ : BufTy).Contents (Elt F)),
    StableHlo.binary main_v91 main_v92 main_v93 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary (.of main_call3_cst : StableHlo.TRef sig ⟨S_, .f32⟩) (constant S_ .f32 0x00000000#32),
    StableHlo.TRef.binary (.of main_v86 : StableHlo.TRef sig ⟨S100000x64, .f32⟩) (.of main_call3_cst : StableHlo.TRef sig ⟨S_, .f32⟩) (.of main_call3_v0 : StableHlo.TRef sig ⟨S64, .f32⟩) (fun x v => Host.reduceAdd x v reducesTo_S100000x64_S64_d0 h_S_),
    StableHlo.TRef.unary (.of main_call3_v0 : StableHlo.TRef sig ⟨S64, .f32⟩) (.of main_call3_v1 : StableHlo.TRef sig ⟨S1x64, .f32⟩) (broadcastInDim S1x64 ![1] bcast_S64_S1x64_1),
    StableHlo.TRef.nullary (.of main_call3_cst_0 : StableHlo.TRef sig ⟨S_, .f32⟩) (constant S_ .f32 0x47C35000#32),
    StableHlo.TRef.unary (.of main_call3_cst_0 : StableHlo.TRef sig ⟨S_, .f32⟩) (.of main_call3_v2 : StableHlo.TRef sig ⟨S1x64, .f32⟩) (broadcastInDim S1x64 ![] bcast_S_S1x64),
    StableHlo.TRef.binary (.of main_call3_v1 : StableHlo.TRef sig ⟨S1x64, .f32⟩) (.of main_call3_v2 : StableHlo.TRef sig ⟨S1x64, .f32⟩) (.of main_call3_v3 : StableHlo.TRef sig ⟨S1x64, .f32⟩) Host.divf,
    StableHlo.TRef.unary (.of main_call3_v3 : StableHlo.TRef sig ⟨S1x64, .f32⟩) (.of main_call3_v4 : StableHlo.TRef sig ⟨S100000x64, .f32⟩) (broadcastInDim S100000x64 ![0, 1] bcast_S1x64_S100000x64_0_1),
    StableHlo.TRef.binary (.of main_v86 : StableHlo.TRef sig ⟨S100000x64, .f32⟩) (.of main_call3_v4 : StableHlo.TRef sig ⟨S100000x64, .f32⟩) (.of main_call3_v5 : StableHlo.TRef sig ⟨S100000x64, .f32⟩) subf,
    StableHlo.TRef.binary (.of main_call3_v5 : StableHlo.TRef sig ⟨S100000x64, .f32⟩) (.of main_call3_v5 : StableHlo.TRef sig ⟨S100000x64, .f32⟩) (.of main_call3_v6 : StableHlo.TRef sig ⟨S100000x64, .f32⟩) mulf,
    StableHlo.TRef.unary (.of main_c_12 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47C35000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S100000x64, .f32⟩) (.of main_call3_cst_2 : StableHlo.TRef sig ⟨S_, .f32⟩) (.of main_call3_v9 : StableHlo.TRef sig ⟨S64, .f32⟩) (fun x v => Host.reduceAdd x v reducesTo_S100000x64_S64_d0 h_S_),
    StableHlo.TRef.unary (.of main_call3_v8 : StableHlo.TRef sig ⟨S_, .f32⟩) (.of main_call3_v10 : StableHlo.TRef sig ⟨S64, .f32⟩) (broadcastInDim S64 ![] bcast_S_S64),
    StableHlo.TRef.binary (.of main_call3_v9 : StableHlo.TRef sig ⟨S64, .f32⟩) (.of main_call3_v10 : StableHlo.TRef sig ⟨S64, .f32⟩) (.of main_call3_v11 : StableHlo.TRef sig ⟨S64, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S64, .f32⟩) (broadcastInDim S64 ![] bcast_S_S64),
    StableHlo.TRef.ternary (.of main_call3_v12 : StableHlo.TRef sig ⟨S_, .i1⟩) (.of main_call3_v11 : StableHlo.TRef sig ⟨S64, .f32⟩) (.of main_call3_call0_v1 : StableHlo.TRef sig ⟨S64, .f32⟩) (.of main_v94 : StableHlo.TRef sig ⟨S64, .f32⟩) (fun p a b => select (broadcastInDim S64 ![] bcast_S_S64 p) a b),
    StableHlo.unary main_v93 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S100000x64 ![0, 1] bcast_S1x64_S100000x64_0_1 : (⟨S1x64, .f32⟩ : BufTy).Contents (Elt F) → (⟨S100000x64, .f32⟩ : BufTy).Contents (Elt F)),
    StableHlo.binary main_v86 main_v96 main_v97 (subf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3727C5AC#32),
    StableHlo.unary main_cst_13 main_v98 (broadcastInDim S64 ![] bcast_S_S64 : (⟨S_, .f32⟩ : BufTy).Contents (Elt F) → (⟨S64, .f32⟩ : BufTy).Contents (Elt F)),
    StableHlo.binary main_v94 main_v98 main_v99 (addf : (⟨S64, .f32⟩ : BufTy).Contents (Elt F) → (⟨S64, .f32⟩ : BufTy).Contents (Elt F) → (⟨S64, .f32⟩ : BufTy).Contents (Elt F)),
    StableHlo.unary main_v99 main_v100 (Host.rsqrt : (⟨S64, .f32⟩ : BufTy).Contents (Elt F) → (⟨S64, .f32⟩ : BufTy).Contents (Elt F)),
    StableHlo.unary main_v100 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v102 main_v103 (mulf : (⟨S100000x64, .f32⟩ : BufTy).Contents (Elt F) → (⟨S100000x64, .f32⟩ : BufTy).Contents (Elt F) → (⟨S100000x64, .f32⟩ : BufTy).Contents (Elt F)) ]

theorem ops4a_sub : (ops4a : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩

theorem ops4a_fresh : ∀ op ∈ (ops4a : List (HloOp τ sig (Elt F))), op.fresh = ∅ := by
  intro _ h; (repeat (cases h with | head => rfl | tail _ h => ?_)); exact nomatch h

/-- Column normalisation after layer 1, second stretch. -/
abbrev ops4b : List (HloOp τ sig (Elt F)) :=
  [ StableHlo.unary main_v88 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S100000x64 ![0, 1] bcast_S1x64_S100000x64_0_1 : (⟨S1x64, .f32⟩ : BufTy).Contents (Elt F) → (⟨S100000x64, .f32⟩ : BufTy).Contents (Elt F)),
    StableHlo.binary main_v103 main_v105 main_v106 (mulf : (⟨S100000x64, .f32⟩ : BufTy).Contents (Elt F) → (⟨S100000x64, .f32⟩ : BufTy).Contents (Elt F) → (⟨S100000x64, .f32⟩ : BufTy).Contents (Elt F)),
    StableHlo.unary main_v90 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S100000x64 ![0, 1] bcast_S1x64_S100000x64_0_1 : (⟨S1x64, .f32⟩ : BufTy).Contents (Elt F) → (⟨S100000x64, .f32⟩ : BufTy).Contents (Elt F)),
    StableHlo.binary main_v106 main_v108 main_v109 (addf : (⟨S100000x64, .f32⟩ : BufTy).Contents (Elt F) → (⟨S100000x64, .f32⟩ : BufTy).Contents (Elt F) → (⟨S100000x64, .f32⟩ : BufTy).Contents (Elt F)) ]

theorem ops4b_sub : (ops4b : List (HloOp τ sig (Elt F))).Forall fun op => op.bufs ⊆ tcRefs τ sig :=
  ⟨unary_bufs_sub .., unary_bufs_sub .., binary_bufs_sub .., unary_bufs_sub .., unary_bufs_sub .., binary_bufs_sub ..⟩

theorem ops4b_fresh : ∀ op ∈ (ops4b : List (HloOp τ sig (Elt F))), op.fresh = ∅ := by
  intro _ h; (repeat (cases h with | head => rfl | tail _ h => ?_)); exact nomatch h

/-- Message passing, layer 2. -/
abbrev ops5 : List (HloOp τ sig (Elt F)) :=
  [ StableHlo.unary main_arg4 main_v110 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v110 main_v111 rfl shapeCasts_S1x64x64_S64x64,
    StableHlo.unary main_arg5 main_v112 ((extractStridedSlice S1x64 ![2, 0] · slices_S3x64_S1x64_2_0) : (⟨S3x64, .f32⟩ : BufTy).Contents (Elt F) → (⟨S1x64, .f32⟩ : BufTy).Contents (Elt F)),
    StableHlo.reshape main_v112 main_v113 rfl shapeCasts_S1x64_S64,
    StableHlo.unary main_arg6 main_v114 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v114 main_v115 rfl shapeCasts_S1x64x64_S64x64,
    StableHlo.unary main_arg7 main_v116 ((extractStridedSlice S1x64 ![2, 0] · slices_S3x64_S1x64_2_0) : (⟨S3x64, .f32⟩ : BufTy).Contents (Elt F) → (⟨S1x64, .f32⟩ : BufTy).Contents (Elt F)),
    StableHlo.reshape main_v116 main_v117 rfl shapeCasts_S1x64_S64,
    StableHlo.nullary main_c_14 (constantI S_ 32 0#32),
    StableHlo.unary main_c_14 main_v118 (broadcastInDim S1600000 ![] bcast_S_S1600000 : (⟨S_, .i32⟩ : BufTy).Contents (Elt F) → (⟨S1600000, .i32⟩ : BufTy).Contents (Elt F)),
    StableHlo.binary main_v1 main_v118 main_v119 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v120 (broadcastInDim S1600000 ![] bcast_S_S1600000 : (⟨S_, .i32⟩ : BufTy).Contents (Elt F) → (⟨S1600000, .i32⟩ : BufTy).Contents (Elt F)),
    StableHlo.binary main_v1 main_v120 main_v121 (addi : (⟨S1600000, .i32⟩ : BufTy).Contents (Elt F) → (⟨S1600000, .i32⟩ : BufTy).Contents (Elt F) → (⟨S1600000, .i32⟩ : BufTy).Contents (Elt F)),
    StableHlo.ternary main_v119 main_v121 main_v1 main_v122 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v122 main_v123 (broadcastInDim S1600000x1 ![0] bcast_S1600000_S1600000x1_0 : (⟨S1600000, .i32⟩ : BufTy).Contents (Elt F) → (⟨S1600000x1, .i32⟩ : BufTy).Contents (Elt F)),
    StableHlo.binary main_v109 main_v123 main_v124 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_16 (constant S_ .f32 0x00000000#32),
    StableHlo.unary main_cst_16 main_v125 (broadcastInDim S100000x64 ![] bcast_S_S100000x64 : (⟨S_, .f32⟩ : BufTy).Contents (Elt F) → (⟨S100000x64, .f32⟩ : BufTy).Contents (Elt F)),
    StableHlo.unary main_v3 main_v126 (broadcastInDim S1600000x1 ![0] bcast_S1600000_S1600000x1_0 : (⟨S1600000, .i32⟩ : BufTy).Contents (Elt F) → (⟨S1600000x1, .i32⟩ : BufTy).Contents (Elt F)),
    StableHlo.ternary main_v125 main_v126 main_v124 main_v127 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v109 main_v127 main_v128 (addf : (⟨S100000x64, .f32⟩ : BufTy).Contents (Elt F) → (⟨S100000x64, .f32⟩ : BufTy).Contents (Elt F) → (⟨S100000x64, .f32⟩ : BufTy).Contents (Elt F)),
    StableHlo.binary main_v128 main_v111 main_v129 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v113 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S100000x64 ![0, 1] bcast_S1x64_S100000x64_0_1 : (⟨S1x64, .f32⟩ : BufTy).Contents (Elt F) → (⟨S100000x64, .f32⟩ : BufTy).Contents (Elt F)),
    StableHlo.binary main_v129 main_v131 main_v132 (addf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3C23D70A#32),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S100000x64, .f32⟩) (broadcastInDim S100000x64 ![] bcast_S_S100000x64),
    StableHlo.TRef.binary (.of main_v132 : StableHlo.TRef sig ⟨S100000x64, .f32⟩) (.of main_call4_v0 : StableHlo.TRef sig ⟨S100000x64, .f32⟩) (.of main_call4_v1 : StableHlo.TRef sig ⟨S100000x64, .i1⟩) (cmpf .oge),
    StableHlo.TRef.unary (.of main_cst_17 : StableHlo.TRef sig ⟨S_, .f32⟩) (.of main_call4_v2 : StableHlo.TRef sig ⟨S_, .f32⟩) id,
    StableHlo.TRef.unary (.of main_call4_v2 : StableHlo.TRef sig ⟨S_, .f32⟩) (.of main_call4_v3 : StableHlo.TRef sig ⟨S100000x64, .f32⟩) (broadcastInDim S100000x64 ![] bcast_S_S100000x64),
    StableHlo.TRef.binary (.of main_call4_v3 : StableHlo.TRef sig ⟨S100000x64, .f32⟩) (.of main_v132 : StableHlo.TRef sig ⟨S100000x64, .f32⟩) (.of main_call4_v4 : StableHlo.TRef sig ⟨S100000x64, .f32⟩) mulf,
    StableHlo.TRef.ternary (.of main_call4_v1 : StableHlo.TRef sig ⟨S100000x64, .i1⟩) (.of main_v132 : StableHlo.TRef sig ⟨S100000x64, .f32⟩) (.of main_call4_v4 : StableHlo.TRef sig ⟨S100000x64, .f32⟩) (.of main_v133 : StableHlo.TRef sig ⟨S100000x64, .f32⟩) select,
    StableHlo.binary main_v133 main_v115 main_v134 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v117 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S100000x64 ![0, 1] bcast_S1x64_S100000x64_0_1 : (⟨S1x64, .f32⟩ : BufTy).Contents (Elt F) → (⟨S100000x64, .f32⟩ : BufTy).Contents (Elt F)),
    StableHlo.binary main_v134 main_v136 main_v137 (addf : (⟨S100000x64, .f32⟩ : BufTy).Contents (Elt F) → (⟨S100000x64, .f32⟩ : BufTy).Contents (Elt F) → (⟨S100000x64, .f32⟩ : BufTy).Contents (Elt F)) ]

theorem ops5_sub : (ops5 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

theorem ops5_fresh : ∀ op ∈ (ops5 : List (HloOp τ sig (Elt F))), op.fresh = ∅ := by
  intro _ h; (repeat (cases h with | head => rfl | tail _ h => ?_)); exact nomatch h

/-- The last two-layer perceptron, and the result recast to 20 by 320000. -/
abbrev ops6 : List (HloOp τ sig (Elt F)) :=
  [ StableHlo.binary main_v137 main_arg10 main_v138 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg11 main_v139 (broadcastInDim S1x64 ![1] bcast_S64_S1x64_1 : (⟨S64, .f32⟩ : BufTy).Contents (Elt F) → (⟨S1x64, .f32⟩ : BufTy).Contents (Elt F)),
    StableHlo.unary main_v139 main_v140 (broadcastInDim S100000x64 ![0, 1] bcast_S1x64_S100000x64_0_1 : (⟨S1x64, .f32⟩ : BufTy).Contents (Elt F) → (⟨S100000x64, .f32⟩ : BufTy).Contents (Elt F)),
    StableHlo.binary main_v138 main_v140 main_v141 (addf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3C23D70A#32),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x64, .f32⟩) (broadcastInDim S100000x64 ![] bcast_S_S100000x64),
    StableHlo.TRef.binary (.of main_v141 : StableHlo.TRef sig ⟨S100000x64, .f32⟩) (.of main_call5_v0 : StableHlo.TRef sig ⟨S100000x64, .f32⟩) (.of main_call5_v1 : StableHlo.TRef sig ⟨S100000x64, .i1⟩) (cmpf .oge),
    StableHlo.TRef.unary (.of main_cst_18 : StableHlo.TRef sig ⟨S_, .f32⟩) (.of main_call5_v2 : StableHlo.TRef sig ⟨S_, .f32⟩) id,
    StableHlo.TRef.unary (.of main_call5_v2 : StableHlo.TRef sig ⟨S_, .f32⟩) (.of main_call5_v3 : StableHlo.TRef sig ⟨S100000x64, .f32⟩) (broadcastInDim S100000x64 ![] bcast_S_S100000x64),
    StableHlo.TRef.binary (.of main_call5_v3 : StableHlo.TRef sig ⟨S100000x64, .f32⟩) (.of main_v141 : StableHlo.TRef sig ⟨S100000x64, .f32⟩) (.of main_call5_v4 : StableHlo.TRef sig ⟨S100000x64, .f32⟩) mulf,
    StableHlo.TRef.ternary (.of main_call5_v1 : StableHlo.TRef sig ⟨S100000x64, .i1⟩) (.of main_v141 : StableHlo.TRef sig ⟨S100000x64, .f32⟩) (.of main_call5_v4 : StableHlo.TRef sig ⟨S100000x64, .f32⟩) (.of main_v142 : StableHlo.TRef sig ⟨S100000x64, .f32⟩) select,
    StableHlo.binary main_v142 main_arg12 main_v143 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg13 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S100000x64 ![0, 1] bcast_S1x64_S100000x64_0_1 : (⟨S1x64, .f32⟩ : BufTy).Contents (Elt F) → (⟨S100000x64, .f32⟩ : BufTy).Contents (Elt F)),
    StableHlo.binary main_v143 main_v145 main_v146 (addf : (⟨S100000x64, .f32⟩ : BufTy).Contents (Elt F) → (⟨S100000x64, .f32⟩ : BufTy).Contents (Elt F) → (⟨S100000x64, .f32⟩ : BufTy).Contents (Elt F)),
    StableHlo.reshape main_v146 main_v147 rfl shapeCasts_S100000x64_S20x320000 ]

theorem ops6_sub : (ops6 : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., reshape_bufs_sub ..⟩

theorem ops6_fresh : ∀ op ∈ (ops6 : List (HloOp τ sig (Elt F))), op.fresh = ∅ := by
  intro _ h; (repeat (cases h with | head => rfl | tail _ h => ?_)); exact nomatch h

/-- Column normalisation after layer 0. -/
abbrev ops2 : List (HloOp τ sig (Elt F)) := ops2a ++ ops2b

/-- Column normalisation after layer 1. -/
abbrev ops4 : List (HloOp τ sig (Elt F)) := ops4a ++ ops4b

/-- The whole line. -/
abbrev ops : List (HloOp τ sig (Elt F)) := ops0 ++ ops1 ++ ops2 ++ ops3 ++ ops4 ++ ops5 ++ ops6

/-! ## The program is the line -/

set_option maxRecDepth 16384 in
/-- The first third of the program: the helpers unfolded at their calls, sequencing reassociated. -/
theorem part0_eq (c : Dev nD) : main_part0 (F := F) c = seq (ops0 ++ ops1 ++ ops2a) := by
  rw [seq_append, seq_append]
  simp only [main_part0, fn_leaky_relu.body, fn_where.body, fn_var.body, fn_where_0.body, seq, bind_assoc, pure_bind]
  rfl

set_option maxRecDepth 16384 in
/-- The second third. -/
theorem part1_eq (c : Dev nD) : main_part1 (F := F) c = seq (ops2b ++ ops3 ++ ops4a) := by
  rw [seq_append, seq_append]
  simp only [main_part1, fn_leaky_relu.body, fn_where.body, fn_var.body, fn_where_0.body, seq, bind_assoc, pure_bind]
  rfl

set_option maxRecDepth 16384 in
/-- The last third. -/
theorem part2_eq (c : Dev nD) : main_part2 (F := F) c = seq (ops4b ++ ops5 ++ ops6) := by
  rw [seq_append, seq_append]
  simp only [main_part2, fn_leaky_relu.body, fn_where.body, seq, bind_assoc, pure_bind]

/-- The three thirds in order are the whole line. -/
theorem main_eq (c : Dev nD) : main (F := F) c = seq ops := by
  show (main_part0 c >>= fun _ => main_part1 c >>= fun _ => main_part2 c) = _
  rw [part0_eq, part1_eq, part2_eq, ← seq_append, ← seq_append]
  exact congrArg seq (by simp only [ops, ops2, ops4, List.append_assoc])

theorem ops_sub : (ops : List (HloOp τ sig (Elt F))).Forall fun op => op.bufs ⊆ tcRefs τ sig := by
  refine List.forall_iff_forall_mem.mpr fun op h => ?_
  simp only [ops, ops2, ops4, List.mem_append] at h
  rcases h with (((((h | h) | h | h) | h) | h | h) | h) | h
  exacts [List.forall_iff_forall_mem.mp ops0_sub op h, List.forall_iff_forall_mem.mp ops1_sub op h,
    List.forall_iff_forall_mem.mp ops2a_sub op h, List.forall_iff_forall_mem.mp ops2b_sub op h,
    List.forall_iff_forall_mem.mp ops3_sub op h, List.forall_iff_forall_mem.mp ops4a_sub op h,
    List.forall_iff_forall_mem.mp ops4b_sub op h, List.forall_iff_forall_mem.mp ops5_sub op h,
    List.forall_iff_forall_mem.mp ops6_sub op h]

theorem ops_fresh : ∀ op ∈ (ops : List (HloOp τ sig (Elt F))), op.fresh = ∅ := by
  intro op h
  simp only [ops, ops2, ops4, List.mem_append] at h
  rcases h with (((((h | h) | h | h) | h) | h | h) | h) | h
  exacts [ops0_fresh op h, ops1_fresh op h, ops2a_fresh op h, ops2b_fresh op h, ops3_fresh op h, ops4a_fresh op h,
    ops4b_fresh op h, ops5_fresh op h, ops6_fresh op h]

theorem scopedRefs_eq : (Finset.univ.filter fun b : Ref sig .tc => b.isScoped) = ∅ := by decide
theorem scopedSems_eq : (Finset.univ.filter fun sm : SemLoc sig => sm.isScoped .tc) = ∅ := by decide

/-- From any memory with zero counters, every weakly fair execution of the program terminates, and every final state
    has each array at the fold of the line over the initial contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.LibFoldSplit.lean ====
/-
  The fold of a line of host operations over buffer contents, split at a position: running the whole line from
  contents `V` is running its first `k` operations from `V` and the rest from what they leave. A long line can then be
  read back stretch by stretch, each stretch from NAMED contents, instead of in one pass.
-/
import Idealize.ShloMosaic.Lib.StableHlo.Run

noncomputable section

namespace Idealize.ShloMosaic.StableHlo.FoldSplit

open Idealize.ShloMosaic Idealize.ShloMosaic.StableHlo

variable {τ : Topo} {sig : RefSig} {Val : EltTy → Type}

/-- Two lines run one after the other are their concatenation run as one, on the contents as on the program. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line split at position `k`. -/
theorem after_split (k : Nat) (l : List (HloOp τ sig Val)) (V : Valuation τ sig Val) :
    after l V = after (l.drop k) (after (l.take k) V) := by
  rw [← after_append, List.take_append_drop]

end Idealize.ShloMosaic.StableHlo.FoldSplit

end
-- ==== Proof.RefChains.lean ====
/-
  The reference program's stretches of host arithmetic, named, and its spellings of the network's stages.

  The aggregation over the edges, the column mean and variance, and the slices of the stacked weights are the
  compositions the two programs share, taken here at this program's own dimension records. Three of the program's
  spellings are then brought to the network's definitions: the leaky rectifier (a selection between an entry and the
  slope's multiple of it, by the entry's comparison with zero), a two-layer perceptron (two products, each plus a bias
  row broadcast down the nodes, the rectifier between them), and the column normalisation (centred by a row, times the
  inverse root of a row plus a small constant, times a row, plus a row).
-/
import proofs.«117363_j52089363366042_1_alg».proof.Proof.RefOps
import proofs.«117363_j52089363366042_1_alg».proof.Proof.Chains
import proofs.«117363_j52089363366042_1_alg».proof.Proof.LibFoldSplit
import Idealize.ShloMosaic.Lib.IdealHost

noncomputable section

namespace Cert.ReferenceIdeal.Hand

open Cert Cert.ReferenceIdeal Cert.ReferenceIdeal.Gen Idealize.ShloMosaic Idealize.ShloMosaic.TcCoe Idealize.SL.Sem Idealize.ShloMosaic.StableHlo
open Idealize.ShloMosaic.ValueIdx

/-! ## The shared stretches at this program's own dimension records -/

/-- The source row of the edge list. -/
def srcR (ei : IVec S2x1600000 32) : IVec S1600000 32 :=
  Gin.edgeRow ![0, 0] slices_S2x1600000_S1x1600000_0_0 shapeCasts_S1x1600000_S1600000 ei

/-- The destination row of the edge list. -/
def dstR (ei : IVec S2x1600000 32) : IVec S1600000 32 :=
  Gin.edgeRow ![1, 0] slices_S2x1600000_S1x1600000_1_0 shapeCasts_S1x1600000_S1600000 ei

/-- The aggregation of a node table over the edges given by a source row and a destination row. -/
def segR (src dst : IVec S1600000 32) (h : Gin.Tab) : Gin.Tab :=
  Gin.seg gather_S100000x64_S1600000x1_S1600000x64_1_0_n_n_0_1_164 scatter_S100000x64_S1600000x1_S1600000x64_1_0_0_1
    bcast_S_S100000x64 bcast_S1600000_S1600000x1_0 bcast_S_S1600000 src dst h

/-- The column means. -/
def meanR (h : Gin.Tab) : Gin.Row :=
  Gin.colMean reducesTo_S100000x64_S64_d0 h_S_ bcast_S_S64 h

/-- The column variances, the divisor being the node count less `z`. -/
def varR (z : IVec S_ 32) (h : Gin.Tab) : Gin.Row :=
  Gin.colVar reducesTo_S100000x64_S64_d0 h_S_ bcast_S_S64 bcast_S64_S1x64_1 bcast_S_S1x64 bcast_S1x64_S100000x64_0_1 z h

/-- Layer `l`'s weight table out of a stack of three. -/
def mat3R : Fin 3 → FVec Ideal S3x64x64 .f32 → Gin.Mat
  | 0 => Gin.mat3 ![0, 0, 0] slices_S3x64x64_S1x64x64_0_0_0 shapeCasts_S1x64x64_S64x64
  | 1 => Gin.mat3 ![1, 0, 0] slices_S3x64x64_S1x64x64_1_0_0 shapeCasts_S1x64x64_S64x64
  | 2 => Gin.mat3 ![2, 0, 0] slices_S3x64x64_S1x64x64_2_0_0 shapeCasts_S1x64x64_S64x64

/-- Layer `l`'s bias row out of a stack of three. -/
def row3R : Fin 3 → FVec Ideal S3x64 .f32 → Gin.Row
  | 0 => Gin.row3 ![0, 0] slices_S3x64_S1x64_0_0 shapeCasts_S1x64_S64
  | 1 => Gin.row3 ![1, 0] slices_S3x64_S1x64_1_0 shapeCasts_S1x64_S64
  | 2 => Gin.row3 ![2, 0] slices_S3x64_S1x64_2_0 shapeCasts_S1x64_S64

/-- Normalisation `l`'s row out of a stack of two. -/
def row2R : Fin 2 → FVec Ideal S2x64 .f32 → Gin.Row
  | 0 => Gin.row2 ![0, 0] slices_S2x64_S1x64_0_0 shapeCasts_S1x64_S64
  | 1 => Gin.row2 ![1, 0] slices_S2x64_S1x64_1_0 shapeCasts_S1x64_S64

/-! ## The printed compositions as the network's stages -/

/-- A node table, a weight table and a feature row, as arrays of single-precision entries. -/
abbrev T32 : Type := FVec Ideal S100000x64 .f32
@[inherit_doc T32] abbrev M32 : Type := FVec Ideal S64x64 .f32
@[inherit_doc T32] abbrev R32 : Type := FVec Ideal S64 .f32

/-- A row broadcast to a one-row table and then down the nodes. -/
abbrev down (b : R32) : T32 :=
  broadcastInDim S100000x64 ![0, 1] bcast_S1x64_S100000x64_0_1 (broadcastInDim S1x64 ![1] bcast_S64_S1x64_1 b)

/-- The leaky rectifier as the program spells it — the entry where it is at least zero, the slope's multiple of it
    elsewhere, both the zero and the slope broadcast from scalars — is the rectifier at every entry. -/
theorem leaky_eq (z : T32) :
    select (cmpf (F := Ideal) .oge z (broadcastInDim S100000x64 ![] bcast_S_S100000x64 (constant S_ .f32 0x00000000#32)))
        z (mulf (F := Ideal) (φ := .f32) (broadcastInDim S100000x64 ![] bcast_S_S100000x64 (id (constant S_ .f32 0x3C23D70A#32))) z)
      = Gin.act z := by
  funext i
  rw [select_apply, cmpf_apply, mulf_apply, broadcastInDim_scalar_apply, broadcastInDim_scalar_apply]
  rfl

/-- A dense layer as the program spells it. -/
theorem affine_eq (h : T32) (W : M32) (b : R32) :
    addf (Host.dotGeneral (F := Ideal) dot_S100000x64_S64x64_S100000x64_1_0_0_1_n_n none h W) (down b) = Dense.affine h W b :=
  Dense.host_affine dot_S100000x64_S64x64_S100000x64_1_0_0_1_n_n_wf bcast_S64_S1x64_1 bcast_S1x64_S100000x64_0_1 h W b

/-- Two dense layers with the rectifier between them, as the program spells them. -/
theorem mlp_eq (h : T32) (W1 : M32) (b1 : R32) (W2 : M32) (b2 : R32) :
    addf (Host.dotGeneral (F := Ideal) dot_S100000x64_S64x64_S100000x64_1_0_0_1_n_n none
        (select (cmpf (F := Ideal) .oge
            (addf (Host.dotGeneral (F := Ideal) dot_S100000x64_S64x64_S100000x64_1_0_0_1_n_n none h W1) (down b1))
            (broadcastInDim S100000x64 ![] bcast_S_S100000x64 (constant S_ .f32 0x00000000#32)))
          (addf (Host.dotGeneral (F := Ideal) dot_S100000x64_S64x64_S100000x64_1_0_0_1_n_n none h W1) (down b1))
          (mulf (F := Ideal) (φ := .f32) (broadcastInDim S100000x64 ![] bcast_S_S100000x64 (id (constant S_ .f32 0x3C23D70A#32)))
            (addf (Host.dotGeneral (F := Ideal) dot_S100000x64_S64x64_S100000x64_1_0_0_1_n_n none h W1) (down b1)))) W2)
      (down b2) = Gin.mlp h W1 b1 W2 b2 := by
  rw [affine_eq h W1 b1, leaky_eq, affine_eq]
  rfl

/-- The column normalisation as the program spells it: centred by the mean row, times the inverse root of the
    variance row plus the small constant, times the scale row, plus the shift row, every row broadcast down the nodes. -/
theorem norm_eq (h : T32) (mu va g b : R32) :
    addf (F := Ideal) (φ := .f32) (mulf (mulf (subf h (down mu))
        (down (Host.rsqrt (F := Ideal) (addf va (broadcastInDim S64 ![] bcast_S_S64 (constant S_ .f32 0x3727C5AC#32)))))) (down g)) (down b)
      = Gin.normWith h mu va g b := by
  funext i
  obtain ⟨p, q, rfl⟩ : ∃ (p : Fin 100000) (q : Fin 64), i = ix2 p q := ⟨i 0, i 1, eq_ix2 i⟩
  rw [addf_apply, mulf_apply, mulf_apply, subf_apply]
  simp only [down, Dense.host_bias bcast_S64_S1x64_1 bcast_S1x64_S100000x64_0_1]
  show _ * Ideal.rsqrt (va (ix1 q) + broadcastInDim S64 ![] bcast_S_S64 (constant (F := Ideal) S_ .f32 0x3727C5AC#32) (ix1 q)) * _ + _ = _
  rw [broadcastInDim_scalar_apply]
  rfl

end Cert.ReferenceIdeal.Hand

end
-- ==== Proof.RefStagesA.lean ====
/-
  The reference's line read back, stage by stage: the first dense layer, the three message-passing layers, the last
  perceptron. Each stage's output array, after the stage run from ANY contents, is the network's stage of those
  contents at the stage's input arrays.
-/
import proofs.«117363_j52089363366042_1_alg».proof.Proof.RefChains

noncomputable section

namespace Cert.ReferenceIdeal.Hand

open Cert Cert.ReferenceIdeal Cert.ReferenceIdeal.Gen Idealize.ShloMosaic Idealize.ShloMosaic.TcCoe Idealize.SL.Sem Idealize.ShloMosaic.StableHlo
open Idealize.ShloMosaic.ValueIdx

attribute [local irreducible] Host.reduceAdd Host.gather Host.scatterAdd

/-- The first dense layer. -/
theorem ops0_v7 (V : Valuation τ sig (Elt Ideal)) :
    after ops0 V (main_v7 : DevRef τ sig) = Dense.affine (V (main_arg0 : DevRef τ sig)) (V (main_arg2 : DevRef τ sig)) (V (main_arg3 : DevRef τ sig)) := by
  after_results
  exact affine_eq _ _ _

/-- The source row of the edge table. -/
theorem ops0_v1 (V : Valuation τ sig (Elt Ideal)) :
    after ops0 V (main_v1 : DevRef τ sig) = srcR (V (main_arg1 : DevRef τ sig)) := by
  after_results
  rfl

/-- The destination row of the edge table. -/
theorem ops0_v3 (V : Valuation τ sig (Elt Ideal)) :
    after ops0 V (main_v3 : DevRef τ sig) = dstR (V (main_arg1 : DevRef τ sig)) := by
  after_results
  rfl

set_option maxRecDepth 65536 in
/-- Message passing, layer 0: the perceptron of each row plus its aggregated neighbours. -/
theorem ops1_v35 (V : Valuation τ sig (Elt Ideal)) :
    after ops1 V (main_v35 : DevRef τ sig)
      = Gin.gin (segR (V (main_v1 : DevRef τ sig)) (V (main_v3 : DevRef τ sig))) (V (main_v7 : DevRef τ sig))
          (mat3R 0 (V (main_arg4 : DevRef τ sig))) (row3R 0 (V (main_arg5 : DevRef τ sig)))
          (mat3R 0 (V (main_arg6 : DevRef τ sig))) (row3R 0 (V (main_arg7 : DevRef τ sig))) := by
  after_results_simp
  exact mlp_eq (addf (F := Ideal) (φ := .f32) (V (main_v7 : DevRef τ sig)) (segR (V (main_v1 : DevRef τ sig)) (V (main_v3 : DevRef τ sig)) (V (main_v7 : DevRef τ sig))))
    (mat3R 0 (V (main_arg4 : DevRef τ sig))) (row3R 0 (V (main_arg5 : DevRef τ sig)))
    (mat3R 0 (V (main_arg6 : DevRef τ sig))) (row3R 0 (V (main_arg7 : DevRef τ sig)))

set_option maxRecDepth 65536 in
/-- Message passing, layer 1: the perceptron of each row plus its aggregated neighbours. -/
theorem ops3_v86 (V : Valuation τ sig (Elt Ideal)) :
    after ops3 V (main_v86 : DevRef τ sig)
      = Gin.gin (segR (V (main_v1 : DevRef τ sig)) (V (main_v3 : DevRef τ sig))) (V (main_v58 : DevRef τ sig))
          (mat3R 1 (V (main_arg4 : DevRef τ sig))) (row3R 1 (V (main_arg5 : DevRef τ sig)))
          (mat3R 1 (V (main_arg6 : DevRef τ sig))) (row3R 1 (V (main_arg7 : DevRef τ sig))) := by
  after_results_simp
  exact mlp_eq (addf (F := Ideal) (φ := .f32) (V (main_v58 : DevRef τ sig)) (segR (V (main_v1 : DevRef τ sig)) (V (main_v3 : DevRef τ sig)) (V (main_v58 : DevRef τ sig))))
    (mat3R 1 (V (main_arg4 : DevRef τ sig))) (row3R 1 (V (main_arg5 : DevRef τ sig)))
    (mat3R 1 (V (main_arg6 : DevRef τ sig))) (row3R 1 (V (main_arg7 : DevRef τ sig)))

set_option maxRecDepth 65536 in
/-- Message passing, layer 2: the perceptron of each row plus its aggregated neighbours. -/
theorem ops5_v137 (V : Valuation τ sig (Elt Ideal)) :
    after ops5 V (main_v137 : DevRef τ sig)
      = Gin.gin (segR (V (main_v1 : DevRef τ sig)) (V (main_v3 : DevRef τ sig))) (V (main_v109 : DevRef τ sig))
          (mat3R 2 (V (main_arg4 : DevRef τ sig))) (row3R 2 (V (main_arg5 : DevRef τ sig)))
          (mat3R 2 (V (main_arg6 : DevRef τ sig))) (row3R 2 (V (main_arg7 : DevRef τ sig))) := by
  after_results_simp
  exact mlp_eq (addf (F := Ideal) (φ := .f32) (V (main_v109 : DevRef τ sig)) (segR (V (main_v1 : DevRef τ sig)) (V (main_v3 : DevRef τ sig)) (V (main_v109 : DevRef τ sig))))
    (mat3R 2 (V (main_arg4 : DevRef τ sig))) (row3R 2 (V (main_arg5 : DevRef τ sig)))
    (mat3R 2 (V (main_arg6 : DevRef τ sig))) (row3R 2 (V (main_arg7 : DevRef τ sig)))

set_option maxRecDepth 65536 in
/-- The last perceptron, recast to 20 by 320000. -/
theorem ops6_v147 (V : Valuation τ sig (Elt Ideal)) :
    after ops6 V (main_v147 : DevRef τ sig)
      = shapeCast S20x320000 (Gin.mlp (V (main_v137 : DevRef τ sig)) (V (main_arg10 : DevRef τ sig)) (V (main_arg11 : DevRef τ sig))
          (V (main_arg12 : DevRef τ sig)) (V (main_arg13 : DevRef τ sig))) shapeCasts_S100000x64_S20x320000 := by
  after_results_simp
  exact congrArg (fun t : T32 => shapeCast S20x320000 t shapeCasts_S100000x64_S20x320000)
    (mlp_eq (V (main_v137 : DevRef τ sig)) (V (main_arg10 : DevRef τ sig)) (V (main_arg11 : DevRef τ sig)) (V (main_arg12 : DevRef τ sig)) (V (main_arg13 : DevRef τ sig)))

end Cert.ReferenceIdeal.Hand

end
-- ==== Proof.RefStagesB.lean ====
/-
  The reference's line read back: the first column normalisation. It is run in two stretches; the first leaves the
  centred table (in the second normalisation already times the inverse root), the inverse root of the variance row plus
  the small constant, and the scale and shift rows, the second multiplies and shifts. Together they normalise the stage's
  input table by its own column mean and variance.
-/
import proofs.«117363_j52089363366042_1_alg».proof.Proof.RefChains

noncomputable section

namespace Cert.ReferenceIdeal.Hand

open Cert Cert.ReferenceIdeal Cert.ReferenceIdeal.Gen Idealize.ShloMosaic Idealize.ShloMosaic.TcCoe Idealize.SL.Sem Idealize.ShloMosaic.StableHlo
open Idealize.ShloMosaic.ValueIdx

attribute [local irreducible] Host.reduceAdd Host.gather Host.scatterAdd

/-! ### Normalisation 0 -/

/-- The scale row. -/
theorem ops2a_v37 (V : Valuation τ sig (Elt Ideal)) :
    after ops2a V (main_v37 : DevRef τ sig) = row2R 0 (V (main_arg8 : DevRef τ sig)) := by
  after_results_simp
  rfl

/-- The shift row. -/
theorem ops2a_v39 (V : Valuation τ sig (Elt Ideal)) :
    after ops2a V (main_v39 : DevRef τ sig) = row2R 0 (V (main_arg9 : DevRef τ sig)) := by
  after_results_simp
  rfl

set_option maxRecDepth 65536 in
/-- The table centred by its column means. -/
theorem ops2a_v46 (V : Valuation τ sig (Elt Ideal)) :
    after ops2a V (main_v46 : DevRef τ sig) = subf (F := Ideal) (φ := .f32) (V (main_v35 : DevRef τ sig)) (down (meanR (V (main_v35 : DevRef τ sig)))) := by
  after_results_simp
  rfl

set_option maxRecDepth 65536 in
/-- The inverse root of the column variances plus the small constant, broadcast down the nodes. -/
theorem ops2a_v51 (V : Valuation τ sig (Elt Ideal)) :
    after ops2a V (main_v51 : DevRef τ sig)
      = down (Host.rsqrt (F := Ideal) (addf (varR (constantI S_ 32 0#32) (V (main_v35 : DevRef τ sig))) (broadcastInDim S64 ![] bcast_S_S64 (constant S_ .f32 0x3727C5AC#32)))) := by
  after_results_simp
  rfl

/-- The second stretch: the two products and the shift. -/
theorem ops2b_v58 (W : Valuation τ sig (Elt Ideal)) :
    after ops2b W (main_v58 : DevRef τ sig)
      = addf (F := Ideal) (φ := .f32) (mulf (mulf (W (main_v46 : DevRef τ sig)) (W (main_v51 : DevRef τ sig))) (down (W (main_v37 : DevRef τ sig)))) (down (W (main_v39 : DevRef τ sig))) := by
  after_results

/-- Normalisation 0 whole: the table normalised by its own column mean and variance. -/
theorem ops2_v58 (V : Valuation τ sig (Elt Ideal)) :
    after ops2 V (main_v58 : DevRef τ sig)
      = Gin.norm meanR (varR (constantI S_ 32 0#32)) (V (main_v35 : DevRef τ sig)) (row2R 0 (V (main_arg8 : DevRef τ sig))) (row2R 0 (V (main_arg9 : DevRef τ sig))) := by
  show after (ops2a ++ ops2b) V _ = _
  rw [FoldSplit.after_append, ops2b_v58, ops2a_v46, ops2a_v51, ops2a_v37, ops2a_v39]
  exact norm_eq _ _ _ _ _

end Cert.ReferenceIdeal.Hand

end
-- ==== Proof.RefStagesC.lean ====
/-
  The reference's line read back: the second column normalisation. It is run in two stretches; the first leaves the
  centred table (in the second normalisation already times the inverse root), the inverse root of the variance row plus
  the small constant, and the scale and shift rows, the second multiplies and shifts. Together they normalise the stage's
  input table by its own column mean and variance.
-/
import proofs.«117363_j52089363366042_1_alg».proof.Proof.RefChains

noncomputable section

namespace Cert.ReferenceIdeal.Hand

open Cert Cert.ReferenceIdeal Cert.ReferenceIdeal.Gen Idealize.ShloMosaic Idealize.ShloMosaic.TcCoe Idealize.SL.Sem Idealize.ShloMosaic.StableHlo
open Idealize.ShloMosaic.ValueIdx

attribute [local irreducible] Host.reduceAdd Host.gather Host.scatterAdd

/-! ### Normalisation 1 -/

/-- The scale row. -/
theorem ops4a_v88 (V : Valuation τ sig (Elt Ideal)) :
    after ops4a V (main_v88 : DevRef τ sig) = row2R 1 (V (main_arg8 : DevRef τ sig)) := by
  after_results_simp
  rfl

/-- The shift row. -/
theorem ops4a_v90 (V : Valuation τ sig (Elt Ideal)) :
    after ops4a V (main_v90 : DevRef τ sig) = row2R 1 (V (main_arg9 : DevRef τ sig)) := by
  after_results_simp
  rfl

set_option maxRecDepth 65536 in
/-- The centred table times the inverse root of the column variances plus the small constant. -/
theorem ops4a_v103 (V : Valuation τ sig (Elt Ideal)) :
    after ops4a V (main_v103 : DevRef τ sig)
      = mulf (F := Ideal) (φ := .f32) (subf (V (main_v86 : DevRef τ sig)) (down (meanR (V (main_v86 : DevRef τ sig)))))
          (down (Host.rsqrt (F := Ideal) (addf (varR (constantI S_ 32 0#32) (V (main_v86 : DevRef τ sig))) (broadcastInDim S64 ![] bcast_S_S64 (constant S_ .f32 0x3727C5AC#32))))) := by
  after_results_simp
  rfl

/-- The second stretch: the product with the scale, and the shift. -/
theorem ops4b_v109 (W : Valuation τ sig (Elt Ideal)) :
    after ops4b W (main_v109 : DevRef τ sig)
      = addf (F := Ideal) (φ := .f32) (mulf (W (main_v103 : DevRef τ sig)) (down (W (main_v88 : DevRef τ sig)))) (down (W (main_v90 : DevRef τ sig))) := by
  after_results

/-- Normalisation 1 whole: the table normalised by its own column mean and variance. -/
theorem ops4_v109 (V : Valuation τ sig (Elt Ideal)) :
    after ops4 V (main_v109 : DevRef τ sig)
      = Gin.norm meanR (varR (constantI S_ 32 0#32)) (V (main_v86 : DevRef τ sig)) (row2R 1 (V (main_arg8 : DevRef τ sig))) (row2R 1 (V (main_arg9 : DevRef τ sig))) := by
  show after (ops4a ++ ops4b) V _ = _
  rw [FoldSplit.after_append, ops4b_v109, ops4a_v103, ops4a_v88, ops4a_v90]
  exact norm_eq _ _ _ _ _

end Cert.ReferenceIdeal.Hand

end
-- ==== Proof.RefFrame.lean ====
/-
  What each stage of the reference's line leaves alone.

  Every operation writes one array. Listing, stage by stage, the arrays written, an array outside a stage's list holds
  after the stage what it held before: the arguments through every stage, and the two index rows cut out of the edge
  table through every stage after the first.
-/
import proofs.«117363_j52089363366042_1_alg».proof.Proof.RefOps
import proofs.«117363_j52089363366042_1_alg».proof.Proof.LibFoldSplit

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The arrays `ops0` writes. -/
def w0 : List (Ref sig .tc) :=
  [ main_v0, main_v1, main_v2, main_v3, main_v4, main_v5, main_v6, main_v7 ]

theorem ops0_writes : (ops0 : List (HloOp τ sig (Elt F))).Forall fun op =>
    op.writes ⊆ (w0.map (Proc.devRef (τ := τ) .tc)).toFinset := by
  simp only [ops0, List.Forall, nullary_writes, unary_writes, binary_writes, ternary_writes, reshape_writes,
    Finset.singleton_subset_iff, List.mem_toFinset]
  repeat' apply And.intro
  all_goals exact List.mem_map_of_mem (by decide)

/-- An array `ops0` does not write keeps its contents. -/
theorem ops0_frame (V : Valuation τ sig (Elt F)) {r : Ref sig .tc} (hr : r ∉ w0) :
    after ops0 V (r : DevRef τ sig) = V (r : DevRef τ sig) :=
  after_of_writes_sub ops0 V ops0_writes hr

/-- The arrays `ops1` writes. -/
def w1 : List (Ref sig .tc) :=
  [ main_v8, main_v9, main_v10, main_v11, main_v12, main_v13, main_v14, main_v15, main_c, main_v16, main_v17,
    main_c_0, main_v18, main_v19, main_v20, main_v21, main_v22, main_cst, main_v23, main_v24, main_v25, main_v26,
    main_v27, main_v28, main_v29, main_v30, main_cst_1, main_call0_cst, main_call0_v0, main_call0_v1, main_call0_v2,
    main_call0_v3, main_call0_v4, main_v31, main_v32, main_v33, main_v34, main_v35 ]

theorem ops1_writes : (ops1 : List (HloOp τ sig (Elt F))).Forall fun op =>
    op.writes ⊆ (w1.map (Proc.devRef (τ := τ) .tc)).toFinset := by
  simp only [ops1, List.Forall, nullary_writes, unary_writes, binary_writes, ternary_writes, reshape_writes,
    Finset.singleton_subset_iff, List.mem_toFinset]
  repeat' apply And.intro
  all_goals exact List.mem_map_of_mem (by decide)

/-- An array `ops1` does not write keeps its contents. -/
theorem ops1_frame (V : Valuation τ sig (Elt F)) {r : Ref sig .tc} (hr : r ∉ w1) :
    after ops1 V (r : DevRef τ sig) = V (r : DevRef τ sig) :=
  after_of_writes_sub ops1 V ops1_writes hr

/-- The arrays `ops2a` writes. -/
def w2a : List (Ref sig .tc) :=
  [ main_v36, main_v37, main_v38, main_v39, main_cst_2, main_v40, main_cst_3, main_v41, main_v42, main_c_4,
    main_call1_cst, main_call1_v0, main_call1_v1, main_call1_cst_0, main_call1_v2, main_call1_v3, main_call1_v4,
    main_call1_v5, main_call1_v6, main_call1_v7, main_call1_cst_1, main_call1_v8, main_call1_cst_2, main_call1_v9,
    main_call1_v10, main_call1_v11, main_call1_cst_3, main_call1_v12, main_call1_cst_4, main_call1_call0_v0,
    main_call1_call0_v1, main_v43, main_v44, main_v45, main_v46, main_cst_5, main_v47, main_v48, main_v49, main_v50,
    main_v51 ]

theorem ops2a_writes : (ops2a : List (HloOp τ sig (Elt F))).Forall fun op =>
    op.writes ⊆ (w2a.map (Proc.devRef (τ := τ) .tc)).toFinset := by
  simp only [ops2a, List.Forall, nullary_writes, unary_writes, binary_writes, ternary_writes, reshape_writes,
    Finset.singleton_subset_iff, List.mem_toFinset]
  repeat' apply And.intro
  all_goals exact List.mem_map_of_mem (by decide)

/-- An array `ops2a` does not write keeps its contents. -/
theorem ops2a_frame (V : Valuation τ sig (Elt F)) {r : Ref sig .tc} (hr : r ∉ w2a) :
    after ops2a V (r : DevRef τ sig) = V (r : DevRef τ sig) :=
  after_of_writes_sub ops2a V ops2a_writes hr

/-- The arrays `ops2b` writes. -/
def w2b : List (Ref sig .tc) :=
  [ main_v52, main_v53, main_v54, main_v55, main_v56, main_v57, main_v58 ]

theorem ops2b_writes : (ops2b : List (HloOp τ sig (Elt F))).Forall fun op =>
    op.writes ⊆ (w2b.map (Proc.devRef (τ := τ) .tc)).toFinset := by
  simp only [ops2b, List.Forall, nullary_writes, unary_writes, binary_writes, ternary_writes, reshape_writes,
    Finset.singleton_subset_iff, List.mem_toFinset]
  repeat' apply And.intro
  all_goals exact List.mem_map_of_mem (by decide)

/-- An array `ops2b` does not write keeps its contents. -/
theorem ops2b_frame (V : Valuation τ sig (Elt F)) {r : Ref sig .tc} (hr : r ∉ w2b) :
    after ops2b V (r : DevRef τ sig) = V (r : DevRef τ sig) :=
  after_of_writes_sub ops2b V ops2b_writes hr

/-- The arrays `ops3` writes. -/
def w3 : List (Ref sig .tc) :=
  [ main_v59, main_v60, main_v61, main_v62, main_v63, main_v64, main_v65, main_v66, main_c_6, main_v67, main_v68,
    main_c_7, main_v69, main_v70, main_v71, main_v72, main_v73, main_cst_8, main_v74, main_v75, main_v76, main_v77,
    main_v78, main_v79, main_v80, main_v81, main_cst_9, main_call2_cst, main_call2_v0, main_call2_v1, main_call2_v2,
    main_call2_v3, main_call2_v4, main_v82, main_v83, main_v84, main_v85, main_v86 ]

theorem ops3_writes : (ops3 : List (HloOp τ sig (Elt F))).Forall fun op =>
    op.writes ⊆ (w3.map (Proc.devRef (τ := τ) .tc)).toFinset := by
  simp only [ops3, List.Forall, nullary_writes, unary_writes, binary_writes, ternary_writes, reshape_writes,
    Finset.singleton_subset_iff, List.mem_toFinset]
  repeat' apply And.intro
  all_goals exact List.mem_map_of_mem (by decide)

/-- An array `ops3` does not write keeps its contents. -/
theorem ops3_frame (V : Valuation τ sig (Elt F)) {r : Ref sig .tc} (hr : r ∉ w3) :
    after ops3 V (r : DevRef τ sig) = V (r : DevRef τ sig) :=
  after_of_writes_sub ops3 V ops3_writes hr

/-- The arrays `ops4a` writes. -/
def w4a : List (Ref sig .tc) :=
  [ main_v87, main_v88, main_v89, main_v90, main_cst_10, main_v91, main_cst_11, main_v92, main_v93, main_c_12,
    main_call3_cst, main_call3_v0, main_call3_v1, main_call3_cst_0, main_call3_v2, main_call3_v3, main_call3_v4,
    main_call3_v5, main_call3_v6, main_call3_v7, main_call3_cst_1, main_call3_v8, main_call3_cst_2, main_call3_v9,
    main_call3_v10, main_call3_v11, main_call3_cst_3, main_call3_v12, main_call3_cst_4, main_call3_call0_v0,
    main_call3_call0_v1, main_v94, main_v95, main_v96, main_v97, main_cst_13, main_v98, main_v99, main_v100,
    main_v101, main_v102, main_v103 ]

theorem ops4a_writes : (ops4a : List (HloOp τ sig (Elt F))).Forall fun op =>
    op.writes ⊆ (w4a.map (Proc.devRef (τ := τ) .tc)).toFinset := by
  simp only [ops4a, List.Forall, nullary_writes, unary_writes, binary_writes, ternary_writes, reshape_writes,
    Finset.singleton_subset_iff, List.mem_toFinset]
  repeat' apply And.intro
  all_goals exact List.mem_map_of_mem (by decide)

/-- An array `ops4a` does not write keeps its contents. -/
theorem ops4a_frame (V : Valuation τ sig (Elt F)) {r : Ref sig .tc} (hr : r ∉ w4a) :
    after ops4a V (r : DevRef τ sig) = V (r : DevRef τ sig) :=
  after_of_writes_sub ops4a V ops4a_writes hr

/-- The arrays `ops4b` writes. -/
def w4b : List (Ref sig .tc) :=
  [ main_v104, main_v105, main_v106, main_v107, main_v108, main_v109 ]

theorem ops4b_writes : (ops4b : List (HloOp τ sig (Elt F))).Forall fun op =>
    op.writes ⊆ (w4b.map (Proc.devRef (τ := τ) .tc)).toFinset := by
  simp only [ops4b, List.Forall, nullary_writes, unary_writes, binary_writes, ternary_writes, reshape_writes,
    Finset.singleton_subset_iff, List.mem_toFinset]
  repeat' apply And.intro
  all_goals exact List.mem_map_of_mem (by decide)

/-- An array `ops4b` does not write keeps its contents. -/
theorem ops4b_frame (V : Valuation τ sig (Elt F)) {r : Ref sig .tc} (hr : r ∉ w4b) :
    after ops4b V (r : DevRef τ sig) = V (r : DevRef τ sig) :=
  after_of_writes_sub ops4b V ops4b_writes hr

/-- The arrays `ops5` writes. -/
def w5 : List (Ref sig .tc) :=
  [ main_v110, main_v111, main_v112, main_v113, main_v114, main_v115, main_v116, main_v117, main_c_14, main_v118,
    main_v119, main_c_15, main_v120, main_v121, main_v122, main_v123, main_v124, main_cst_16, main_v125, main_v126,
    main_v127, main_v128, main_v129, main_v130, main_v131, main_v132, main_cst_17, main_call4_cst, main_call4_v0,
    main_call4_v1, main_call4_v2, main_call4_v3, main_call4_v4, main_v133, main_v134, main_v135, main_v136,
    main_v137 ]

theorem ops5_writes : (ops5 : List (HloOp τ sig (Elt F))).Forall fun op =>
    op.writes ⊆ (w5.map (Proc.devRef (τ := τ) .tc)).toFinset := by
  simp only [ops5, List.Forall, nullary_writes, unary_writes, binary_writes, ternary_writes, reshape_writes,
    Finset.singleton_subset_iff, List.mem_toFinset]
  repeat' apply And.intro
  all_goals exact List.mem_map_of_mem (by decide)

/-- An array `ops5` does not write keeps its contents. -/
theorem ops5_frame (V : Valuation τ sig (Elt F)) {r : Ref sig .tc} (hr : r ∉ w5) :
    after ops5 V (r : DevRef τ sig) = V (r : DevRef τ sig) :=
  after_of_writes_sub ops5 V ops5_writes hr

/-- The arrays `ops6` writes. -/
def w6 : List (Ref sig .tc) :=
  [ main_v138, main_v139, main_v140, main_v141, main_cst_18, main_call5_cst, main_call5_v0, main_call5_v1,
    main_call5_v2, main_call5_v3, main_call5_v4, main_v142, main_v143, main_v144, main_v145, main_v146, main_v147 ]

theorem ops6_writes : (ops6 : List (HloOp τ sig (Elt F))).Forall fun op =>
    op.writes ⊆ (w6.map (Proc.devRef (τ := τ) .tc)).toFinset := by
  simp only [ops6, List.Forall, nullary_writes, unary_writes, binary_writes, ternary_writes, reshape_writes,
    Finset.singleton_subset_iff, List.mem_toFinset]
  repeat' apply And.intro
  all_goals exact List.mem_map_of_mem (by decide)

/-- An array `ops6` does not write keeps its contents. -/
theorem ops6_frame (V : Valuation τ sig (Elt F)) {r : Ref sig .tc} (hr : r ∉ w6) :
    after ops6 V (r : DevRef τ sig) = V (r : DevRef τ sig) :=
  after_of_writes_sub ops6 V ops6_writes hr

/-- The first normalisation, both stretches. -/
theorem ops2_frame (V : Valuation τ sig (Elt F)) {r : Ref sig .tc} (ha : r ∉ w2a) (hb : r ∉ w2b) :
    after ops2 V (r : DevRef τ sig) = V (r : DevRef τ sig) := by
  show after (ops2a ++ ops2b) V _ = _
  rw [FoldSplit.after_append, ops2b_frame _ hb, ops2a_frame _ ha]

/-- The second normalisation, both stretches. -/
theorem ops4_frame (V : Valuation τ sig (Elt F)) {r : Ref sig .tc} (ha : r ∉ w4a) (hb : r ∉ w4b) :
    after ops4 V (r : DevRef τ sig) = V (r : DevRef τ sig) := by
  show after (ops4a ++ ops4b) V _ = _
  rw [FoldSplit.after_append, ops4b_frame _ hb, ops4a_frame _ ha]

end Cert.ReferenceIdeal.Hand

end
-- ==== Proof.RefValue.lean ====
/-
  The reference's whole line read back: its result array is the network of its arguments' contents, recast to 20 by
  320000, and its arguments end as they began.

  The line is run stage by stage. No stage writes an argument, and none after the first writes the two index rows cut
  out of the edge table, so every stage runs from contents that still hold them (`Keeps`); each stage's output is then
  the network's stage of the previous stage's output, and the seven stages compose to the network.
-/
import proofs.«117363_j52089363366042_1_alg».proof.Proof.RefStagesA
import proofs.«117363_j52089363366042_1_alg».proof.Proof.RefStagesB
import proofs.«117363_j52089363366042_1_alg».proof.Proof.RefStagesC
import proofs.«117363_j52089363366042_1_alg».proof.Proof.RefFrame

noncomputable section

namespace Cert.ReferenceIdeal.Hand

open Cert Cert.ReferenceIdeal Cert.ReferenceIdeal.Gen Idealize.ShloMosaic Idealize.ShloMosaic.TcCoe Idealize.SL.Sem Idealize.ShloMosaic.StableHlo
open Idealize.ShloMosaic.ValueIdx

/-- The program's arguments. -/
def argRefs : List (Ref sig .tc) :=
  [ main_arg0, main_arg1, main_arg2, main_arg3, main_arg4, main_arg5, main_arg6, main_arg7, main_arg8, main_arg9,
    main_arg10, main_arg11, main_arg12, main_arg13 ]

/-- Contents `W` that hold what `V` holds at every argument, and at the two index rows the rows of `V`'s edge table. -/
structure Keeps (V W : Valuation τ sig (Elt Ideal)) : Prop where
  args : ∀ r ∈ argRefs, W (r : DevRef τ sig) = V (r : DevRef τ sig)
  src : W (main_v1 : DevRef τ sig) = srcR (V (main_arg1 : DevRef τ sig))
  dst : W (main_v3 : DevRef τ sig) = dstR (V (main_arg1 : DevRef τ sig))

/-- A stretch that writes no argument and neither index row keeps them. -/
theorem Keeps.step {V W : Valuation τ sig (Elt Ideal)} (k : Keeps V W) (l : List (HloOp τ sig (Elt Ideal)))
    (w : List (Ref sig .tc))
    (fr : ∀ (U : Valuation τ sig (Elt Ideal)) {r : Ref sig .tc}, r ∉ w → after l U (r : DevRef τ sig) = U (r : DevRef τ sig))
    (ha : ∀ r ∈ argRefs, r ∉ w) (h1 : main_v1 ∉ w) (h3 : main_v3 ∉ w) : Keeps V (after l W) :=
  ⟨fun r hr => (fr W (ha r hr)).trans (k.args r hr), (fr W h1).trans k.src, (fr W h3).trans k.dst⟩

/-- After the first stage: the arguments untouched, the index rows just cut out. -/
theorem keeps0 (V : Valuation τ sig (Elt Ideal)) : Keeps V (after ops0 V) :=
  ⟨fun r hr => ops0_frame V ((by decide : ∀ r ∈ argRefs, r ∉ w0) r hr), ops0_v1 V, ops0_v3 V⟩

theorem keeps1 {V W : Valuation τ sig (Elt Ideal)} (k : Keeps V W) : Keeps V (after ops1 W) :=
  k.step ops1 w1 (fun U _ hr => ops1_frame U hr) (by decide) (by decide) (by decide)

theorem keeps2 {V W : Valuation τ sig (Elt Ideal)} (k : Keeps V W) : Keeps V (after ops2 W) := by
  rw [show after ops2 W = after ops2b (after ops2a W) from FoldSplit.after_append ops2a ops2b W]
  exact (k.step ops2a w2a (fun U _ hr => ops2a_frame U hr) (by decide) (by decide) (by decide)).step ops2b w2b
    (fun U _ hr => ops2b_frame U hr) (by decide) (by decide) (by decide)

theorem keeps3 {V W : Valuation τ sig (Elt Ideal)} (k : Keeps V W) : Keeps V (after ops3 W) :=
  k.step ops3 w3 (fun U _ hr => ops3_frame U hr) (by decide) (by decide) (by decide)

theorem keeps4 {V W : Valuation τ sig (Elt Ideal)} (k : Keeps V W) : Keeps V (after ops4 W) := by
  rw [show after ops4 W = after ops4b (after ops4a W) from FoldSplit.after_append ops4a ops4b W]
  exact (k.step ops4a w4a (fun U _ hr => ops4a_frame U hr) (by decide) (by decide) (by decide)).step ops4b w4b
    (fun U _ hr => ops4b_frame U hr) (by decide) (by decide) (by decide)

theorem keeps5 {V W : Valuation τ sig (Elt Ideal)} (k : Keeps V W) : Keeps V (after ops5 W) :=
  k.step ops5 w5 (fun U _ hr => ops5_frame U hr) (by decide) (by decide) (by decide)

theorem keeps6 {V W : Valuation τ sig (Elt Ideal)} (k : Keeps V W) : Keeps V (after ops6 W) :=
  k.step ops6 w6 (fun U _ hr => ops6_frame U hr) (by decide) (by decide) (by decide)

/-! ## Each stage from kept contents -/

/-- Message passing, layer 0, from contents that keep the arguments and the index rows. -/
theorem stage1 {V W : Valuation τ sig (Elt Ideal)} (k : Keeps V W) {h : Gin.Tab} (e : W (main_v7 : DevRef τ sig) = h) :
    after ops1 W (main_v35 : DevRef τ sig)
      = Gin.gin (segR (srcR (V (main_arg1 : DevRef τ sig))) (dstR (V (main_arg1 : DevRef τ sig)))) h (mat3R 0 (V (main_arg4 : DevRef τ sig))) (row3R 0 (V (main_arg5 : DevRef τ sig))) (mat3R 0 (V (main_arg6 : DevRef τ sig))) (row3R 0 (V (main_arg7 : DevRef τ sig))) := by
  rw [ops1_v35, e, k.src, k.dst, k.args main_arg4 (by decide), k.args main_arg5 (by decide),
    k.args main_arg6 (by decide), k.args main_arg7 (by decide)]

/-- Normalisation 0, from contents that keep the arguments. -/
theorem stage2 {V W : Valuation τ sig (Elt Ideal)} (k : Keeps V W) {h : Gin.Tab} (e : W (main_v35 : DevRef τ sig) = h) :
    after ops2 W (main_v58 : DevRef τ sig)
      = Gin.norm meanR (varR (constantI S_ 32 0#32)) h (row2R 0 (V (main_arg8 : DevRef τ sig))) (row2R 0 (V (main_arg9 : DevRef τ sig))) := by
  rw [ops2_v58, e, k.args main_arg8 (by decide), k.args main_arg9 (by decide)]

/-- Message passing, layer 1, from contents that keep the arguments and the index rows. -/
theorem stage3 {V W : Valuation τ sig (Elt Ideal)} (k : Keeps V W) {h : Gin.Tab} (e : W (main_v58 : DevRef τ sig) = h) :
    after ops3 W (main_v86 : DevRef τ sig)
      = Gin.gin (segR (srcR (V (main_arg1 : DevRef τ sig))) (dstR (V (main_arg1 : DevRef τ sig)))) h (mat3R 1 (V (main_arg4 : DevRef τ sig))) (row3R 1 (V (main_arg5 : DevRef τ sig))) (mat3R 1 (V (main_arg6 : DevRef τ sig))) (row3R 1 (V (main_arg7 : DevRef τ sig))) := by
  rw [ops3_v86, e, k.src, k.dst, k.args main_arg4 (by decide), k.args main_arg5 (by decide),
    k.args main_arg6 (by decide), k.args main_arg7 (by decide)]

/-- Normalisation 1, from contents that keep the arguments. -/
theorem stage4 {V W : Valuation τ sig (Elt Ideal)} (k : Keeps V W) {h : Gin.Tab} (e : W (main_v86 : DevRef τ sig) = h) :
    after ops4 W (main_v109 : DevRef τ sig)
      = Gin.norm meanR (varR (constantI S_ 32 0#32)) h (row2R 1 (V (main_arg8 : DevRef τ sig))) (row2R 1 (V (main_arg9 : DevRef τ sig))) := by
  rw [ops4_v109, e, k.args main_arg8 (by decide), k.args main_arg9 (by decide)]

/-- Message passing, layer 2, from contents that keep the arguments and the index rows. -/
theorem stage5 {V W : Valuation τ sig (Elt Ideal)} (k : Keeps V W) {h : Gin.Tab} (e : W (main_v109 : DevRef τ sig) = h) :
    after ops5 W (main_v137 : DevRef τ sig)
      = Gin.gin (segR (srcR (V (main_arg1 : DevRef τ sig))) (dstR (V (main_arg1 : DevRef τ sig)))) h (mat3R 2 (V (main_arg4 : DevRef τ sig))) (row3R 2 (V (main_arg5 : DevRef τ sig))) (mat3R 2 (V (main_arg6 : DevRef τ sig))) (row3R 2 (V (main_arg7 : DevRef τ sig))) := by
  rw [ops5_v137, e, k.src, k.dst, k.args main_arg4 (by decide), k.args main_arg5 (by decide),
    k.args main_arg6 (by decide), k.args main_arg7 (by decide)]

/-- The last perceptron and the recast, from contents that keep the arguments. -/
theorem stage6 {V W : Valuation τ sig (Elt Ideal)} (k : Keeps V W) {h : Gin.Tab} (e : W (main_v137 : DevRef τ sig) = h) :
    after ops6 W (main_v147 : DevRef τ sig)
      = shapeCast S20x320000 (Gin.mlp h (V (main_arg10 : DevRef τ sig)) (V (main_arg11 : DevRef τ sig)) (V (main_arg12 : DevRef τ sig)) (V (main_arg13 : DevRef τ sig))) shapeCasts_S100000x64_S20x320000 := by
  rw [ops6_v147, e, k.args main_arg10 (by decide), k.args main_arg11 (by decide), k.args main_arg12 (by decide),
    k.args main_arg13 (by decide)]

/-! ## The whole line -/

/-- The whole line is its seven stages run in order. -/
theorem after_ops (V : Valuation τ sig (Elt Ideal)) :
    after ops V = after ops6 (after ops5 (after ops4 (after ops3 (after ops2 (after ops1 (after ops0 V)))))) := by
  show after (ops0 ++ ops1 ++ ops2 ++ ops3 ++ ops4 ++ ops5 ++ ops6) V = _
  rw [FoldSplit.after_append (ops0 ++ ops1 ++ ops2 ++ ops3 ++ ops4 ++ ops5) ops6,
    FoldSplit.after_append (ops0 ++ ops1 ++ ops2 ++ ops3 ++ ops4) ops5,
    FoldSplit.after_append (ops0 ++ ops1 ++ ops2 ++ ops3) ops4,
    FoldSplit.after_append (ops0 ++ ops1 ++ ops2) ops3,
    FoldSplit.after_append (ops0 ++ ops1) ops2,
    FoldSplit.after_append ops0 ops1]

/-- After the whole line the arguments and the index rows are kept. -/
theorem keeps_all (V : Valuation τ sig (Elt Ideal)) : Keeps V (after ops V) := by
  rw [after_ops]
  exact keeps6 (keeps5 (keeps4 (keeps3 (keeps2 (keeps1 (keeps0 V))))))

/-- The result array after the whole line: the network of the arguments' contents, recast to 20 by 320000. -/
theorem ref_value (V : Valuation τ sig (Elt Ideal)) :
    after ops V (main_v147 : DevRef τ sig)
      = shapeCast S20x320000 (Gin.net (segR (srcR (V (main_arg1 : DevRef τ sig))) (dstR (V (main_arg1 : DevRef τ sig)))) meanR (varR (constantI S_ 32 0#32))
          (V (main_arg0 : DevRef τ sig)) (V (main_arg2 : DevRef τ sig)) (V (main_arg3 : DevRef τ sig))
          (fun l => mat3R l (V (main_arg4 : DevRef τ sig))) (fun l => row3R l (V (main_arg5 : DevRef τ sig)))
          (fun l => mat3R l (V (main_arg6 : DevRef τ sig))) (fun l => row3R l (V (main_arg7 : DevRef τ sig)))
          (fun l => row2R l (V (main_arg8 : DevRef τ sig))) (fun l => row2R l (V (main_arg9 : DevRef τ sig)))
          (V (main_arg10 : DevRef τ sig)) (V (main_arg11 : DevRef τ sig)) (V (main_arg12 : DevRef τ sig)) (V (main_arg13 : DevRef τ sig))) shapeCasts_S100000x64_S20x320000 := by
  rw [after_ops]
  have k0 := keeps0 V
  have k1 := keeps1 k0
  have k2 := keeps2 k1
  have k3 := keeps3 k2
  have k4 := keeps4 k3
  have k5 := keeps5 k4
  exact stage6 k5 (stage5 k4 (stage4 k3 (stage3 k2 (stage2 k1 (stage1 k0 (ops0_v7 V))))))

/-! ## The arguments end as they began -/

theorem ref_arg0 (V : Valuation τ sig (Elt Ideal)) : after ops V (main_arg0 : DevRef τ sig) = V (main_arg0 : DevRef τ sig) :=
  (keeps_all V).args main_arg0 (by decide)

theorem ref_arg1 (V : Valuation τ sig (Elt Ideal)) : after ops V (main_arg1 : DevRef τ sig) = V (main_arg1 : DevRef τ sig) :=
  (keeps_all V).args main_arg1 (by decide)

theorem ref_arg2 (V : Valuation τ sig (Elt Ideal)) : after ops V (main_arg2 : DevRef τ sig) = V (main_arg2 : DevRef τ sig) :=
  (keeps_all V).args main_arg2 (by decide)

theorem ref_arg3 (V : Valuation τ sig (Elt Ideal)) : after ops V (main_arg3 : DevRef τ sig) = V (main_arg3 : DevRef τ sig) :=
  (keeps_all V).args main_arg3 (by decide)

theorem ref_arg4 (V : Valuation τ sig (Elt Ideal)) : after ops V (main_arg4 : DevRef τ sig) = V (main_arg4 : DevRef τ sig) :=
  (keeps_all V).args main_arg4 (by decide)

theorem ref_arg5 (V : Valuation τ sig (Elt Ideal)) : after ops V (main_arg5 : DevRef τ sig) = V (main_arg5 : DevRef τ sig) :=
  (keeps_all V).args main_arg5 (by decide)

theorem ref_arg6 (V : Valuation τ sig (Elt Ideal)) : after ops V (main_arg6 : DevRef τ sig) = V (main_arg6 : DevRef τ sig) :=
  (keeps_all V).args main_arg6 (by decide)

theorem ref_arg7 (V : Valuation τ sig (Elt Ideal)) : after ops V (main_arg7 : DevRef τ sig) = V (main_arg7 : DevRef τ sig) :=
  (keeps_all V).args main_arg7 (by decide)

theorem ref_arg8 (V : Valuation τ sig (Elt Ideal)) : after ops V (main_arg8 : DevRef τ sig) = V (main_arg8 : DevRef τ sig) :=
  (keeps_all V).args main_arg8 (by decide)

theorem ref_arg9 (V : Valuation τ sig (Elt Ideal)) : after ops V (main_arg9 : DevRef τ sig) = V (main_arg9 : DevRef τ sig) :=
  (keeps_all V).args main_arg9 (by decide)

theorem ref_arg10 (V : Valuation τ sig (Elt Ideal)) : after ops V (main_arg10 : DevRef τ sig) = V (main_arg10 : DevRef τ sig) :=
  (keeps_all V).args main_arg10 (by decide)

theorem ref_arg11 (V : Valuation τ sig (Elt Ideal)) : after ops V (main_arg11 : DevRef τ sig) = V (main_arg11 : DevRef τ sig) :=
  (keeps_all V).args main_arg11 (by decide)

theorem ref_arg12 (V : Valuation τ sig (Elt Ideal)) : after ops V (main_arg12 : DevRef τ sig) = V (main_arg12 : DevRef τ sig) :=
  (keeps_all V).args main_arg12 (by decide)

theorem ref_arg13 (V : Valuation τ sig (Elt Ideal)) : after ops V (main_arg13 : DevRef τ sig) = V (main_arg13 : DevRef τ sig) :=
  (keeps_all V).args main_arg13 (by decide)

end Cert.ReferenceIdeal.Hand

end
-- ==== Proof.RefRun.lean ====
/-
  The reference program's run: from any memory with zero counters, every weakly fair execution terminates with the result
  array at the network of the arguments' initial contents, recast to 20 by 320000, and the arguments unchanged.
-/
import proofs.«117363_j52089363366042_1_alg».proof.Proof.RefValue

noncomputable section

namespace Cert.ReferenceIdeal.Hand

open Cert Cert.ReferenceIdeal Cert.ReferenceIdeal.Gen Idealize.ShloMosaic Idealize.ShloMosaic.TcCoe Idealize.SL.Sem Idealize.ShloMosaic.StableHlo
open Idealize.ShloMosaic.ValueIdx

/-- The network of the arguments' contents in memory `m` on device `c`, recast to 20 by 320000. -/
def resultR (m : (ℓ : Loc nD τ sig) → Buf (Elt Ideal) ℓ) (c : Dev nD) : FVec Ideal S20x320000 .f32 :=
  shapeCast S20x320000 (Gin.net (segR (srcR (m ((c.tc : Thread nD τ).loc main_arg1))) (dstR (m ((c.tc : Thread nD τ).loc main_arg1)))) meanR (varR (constantI S_ 32 0#32))
            (m ((c.tc : Thread nD τ).loc main_arg0)) (m ((c.tc : Thread nD τ).loc main_arg2)) (m ((c.tc : Thread nD τ).loc main_arg3))
            (fun l => mat3R l (m ((c.tc : Thread nD τ).loc main_arg4))) (fun l => row3R l (m ((c.tc : Thread nD τ).loc main_arg5)))
            (fun l => mat3R l (m ((c.tc : Thread nD τ).loc main_arg6))) (fun l => row3R l (m ((c.tc : Thread nD τ).loc main_arg7)))
            (fun l => row2R l (m ((c.tc : Thread nD τ).loc main_arg8))) (fun l => row2R l (m ((c.tc : Thread nD τ).loc main_arg9)))
            (m ((c.tc : Thread nD τ).loc main_arg10)) (m ((c.tc : Thread nD τ).loc main_arg11)) (m ((c.tc : Thread nD τ).loc main_arg12)) (m ((c.tc : Thread nD τ).loc main_arg13))) shapeCasts_S100000x64_S20x320000

theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v147) = resultR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    ⟨(h c main_v147).trans (ref_value (launchContents m c)),
      (h c main_arg0).trans (ref_arg0 (launchContents m c)),
      (h c main_arg1).trans (ref_arg1 (launchContents m c)),
      (h c main_arg2).trans (ref_arg2 (launchContents m c)),
      (h c main_arg3).trans (ref_arg3 (launchContents m c)),
      (h c main_arg4).trans (ref_arg4 (launchContents m c)),
      (h c main_arg5).trans (ref_arg5 (launchContents m c)),
      (h c main_arg6).trans (ref_arg6 (launchContents m c)),
      (h c main_arg7).trans (ref_arg7 (launchContents m c)),
      (h c main_arg8).trans (ref_arg8 (launchContents m c)),
      (h c main_arg9).trans (ref_arg9 (launchContents m c)),
      (h c main_arg10).trans (ref_arg10 (launchContents m c)),
      (h c main_arg11).trans (ref_arg11 (launchContents m c)),
      (h c main_arg12).trans (ref_arg12 (launchContents m c)),
      (h c main_arg13).trans (ref_arg13 (launchContents m c))⟩)
    (run_main m ρ)

end Cert.ReferenceIdeal.Hand

end
-- ==== Proof.Bridge.lean ====
/-
  The two programs compute one table. Both results are the specification's network, re-laid, each at its own
  program's aggregation, column statistics and slices; those are the same shared compositions taken at the two
  programs' dimension records, and the records hold the same dimension numbers. So from argument arrays that
  agree the two results are equal.
-/
import proofs.«117363_j52089363366042_1_alg».proof.Proof.KValue
import proofs.«117363_j52089363366042_1_alg».proof.Proof.RefRun

set_option maxRecDepth 16384

noncomputable section

namespace Cert.Bridge

open Idealize.ShloMosaic Idealize.SL.Sem
open Cert

/-! ## The shared compositions at the two programs' records -/

theorem src_eq : @Cert.ReferenceIdeal.Hand.srcR = @Cert.KernelIdeal.Hand.srcK := rfl
theorem dst_eq : @Cert.ReferenceIdeal.Hand.dstR = @Cert.KernelIdeal.Hand.dstK := rfl
theorem seg_eq : @Cert.ReferenceIdeal.Hand.segR = @Cert.KernelIdeal.Hand.segK := rfl
theorem mean_eq : @Cert.ReferenceIdeal.Hand.meanR = @Cert.KernelIdeal.Hand.meanK := rfl
theorem var_eq : @Cert.ReferenceIdeal.Hand.varR = @Cert.KernelIdeal.Hand.varK := rfl
theorem mat3_eq : @Cert.ReferenceIdeal.Hand.mat3R = @Cert.KernelIdeal.Hand.mat3K := by
  funext l
  match l with
  | 0 => rfl
  | 1 => rfl
  | 2 => rfl
theorem row3_eq : @Cert.ReferenceIdeal.Hand.row3R = @Cert.KernelIdeal.Hand.row3K := by
  funext l
  match l with
  | 0 => rfl
  | 1 => rfl
  | 2 => rfl
theorem row2_eq : @Cert.ReferenceIdeal.Hand.row2R = @Cert.KernelIdeal.Hand.row2K := by
  funext l
  match l with
  | 0 => rfl
  | 1 => rfl

/-! ## The results -/

/-- From argument arrays that agree, the reference's result is the kernel program's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Hand.resultR m' c = Cert.KernelIdeal.Hand.resultK m c := by
  obtain ⟨e0, e1, e2, e3, e4, e5, e6, e7, e8, e9, e10, e11, e12, e13⟩ := h
  unfold Cert.ReferenceIdeal.Hand.resultR Cert.KernelIdeal.Hand.resultK Cert.KernelIdeal.Hand.sgK
  rw [e0, e1, e2, e3, e4, e5, e6, e7, e8, e9, e10, e11, e12, e13,
    src_eq, dst_eq, seg_eq, mean_eq, var_eq, mat3_eq, row3_eq, row2_eq]

end Cert.Bridge

end
-- ==== Proof.lean ====
/-
  A three-layer message-passing network on 100000 nodes of 64 features, computed two ways.

  The kernel program runs the dense stages as seven tiled launches — a first dense layer, three two-layer
  perceptrons of a node's row plus its aggregated in-neighbours, two column normalisations, a last two-layer
  perceptron — each over ten slabs of 10000 rows, with the aggregation over the 1.6 million edges, the column
  means and variances and the slicing of the stacked weights done by host operations between the launches. The
  reference runs every stage as host operations on the whole tables.

  On the extended reals the two agree entry by entry. A launch's output array is a row-wise function of its
  input arrays: the products contract over the 64 features of ONE row, so the result on a slab of rows is the slab
  of the result on the whole table, and ten slabs fill the table. A narrowing of the products' operands is the
  identity there. The aggregation and the column statistics are the SAME compositions of host operations in both
  programs, applied to equal tables, and are never opened. No step moves a factor across a sum or cancels
  anything, so the finiteness of the inputs is not used.

  The frames of the two kernel programs are the generated ones; the reference's is its run with the result
  forgotten; no operation was rewritten by the idealization, so there is nothing to preserve.
-/
import proofs.«117363_j52089363366042_1_alg».proof.Defs
import proofs.«117363_j52089363366042_1_alg».proof.Proof.Gen.Kernel
import proofs.«117363_j52089363366042_1_alg».proof.Proof.Gen.Kernel.Frame
import proofs.«117363_j52089363366042_1_alg».proof.Proof.Gen.KernelIdeal
import proofs.«117363_j52089363366042_1_alg».proof.Proof.Gen.KernelIdeal.Frame
import proofs.«117363_j52089363366042_1_alg».proof.Proof.Gen.ReferenceIdeal
import proofs.«117363_j52089363366042_1_alg».proof.Proof.Gen.Pre_finite_inputs
import proofs.«117363_j52089363366042_1_alg».proof.Proof.KRegionsAll
import proofs.«117363_j52089363366042_1_alg».proof.Proof.KValue
import proofs.«117363_j52089363366042_1_alg».proof.Proof.RefRun
import proofs.«117363_j52089363366042_1_alg».proof.Proof.Bridge

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's run with the result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Hand.run_value m ρ)

/-- Both runs end with the network's table of the (agreeing) arguments, re-laid. -/
theorem algebraic : @Cert.algebraic_KernelIdeal_ReferenceIdeal Cert.KernelIdeal.Gen.facts Cert.ReferenceIdeal.Gen.facts Cert.Pre_finite_inputs.Gen.facts :=
  fun m ρ m' ρ' _ hagree =>
    ⟨fun c => Cert.KernelIdeal.Hand.resultK m c,
      Cert.KernelIdeal.Hand.run_value Cert.KernelIdeal.Hand.regionValues m ρ,
      (θ_run Cert.ReferenceIdeal.defs _ _).mono
        (fun _ h c => ⟨(h c).1.trans (Cert.Bridge.result_eq m m' c (hagree c)), (h c).2⟩)
        (Cert.ReferenceIdeal.Hand.run_value m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
